-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x512 .f32) (main_arg1 : IVec S2x1600000 32) (main_arg2 : FVec F S1600000 .f32) (main_arg3 : FVec F S512x128 .f32) (main_arg4 : FVec F S128 .f32) (main_arg5 : FVec F S128x16 .f32) (main_arg6 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x512 : Shape := ⟨2, ![2000, 512]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S100000x16 : Shape := ⟨2, ![100000, 16]⟩
abbrev S2000x16 : Shape := ⟨2, ![2000, 16]⟩
abbrev S1600000x16 : Shape := ⟨2, ![1600000, 16]⟩
abbrev S1x16 : Shape := ⟨2, ![1, 16]⟩
abbrev S2000 : Shape := ⟨1, ![2000]⟩

abbrev nBuf : Space → Nat
  | .hbm => 86
  | .vmem => 28
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000, .f32⟩
  | .hbm, ⟨47, _⟩ => ⟨S100000x1, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x16, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x16, .f32⟩
  | .hbm, ⟨77, _⟩ => ⟨S1600000x1, .f32⟩
  | .hbm, ⟨78, _⟩ => ⟨S1600000x16, .f32⟩
  | .hbm, ⟨79, _⟩ => ⟨S1600000x16, .f32⟩
  | .hbm, ⟨80, _⟩ => ⟨S_, .f32⟩
  | .hbm, ⟨81, _⟩ => ⟨S100000x16, .f32⟩
  | .hbm, ⟨82, _⟩ => ⟨S1600000x1, .i32⟩
  | .hbm, ⟨83, _⟩ => ⟨S100000x16, .f32⟩
  | .hbm, ⟨84, _⟩ => ⟨S1x16, .f32⟩
  | .hbm, ⟨85, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x16, .f32⟩
  | .local _ .vmem, ⟨17, _⟩ => ⟨S2000x16, .f32⟩
  | .local _ .vmem, ⟨18, _⟩ => ⟨S2000x16, .f32⟩
  | .local _ .vmem, ⟨19, _⟩ => ⟨S2000x16, .f32⟩
  | .local _ .vmem, ⟨20, _⟩ => ⟨S2000x16, .f32⟩
  | .local _ .vmem, ⟨21, _⟩ => ⟨S2000x16, .f32⟩
  | .local _ .vmem, ⟨22, _⟩ => ⟨S2000x16, .f32⟩
  | .local _ .vmem, ⟨23, _⟩ => ⟨S2000x1, .f32⟩
  | .local _ .vmem, ⟨24, _⟩ => ⟨S2000x1, .f32⟩
  | .local _ .vmem, ⟨25, _⟩ => ⟨S1x16, .f32⟩
  | .local _ .vmem, ⟨26, _⟩ => ⟨S2000x16, .f32⟩
  | .local _ .vmem, ⟨27, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100000_S100000x1 : S100000.ShapeCasts S100000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x16_S128x16_0_0 : ∀ a, (![0, 0] : Fin 2 → Nat) a + S128x16.size a ≤ S128x16.size a
  h_S128x16 : 0 < S128x16.numel
  inb_S2000x16_S2000x16_0_0 : ∀ a, (![0, 0] : Fin 2 → Nat) a + S2000x16.size a ≤ S2000x16.size a
  h_S2000x16 : 0 < S2000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x16_S2000x16_1_0_0_1_n_n_wf : DotDims.WF S2000x128 S128x16 S2000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x16.size a ≤ S100000x16.size a
  hwx3_1 : ∀ i : grid3.Coords, EltTy.bits .f32 = 32 ∨ (Rect.block (s := S100000x16) S2000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x16.size a ≤ S100000x16.size a
  hwx3_4 : ∀ i : grid3.Coords, EltTy.bits .f32 = 32 ∨ (Rect.block (s := S100000x16) S2000x16.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S2000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 145
  | .vmem => 0
  | .smem => 0
  | _ => 0

abbrev hbmTy0_0 (i : Nat) : BufTy := match i % 128 with
  | 0 => ⟨S100000x512, .f32⟩
  | 1 => ⟨S2x1600000, .i32⟩
  | 2 => ⟨S1600000, .f32⟩
  | 3 => ⟨S512x128, .f32⟩
  | 4 => ⟨S128, .f32⟩
  | 5 => ⟨S128x16, .f32⟩
  | 6 => ⟨S16, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000, .i32⟩
  | 73 => ⟨S1700000, .i32⟩
  | 74 => ⟨S1700000, .i32⟩
  | 75 => ⟨S_, .f32⟩
  | 76 => ⟨S100000, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x16, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x16, .f32⟩
  | 120 => ⟨S1700000x1, .f32⟩
  | 121 => ⟨S1700000x16, .f32⟩
  | 122 => ⟨S1700000x16, .f32⟩
  | 123 => ⟨S_, .f32⟩
  | 124 => ⟨S100000x16, .f32⟩
  | 125 => ⟨S1700000x1, .i32⟩
  | 126 => ⟨S100000x16, .f32⟩
  | 127 => ⟨S1x16, .f32⟩
  | _ => ⟨S100000x512, .f32⟩

abbrev hbmTy0_1 (i : Nat) : BufTy := match i % 128 with
  | 0 => ⟨S100000x16, .f32⟩
  | 1 => ⟨S100000x16, .f32⟩
  | 2 => ⟨S_, .f32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x16, .f32⟩
  | 9 => ⟨S100000x16, .f32⟩
  | 10 => ⟨S100000x16, .f32⟩
  | 11 => ⟨S_, .f32⟩
  | 12 => ⟨S100000, .f32⟩
  | 13 => ⟨S100000x1, .f32⟩
  | 14 => ⟨S100000x1, .f32⟩
  | 15 => ⟨S100000x16, .f32⟩
  | 16 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_call3_cst_0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_v6 : Ref sig .tc := ⟨.hbm, 138, rfl⟩
abbrev main_call3_cst_1 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_v95 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run with its result named.

  The program is nine segments: stretches of host operations and four tiled regions.  The contents of every buffer at
  each segment boundary are a fold from the launch memory; every weakly fair execution ends with every unscoped
  buffer at the last boundary's contents.  Here the result buffer is read at those contents, beside the seven
  argument arrays, which end as launched.
-/
import proofs.«177980_j66692252172820_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.ValueRun

end
-- ==== Proof.IndexOps.lean ====
/-
  Row numbers as the host reads them, and two vectors joined end to end.

  An index vector is used in two ways.  A gather first adds the table's row count to a negative index and then reads
  the result as a signed integer clamped into the table; a scatter reads the index as a signed integer as it stands.
  The row numbers `0 … 99999` written by an iota are left alone by both readings.  A vector of 1,600,000 entries
  followed by one of 100,000 is read at an entry of either part, and a sum over the joined index set splits into the
  sums over the parts.
-/
import Idealize.ShloMosaic.Lib.ValueIdx
import Idealize.ShloMosaic.Lib.ValueLayout
import Idealize.ShloMosaic.Lib.Pipeline.Value

noncomputable section

namespace Cert.IndexOps

open Idealize.ShloMosaic Idealize.ShloMosaic.ValueIdx

/-- A row number counted from the end when negative: 100000 is added to a negative index. -/
def wrap (b : BitVec 32) : BitVec 32 :=
  Scalar.select (IntOp.cmpi .slt b 0#32) (IntOp.addi b 100000#32) b

/-- The three vector operations that normalise an index vector, read at an entry. -/
theorem wrap_apply {s : Shape} (v : IVec s 32) (h : (⟨0, ![]⟩ : Shape).BroadcastsInDim s ![]) (i : s.Idx) :
    select (cmpi .slt v (broadcastInDim s ![] h (constantI ⟨0, ![]⟩ 32 0#32)))
      (addi v (broadcastInDim s ![] h (constantI ⟨0, ![]⟩ 32 100000#32))) v i = wrap (v i) := rfl

/-- A row number below 100000, as a 32-bit word, read as a signed integer, is the number. -/
theorem toInt_ofNat_row {k : Nat} (hk : k < 100000) : (BitVec.ofNat 32 k).toInt = (k : Int) := by
  have h1 : (BitVec.ofNat 32 k).toNat = k := by
    rw [BitVec.toNat_ofNat]; exact Nat.mod_eq_of_lt (by omega)
  rw [BitVec.toInt_eq_toNat_cond, h1, if_pos (by omega)]

/-- Such a row number is not negative, so it is left as it is. -/
theorem wrap_ofNat_row {k : Nat} (hk : k < 100000) : wrap (BitVec.ofNat 32 k) = BitVec.ofNat 32 k := by
  have h : (BitVec.ofNat 32 k).slt 0#32 = false := by
    rw [BitVec.slt, toInt_ofNat_row hk]
    simp
  unfold wrap IntOp.cmpi Scalar.select
  simp only [h]
  rfl

/-- The iota vector's entry `k` is the word of `k`. -/
theorem iota_apply {n : Nat} (k : Fin n) : iotaInDim (⟨1, ![n]⟩ : Shape) 32 0 (ix1 k) = BitVec.ofNat 32 k.val := rfl

/-! ## Two vectors joined end to end -/

/-- An entry of the first part. -/
theorem joined_left {α : Type} (a : (⟨1, ![1600000]⟩ : Shape).Idx → α) (b : (⟨1, ![100000]⟩ : Shape).Idx → α)
    (h : Shape.Concatenates [(⟨1, ![1600000]⟩ : Shape), ⟨1, ![100000]⟩] ⟨1, ![1700000]⟩ 0) (e : Fin 1600000) :
    concatenate (⟨1, ![1700000]⟩ : Shape) 0 [⟨⟨1, ![1600000]⟩, a⟩, ⟨⟨1, ![100000]⟩, b⟩] h (ix1 (Fin.castAdd 100000 e))
      = a (ix1 e) :=
  concatenate_pair_apply_left 0 a b h (ix1 (Fin.castAdd 100000 e)) rfl (ix1 e)
    (fun d => match d with | ⟨0, _⟩ => rfl)

/-- An entry of the second part. -/
theorem joined_right {α : Type} (a : (⟨1, ![1600000]⟩ : Shape).Idx → α) (b : (⟨1, ![100000]⟩ : Shape).Idx → α)
    (h : Shape.Concatenates [(⟨1, ![1600000]⟩ : Shape), ⟨1, ![100000]⟩] ⟨1, ![1700000]⟩ 0) (k : Fin 100000) :
    concatenate (⟨1, ![1700000]⟩ : Shape) 0 [⟨⟨1, ![1600000]⟩, a⟩, ⟨⟨1, ![100000]⟩, b⟩] h (ix1 (Fin.natAdd 1600000 k))
      = b (ix1 k) :=
  concatenate_pair_apply_right 0 a b h (ix1 (Fin.natAdd 1600000 k)) rfl rfl (ix1 k)
    (fun d hd => match d with | ⟨0, _⟩ => absurd rfl hd)
    (by show k.val + 1600000 = 1600000 + k.val; omega)

/-- A sum over the joined index set is the sum over the first part plus the sum over the second. -/
theorem sum_joined {M : Type*} [AddCommMonoid M] (f : Fin 1700000 → M) :
    ∑ e : Fin 1700000, f e = ∑ e : Fin 1600000, f (Fin.castAdd 100000 e) + ∑ k : Fin 100000, f (Fin.natAdd 1600000 k) :=
  Fin.sum_univ_add (a := 1600000) (b := 100000) f

end Cert.IndexOps

end
-- ==== Proof.LibScatterRows.lean ====
/-
  A scatter of whole rows, read through its target.

  `stablehlo.scatter` with one scatter index per update row, the row axis inserted and the column axis a window,
  adds row `e` of the updates onto the operand's row whose number is the scatter index `idx[e, 0]`, read as a signed
  integer and NOT clamped: an update whose row number falls outside the operand is dropped.  Hence every update
  entry that lands on operand row `n` has `idx[e, 0] = n` as an integer.
-/
import Idealize.ShloMosaic.Lib.ValueIdx
import Idealize.ShloMosaic.PureOps.Ideal

noncomputable section

namespace Cert.ScatterRows

open Idealize.ShloMosaic Idealize.ShloMosaic.ValueIdx

/-- The dimension numbers of a scatter of whole rows onto an N×C operand, one scatter index per update row. -/
def rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window starts at the update row's scatter index, read signed. -/
theorem start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowDims N R C wf).start j idx (0 : Fin 2) = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The row axis is inserted: the window adds nothing on it. -/
theorem window_row {N R C : Nat} (wf : ScatterDims.WF ⟨2, ![N, C]⟩ ⟨2, ![R, 1]⟩ ⟨2, ![R, C]⟩ [1] [0] [0] 1)
    (j : (⟨2, ![R, C]⟩ : Shape).Idx) : (rowDims N R C wf).window j (0 : Fin 2) = 0 := by
  unfold ScatterDims.window
  rw [dif_neg]
  intro h
  have : (0 : Fin 2) ∉ (rowDims N R C wf).insertedWindowDims := by
    simpa [ScatterDims.sKept, Shape.kept, List.mem_filter, List.mem_finRange] using h
  exact this (List.mem_singleton.mpr rfl)

/-- An update entry that lands on operand row `i 0` has that row number as its scatter index. -/
theorem target_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowDims N R C wf).resultIdx? j idx = some i) :
    (idx (ix2 (j 0) (0 : Fin 1))).toInt = ((i 0).val : Int) := by
  unfold ScatterDims.resultIdx? at h
  split at h
  · rename_i hall
    have hi := Option.some.inj h
    have h0 := (hall 0).1
    have hv : (i 0).val = ((rowDims N R C wf).start j idx 0 + ((rowDims N R C wf).window j 0 : Int)).toNat := by
      rw [← hi]
    rw [start_row, window_row] at hv h0
    omega
  · exact absurd h (by simp)

end Cert.ScatterRows

end
-- ==== Proof.LibScatterSum.lean ====
/-
  A scatter-add read at an entry, at the exact values.

  A `stablehlo.scatter` with an `add` body and one scatter index per update row adds update row `e` onto the operand's
  row whose number is the scatter index `idx[e, 0]`, read as a signed integer and not clamped; an update whose row
  number falls outside the operand is dropped.  Over the extended reals the result's entry `(p, k)` is therefore the
  operand's entry plus the sum, over the update rows `e` whose scatter index is `p`, of the update's entry `(e, k)`.
  The same holds for a scatter of single entries onto a vector.
-/
import Idealize.ShloMosaic.Lib.ValueIdx
import Idealize.ShloMosaic.PureOps.Ideal
import proofs.«177980_j66692252172820_2_alg».proof.Proof.LibScatterRows

noncomputable section

namespace Cert.ScatterSum

open Idealize.ShloMosaic Idealize.ShloMosaic.ValueIdx Cert.ScatterRows

/-! ## Whole rows onto an N×C operand -/

/-- The column axis carries no scatter index: the window starts at column zero. -/
theorem start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowDims N R C wf).start j idx (1 : Fin 2) = 0 := by
  unfold ScatterDims.start
  rw [dif_neg]
  intro h
  exact Nat.one_ne_zero (congrArg Fin.val (List.mem_singleton.mp h))

/-- The column axis is the window axis: the window coordinate is the update's own column. -/
theorem window_col {N R C : Nat} (wf : ScatterDims.WF ⟨2, ![N, C]⟩ ⟨2, ![R, 1]⟩ ⟨2, ![R, C]⟩ [1] [0] [0] 1)
    (j : (⟨2, ![R, C]⟩ : Shape).Idx) : (rowDims N R C wf).window j (1 : Fin 2) = (j 1).val := by
  unfold ScatterDims.window
  rw [dif_pos (show (1 : Fin 2) ∈ (rowDims N R C wf).sKept by
    simp [ScatterDims.sKept, Shape.kept, List.mem_filter, List.mem_finRange, rowDims])]
  rfl

/-- An update entry lands on operand entry `i` exactly when its row's scatter index is `i`'s row and its column is
    `i`'s column. -/
theorem lands_iff {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx) :
    (rowDims N R C wf).resultIdx? j idx = some i ↔
      ((idx (ix2 (j 0) (0 : Fin 1))).toInt = ((i 0).val : Int) ∧ (j 1).val = (i 1).val) := by
  have hi0 : (i 0).val < N := (i 0).isLt
  have hi1 : (i 1).val < C := (i 1).isLt
  have hj1 : (j 1).val < C := (j 1).isLt
  unfold ScatterDims.resultIdx?
  constructor
  · intro h
    split at h
    · rename_i hall
      have hi := Option.some.inj h
      have h0 := (hall 0).1
      have h1 := (hall 1).1
      have e0 : (i 0).val = ((rowDims N R C wf).start j idx 0 + ((rowDims N R C wf).window j 0 : Int)).toNat := by
        rw [← hi]
      have e1 : (i 1).val = ((rowDims N R C wf).start j idx 1 + ((rowDims N R C wf).window j 1 : Int)).toNat := by
        rw [← hi]
      rw [start_row, window_row] at e0 h0
      rw [start_col, window_col] at e1 h1
      constructor <;> omega
    · exact absurd h (by simp)
  · rintro ⟨h0, h1⟩
    have hall : ∀ a, 0 ≤ (rowDims N R C wf).start j idx a + ((rowDims N R C wf).window j a : Int)
        ∧ (rowDims N R C wf).start j idx a + ((rowDims N R C wf).window j a : Int) < ((⟨2, ![N, C]⟩ : Shape).size a : Int) := by
      refine Fin.forall_fin_two.mpr ⟨?_, ?_⟩
      · rw [start_row, window_row]
        show _ ∧ _ < ((N : Nat) : Int)
        omega
      · rw [start_col, window_col]
        show _ ∧ _ < ((C : Nat) : Int)
        omega
    rw [dif_pos hall]
    congr 1
    funext a
    refine Fin.ext ?_
    revert a
    refine Fin.forall_fin_two.mpr ⟨?_, ?_⟩
    · show ((rowDims N R C wf).start j idx 0 + ((rowDims N R C wf).window j 0 : Int)).toNat = (i 0).val
      rw [start_row, window_row]; omega
    · show ((rowDims N R C wf).start j idx 1 + ((rowDims N R C wf).window j 1 : Int)).toNat = (i 1).val
      rw [start_col, window_col]; omega

/-- Entry `(p, k)` of a scatter-add of whole rows: the operand's entry plus the sum over the update rows whose
    scatter index is `p` of their entries in column `k`. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (p : Fin N) (k : Fin C) :
    Ideal.hostScatterAdd (rowDims N R C wf) x idx upd (ix2 p k)
      = x (ix2 p k) + ∑ e : Fin R, if (idx (ix2 e (0 : Fin 1))).toInt = (p.val : Int) then upd (ix2 e k) else 0 := by
  unfold Ideal.hostScatterAdd
  congr 1
  rw [Finset.sum_filter, sum_idx2]
  refine Finset.sum_congr rfl fun e _ => ?_
  have hpt : ∀ b : Fin C, (if (rowDims N R C wf).resultIdx? (ix2 e b) idx = some (ix2 p k) then upd (ix2 e b) else 0)
      = if b = k then (if (idx (ix2 e (0 : Fin 1))).toInt = (p.val : Int) then upd (ix2 e k) else 0) else 0 := by
    intro b
    by_cases hb : b = k
    · subst hb
      rw [if_pos rfl]
      refine if_congr ?_ rfl rfl
      rw [lands_iff]
      exact ⟨fun h => h.1, fun h => ⟨h, rfl⟩⟩
    · rw [if_neg hb, if_neg]
      rw [lands_iff]
      exact fun h => hb (Fin.ext h.2)
  rw [Finset.sum_congr rfl fun b _ => hpt b, Finset.sum_ite_eq' Finset.univ k, if_pos (Finset.mem_univ k)]

/-! ## Single entries onto a length-N vector -/

/-- The dimension numbers of a scatter of single entries onto a length-N vector, one scatter index per update entry. -/
def vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of an update entry starts at its scatter index, read signed. -/
theorem start_entry {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) :
    (vecDims N R wf).start j idx (0 : Fin 1) = (idx (ix2 (j 0) (0 : Fin 1))).toInt := by
  unfold ScatterDims.start
  rw [dif_pos (show (0 : Fin 1) ∈ (vecDims N R wf).scatterDimsToOperandDims from List.mem_singleton.mpr rfl)]
  have hsi : (vecDims N R wf).siIdx j ⟨List.idxOf (0 : Fin 1) (vecDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one axis is inserted: the window adds nothing. -/
theorem window_entry {N R : Nat} (wf : ScatterDims.WF ⟨1, ![N]⟩ ⟨2, ![R, 1]⟩ ⟨1, ![R]⟩ [] [0] [0] 1)
    (j : (⟨1, ![R]⟩ : Shape).Idx) : (vecDims N R wf).window j (0 : Fin 1) = 0 := by
  unfold ScatterDims.window
  rw [dif_neg]
  intro h
  have : (0 : Fin 1) ∉ (vecDims N R wf).insertedWindowDims := by
    simpa [ScatterDims.sKept, Shape.kept, List.mem_filter, List.mem_finRange] using h
  exact this (List.mem_singleton.mpr rfl)

/-- An update entry lands on operand entry `i` exactly when its scatter index is `i`. -/
theorem lands_entry_iff {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (i : (⟨1, ![N]⟩ : Shape).Idx) :
    (vecDims N R wf).resultIdx? j idx = some i ↔ (idx (ix2 (j 0) (0 : Fin 1))).toInt = ((i 0).val : Int) := by
  have hi0 : (i 0).val < N := (i 0).isLt
  unfold ScatterDims.resultIdx?
  constructor
  · intro h
    split at h
    · rename_i hall
      have hi := Option.some.inj h
      have h0 := (hall 0).1
      have e0 : (i 0).val = ((vecDims N R wf).start j idx 0 + ((vecDims N R wf).window j 0 : Int)).toNat := by
        rw [← hi]
      rw [start_entry, window_entry] at e0 h0
      omega
    · exact absurd h (by simp)
  · intro h0
    have hall : ∀ a, 0 ≤ (vecDims N R wf).start j idx a + ((vecDims N R wf).window j a : Int)
        ∧ (vecDims N R wf).start j idx a + ((vecDims N R wf).window j a : Int) < ((⟨1, ![N]⟩ : Shape).size a : Int) := by
      intro a
      have ha : a = 0 := Subsingleton.elim _ _
      subst ha
      rw [start_entry, window_entry]
      show _ ∧ _ < ((N : Nat) : Int)
      omega
    rw [dif_pos hall]
    congr 1
    funext a
    have ha : a = 0 := Subsingleton.elim _ _
    subst ha
    refine Fin.ext ?_
    show ((vecDims N R wf).start j idx 0 + ((vecDims N R wf).window j 0 : Int)).toNat = (i 0).val
    rw [start_entry, window_entry]; omega

/-- Entry `p` of a scatter-add of single entries: the operand's entry plus the sum of the updates whose scatter
    index is `p`. -/
theorem scatterAdd_vec_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (p : Fin N) :
    Ideal.hostScatterAdd (vecDims N R wf) x idx upd (ix1 p)
      = x (ix1 p) + ∑ e : Fin R, if (idx (ix2 e (0 : Fin 1))).toInt = (p.val : Int) then upd (ix1 e) else 0 := by
  unfold Ideal.hostScatterAdd
  congr 1
  rw [Finset.sum_filter]
  have hre : ∀ f : (⟨1, ![R]⟩ : Shape).Idx → EReal, ∑ j, f j = ∑ e : Fin R, f (ix1 e) := fun f =>
    (Equiv.sum_comp (⟨fun e => ix1 e, fun j => j 0, fun _ => rfl, fun j => (eq_ix1 j).symm⟩ : Fin R ≃ (⟨1, ![R]⟩ : Shape).Idx) f).symm
  rw [hre]
  refine Finset.sum_congr rfl fun e _ => ?_
  refine if_congr ?_ rfl rfl
  exact lands_entry_iff wf idx (ix1 e) (ix1 p)

end Cert.ScatterSum

end
-- ==== Proof.LibGatherRows.lean ====
/-
  A gather of whole rows, read at an entry.

  `stablehlo.gather` with one start index per result row, the row axis collapsed and the column axis kept whole,
  copies rows of an N×C table: row `r` of the result is the table's row whose number is the start index `idx[r, 0]`,
  read as a signed integer and clamped into `[0, N − 1]` (a gather clamps every start index so that its slice fits).
-/
import Idealize.ShloMosaic.Lib.ValueIdx

noncomputable section

namespace Cert.GatherRows

open Idealize.ShloMosaic Idealize.ShloMosaic.ValueIdx

variable {α : Type}

/-- The dimension numbers of a gather of whole rows of an N×C table, one start index per result row. -/
def rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row that result row `r` copies: its start index read signed and clamped into `[0, N − 1]`. -/
def clampRow (N : Nat) (hN : 0 < N) {R w : Nat} (idx : IVec ⟨2, ![R, 1]⟩ w) (r : Fin R) : Fin N :=
  ⟨min (idx (ix2 r (0 : Fin 1))).toInt.toNat (N - 1), by omega⟩

/-- The row coordinate a gather of rows reads: the clamped start index (no batching, the row axis collapsed). -/
theorem operandIdx_row {N R C w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (k : Fin C) :
    ((rowDims N R C wf).operandIdx (ix2 r k) idx (0 : Fin 2)).val = (clampRow N hN idx r).val := by
  show (rowDims N R C wf).start (ix2 r k) idx 0 + (rowDims N R C wf).batchCoord (ix2 r k) 0
    + (rowDims N R C wf).offCoord (ix2 r k) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowDims N R C wf).startIndexMap from List.mem_singleton.mpr rfl)]
  have hsi : (rowDims N R C wf).siIdx (ix2 r k) ⟨List.idxOf (0 : Fin 2) (rowDims N R C wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The column coordinate a gather of rows reads: the result's own column (no start index on that axis). -/
theorem operandIdx_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (k : Fin C) :
    ((rowDims N R C wf).operandIdx (ix2 r k) idx (1 : Fin 2)).val = k.val := by
  show (rowDims N R C wf).start (ix2 r k) idx 1 + (rowDims N R C wf).batchCoord (ix2 r k) 1
    + (rowDims N R C wf).offCoord (ix2 r k) 1 = _
  rw [GatherDims.batchCoord_eq_zero _ _ _ List.not_mem_nil]
  unfold GatherDims.start
  rw [dif_neg (show (1 : Fin 2) ∉ (rowDims N R C wf).startIndexMap from
    fun h => Nat.one_ne_zero (congrArg Fin.val (List.mem_singleton.mp h)))]
  simp only [Nat.add_zero, Nat.zero_add]
  unfold GatherDims.offCoord
  rw [dif_pos (show (1 : Fin 2) ∈ (rowDims N R C wf).sKept from
    (GatherDims.mem_sKept _ _).mpr ⟨fun h => Nat.one_ne_zero (congrArg Fin.val (List.mem_singleton.mp h)), List.not_mem_nil⟩)]
  rfl

/-- Entry `(r, k)` of a gather of rows is entry `k` of the table's row `clampRow idx r`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (clampRow N hN idx r) k) := by
  unfold Host.gather
  congr 1
  funext a
  refine Fin.ext ?_
  match a with
  | ⟨0, _⟩ => exact operandIdx_row hN wf idx r k
  | ⟨1, _⟩ => exact operandIdx_col wf idx r k

end Cert.GatherRows

end
-- ==== Proof.LibGatherVec.lean ====
/-
  A gather of single entries of a vector, read at an entry.

  `stablehlo.gather` with one start index per result entry and the one operand axis collapsed copies entries of a
  length-N vector: entry `r` of the result is the vector's entry whose number is the start index `idx[r, 0]`, read as
  a signed integer and clamped into `[0, N − 1]`.
-/
import Idealize.ShloMosaic.Lib.ValueIdx

noncomputable section

namespace Cert.GatherVec

open Idealize.ShloMosaic Idealize.ShloMosaic.ValueIdx

variable {α : Type}

/-- The dimension numbers of a gather of single entries of a length-N vector, one start index per result entry. -/
def vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The entry that result entry `r` copies: its start index read signed and clamped into `[0, N − 1]`. -/
def clampAt (N : Nat) (hN : 0 < N) {R w : Nat} (idx : IVec ⟨2, ![R, 1]⟩ w) (r : Fin R) : Fin N :=
  ⟨min (idx (ix2 r (0 : Fin 1))).toInt.toNat (N - 1), by omega⟩

/-- The coordinate a gather of entries reads: the clamped start index. -/
theorem operandIdx_entry {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (r : Fin R) :
    ((vecDims N R wf).operandIdx (ix1 r) idx (0 : Fin 1)).val = (clampAt N hN idx r).val := by
  show (vecDims N R wf).start (ix1 r) idx 0 + (vecDims N R wf).batchCoord (ix1 r) 0
    + (vecDims N R wf).offCoord (ix1 r) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- Entry `r` of a gather of entries is the vector's entry `clampAt idx r`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 (clampAt N hN idx r)) := by
  unfold Host.gather
  congr 1
  funext a
  refine Fin.ext ?_
  match a with
  | ⟨0, _⟩ => exact operandIdx_entry hN wf idx r

end Cert.GatherVec

end
-- ==== Proof.LibColumnSpread.lean ====
/-
  A per-row quantity spread along the rows of a matrix.

  A vector of `R` entries viewed as an `R × 1` column, and a column spread over `C` columns: at row `p` every column
  holds the vector's entry `p`.  (The companion of the row forms: a vector viewed as one row, a row spread over the
  rows.)
-/
import Idealize.ShloMosaic.Lib.Pipeline.Value
import Idealize.ShloMosaic.Lib.ValueIdx

noncomputable section

namespace Cert.LibColumnSpread

open Idealize.ShloMosaic Idealize.ShloMosaic.ValueIdx

/-- A vector viewed as a column: entry `(p, u)` is the vector's entry `p`. -/
theorem colOfVec_apply {α : Type} {R : ℕ} (hR : R ≠ 1) (v : (⟨1, ![R]⟩ : Shape).Idx → α)
    (h : (⟨1, ![R]⟩ : Shape).BroadcastsInDim ⟨2, ![R, 1]⟩ ![0]) (p : Fin R) (u : Fin 1) :
    broadcastInDim ⟨2, ![R, 1]⟩ ![0] h v (ix2 p u) = v (ix1 p) :=
  broadcastInDim_apply ![0] h v (ix2 p u) (ix1 p) (fun a => match a with
    | ⟨0, _⟩ => by show p.val = if R = 1 then 0 else p.val; rw [if_neg hR])

/-- A column spread over `C` columns: entry `(p, k)` is the column's entry of row `p`. -/
theorem col_spread_apply {α : Type} {R C : ℕ} (hR : R ≠ 1) (v : (⟨2, ![R, 1]⟩ : Shape).Idx → α)
    (h : (⟨2, ![R, 1]⟩ : Shape).BroadcastsInDim ⟨2, ![R, C]⟩ ![0, 1]) (p : Fin R) (k : Fin C) :
    broadcastInDim ⟨2, ![R, C]⟩ ![0, 1] h v (ix2 p k) = v (ix2 p (0 : Fin 1)) :=
  broadcastInDim_apply ![0, 1] h v (ix2 p k) (ix2 p (0 : Fin 1)) (fun a => match a with
    | ⟨0, _⟩ => by show p.val = if R = 1 then 0 else p.val; rw [if_neg hR]
    | ⟨1, _⟩ => by show 0 = if (1 : Nat) = 1 then 0 else _; rw [if_pos rfl])

/-- A vector viewed as a column and the column spread over `C` columns: entry `(p, k)` is the vector's entry `p`. -/
theorem colOfVec_spread_apply {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (k : Fin C) :
    broadcastInDim ⟨2, ![R, C]⟩ ![0, 1] h2 (broadcastInDim ⟨2, ![R, 1]⟩ ![0] h1 v) (ix2 p k) = v (ix1 p) :=
  (col_spread_apply hR _ h2 p k).trans (colOfVec_apply hR v h1 p 0)

end Cert.LibColumnSpread

end
-- ==== Proof.HostPatterns.lean ====
/-
  The three host patterns of a normalised graph convolution, read at an entry.

  With `R` edges into a graph of 100000 nodes (index words `s`, `d` for the two ends, weights `w`):
  the weighted in-degree of node `p` is the start value plus the sum of the weights of the edges whose far end `d`,
  read as a signed integer, is `p`; the symmetric norm of edge `e` is `(dinv[row s_e] · w_e) · dinv[row d_e]`, the rows
  being the gather's reading of the index words (100000 added to a negative word, then clamped into the table); and
  the aggregated table's entry `(p, k)` is the start value plus the sum, over the edges whose far end is `p`, of
  `h[row s_e, k] · norm_e`.  Stated for any number of edges and any number of columns.
-/
import proofs.«177980_j66692252172820_2_alg».proof.Proof.IndexOps
import proofs.«177980_j66692252172820_2_alg».proof.Proof.LibScatterSum
import proofs.«177980_j66692252172820_2_alg».proof.Proof.LibGatherRows
import proofs.«177980_j66692252172820_2_alg».proof.Proof.LibGatherVec
import proofs.«177980_j66692252172820_2_alg».proof.Proof.LibColumnSpread
import Idealize.ShloMosaic.PureOps.Ideal.Laws

noncomputable section

namespace Cert.HostPatterns

open Idealize.ShloMosaic Idealize.ShloMosaic.ValueIdx Cert.IndexOps Cert.LibColumnSpread

/-- The table row a gather reads for the index word `b`: 100000 added when negative, then clamped into the table. -/
def rowOf (b : BitVec 32) : Fin 100000 :=
  ⟨min (wrap b).toInt.toNat (100000 - 1), by omega⟩

/-- An index vector normalised for a gather and viewed as a column of start indices. -/
abbrev wrapCol {R : Nat} (h0 : (⟨0, ![]⟩ : Shape).BroadcastsInDim ⟨1, ![R]⟩ ![])
    (hc : (⟨1, ![R]⟩ : Shape).BroadcastsInDim ⟨2, ![R, 1]⟩ ![0]) (v : IVec ⟨1, ![R]⟩ 32) : IVec ⟨2, ![R, 1]⟩ 32 :=
  broadcastInDim ⟨2, ![R, 1]⟩ ![0] hc
    (select (cmpi .slt v (broadcastInDim ⟨1, ![R]⟩ ![] h0 (constantI ⟨0, ![]⟩ 32 0#32)))
      (addi v (broadcastInDim ⟨1, ![R]⟩ ![] h0 (constantI ⟨0, ![]⟩ 32 100000#32))) v)

/-- The start index of result row `e` is the normalised word of `v`'s entry `e`. -/
theorem wrapCol_apply {R : Nat} (hR : R ≠ 1) (h0 : (⟨0, ![]⟩ : Shape).BroadcastsInDim ⟨1, ![R]⟩ ![])
    (hc : (⟨1, ![R]⟩ : Shape).BroadcastsInDim ⟨2, ![R, 1]⟩ ![0]) (v : IVec ⟨1, ![R]⟩ 32) (e : Fin R) :
    wrapCol h0 hc v (ix2 e (0 : Fin 1)) = wrap (v (ix1 e)) := by
  unfold wrapCol
  rw [colOfVec_apply hR, wrap_apply]

/-- A gather of single entries through normalised indices reads the vector at `rowOf` of the index word. -/
theorem gather_vec_wrapped {R : Nat} (hR : R ≠ 1)
    (wfg : GatherDims.WF ⟨1, ![100000]⟩ ⟨2, ![R, 1]⟩ ⟨1, ![R]⟩ [] [0] [] [0] [] 1 ![1])
    (h0 : (⟨0, ![]⟩ : Shape).BroadcastsInDim ⟨1, ![R]⟩ ![])
    (hc : (⟨1, ![R]⟩ : Shape).BroadcastsInDim ⟨2, ![R, 1]⟩ ![0])
    (x : (⟨1, ![100000]⟩ : Shape).Idx → EReal) (v : IVec ⟨1, ![R]⟩ 32) (e : Fin R) :
    Host.gather (GatherVec.vecDims 100000 R wfg) x (wrapCol h0 hc v) (ix1 e) = x (ix1 (rowOf (v (ix1 e)))) := by
  rw [GatherVec.gather_vec_apply (by decide) wfg]
  congr 2
  refine Fin.ext ?_
  show min ((wrapCol h0 hc v) (ix2 e (0 : Fin 1))).toInt.toNat (100000 - 1) = _
  rw [wrapCol_apply hR]
  rfl

/-- A gather of whole rows through normalised indices reads the table's row `rowOf` of the index word. -/
theorem gather_rows_wrapped {R C : Nat} (hR : R ≠ 1)
    (wfg : GatherDims.WF ⟨2, ![100000, C]⟩ ⟨2, ![R, 1]⟩ ⟨2, ![R, C]⟩ [1] [0] [] [0] [] 1 ![1, C])
    (h0 : (⟨0, ![]⟩ : Shape).BroadcastsInDim ⟨1, ![R]⟩ ![])
    (hc : (⟨1, ![R]⟩ : Shape).BroadcastsInDim ⟨2, ![R, 1]⟩ ![0])
    (x : (⟨2, ![100000, C]⟩ : Shape).Idx → EReal) (v : IVec ⟨1, ![R]⟩ 32) (e : Fin R) (k : Fin C) :
    Host.gather (GatherRows.rowDims 100000 R C wfg) x (wrapCol h0 hc v) (ix2 e k) = x (ix2 (rowOf (v (ix1 e))) k) := by
  rw [GatherRows.gather_rows_apply (by decide) wfg]
  congr 2
  refine Fin.ext ?_
  show min ((wrapCol h0 hc v) (ix2 e (0 : Fin 1))).toInt.toNat (100000 - 1) = _
  rw [wrapCol_apply hR]
  rfl

/-- The weighted in-degree of node `p`. -/
theorem degree_apply {R : Nat} (hR : R ≠ 1)
    (wfs : ScatterDims.WF ⟨1, ![100000]⟩ ⟨2, ![R, 1]⟩ ⟨1, ![R]⟩ [] [0] [0] 1)
    (hc : (⟨1, ![R]⟩ : Shape).BroadcastsInDim ⟨2, ![R, 1]⟩ ![0])
    (x : (⟨1, ![100000]⟩ : Shape).Idx → EReal) (d : IVec ⟨1, ![R]⟩ 32) (w : (⟨1, ![R]⟩ : Shape).Idx → EReal)
    (p : Fin 100000) :
    Ideal.hostScatterAdd (ScatterSum.vecDims 100000 R wfs) x (broadcastInDim ⟨2, ![R, 1]⟩ ![0] hc d) w (ix1 p)
      = x (ix1 p) + ∑ e : Fin R, if (d (ix1 e)).toInt = (p.val : Int) then w (ix1 e) else 0 := by
  rw [ScatterSum.scatterAdd_vec_apply]
  congr 1
  refine Finset.sum_congr rfl fun e _ => ?_
  rw [colOfVec_apply hR]

/-- The symmetric norm of edge `e`. -/
theorem norm_apply {R : Nat} (hR : R ≠ 1)
    (wfg : GatherDims.WF ⟨1, ![100000]⟩ ⟨2, ![R, 1]⟩ ⟨1, ![R]⟩ [] [0] [] [0] [] 1 ![1])
    (h0 : (⟨0, ![]⟩ : Shape).BroadcastsInDim ⟨1, ![R]⟩ ![])
    (hc : (⟨1, ![R]⟩ : Shape).BroadcastsInDim ⟨2, ![R, 1]⟩ ![0])
    (dinv : (⟨1, ![100000]⟩ : Shape).Idx → EReal) (s d : IVec ⟨1, ![R]⟩ 32) (w : (⟨1, ![R]⟩ : Shape).Idx → EReal)
    (e : Fin R) :
    mulf (F := Ideal) (φ := .f32)
        (mulf (F := Ideal) (φ := .f32) (Host.gather (GatherVec.vecDims 100000 R wfg) dinv (wrapCol h0 hc s)) w)
        (Host.gather (GatherVec.vecDims 100000 R wfg) dinv (wrapCol h0 hc d)) (ix1 e)
      = (dinv (ix1 (rowOf (s (ix1 e)))) * w (ix1 e)) * dinv (ix1 (rowOf (d (ix1 e)))) := by
  show (Host.gather (GatherVec.vecDims 100000 R wfg) dinv (wrapCol h0 hc s) (ix1 e) * w (ix1 e))
      * Host.gather (GatherVec.vecDims 100000 R wfg) dinv (wrapCol h0 hc d) (ix1 e) = _
  rw [gather_vec_wrapped hR, gather_vec_wrapped hR]

/-- The aggregated table's entry `(p, k)`. -/
theorem aggregate_apply {R C : Nat} (hR : R ≠ 1)
    (wfs : ScatterDims.WF ⟨2, ![100000, C]⟩ ⟨2, ![R, 1]⟩ ⟨2, ![R, C]⟩ [1] [0] [0] 1)
    (wfg : GatherDims.WF ⟨2, ![100000, C]⟩ ⟨2, ![R, 1]⟩ ⟨2, ![R, C]⟩ [1] [0] [] [0] [] 1 ![1, C])
    (h0 : (⟨0, ![]⟩ : Shape).BroadcastsInDim ⟨1, ![R]⟩ ![])
    (hc : (⟨1, ![R]⟩ : Shape).BroadcastsInDim ⟨2, ![R, 1]⟩ ![0])
    (hs : (⟨2, ![R, 1]⟩ : Shape).BroadcastsInDim ⟨2, ![R, C]⟩ ![0, 1])
    (x h : (⟨2, ![100000, C]⟩ : Shape).Idx → EReal) (s d : IVec ⟨1, ![R]⟩ 32)
    (nrm : (⟨1, ![R]⟩ : Shape).Idx → EReal) (p : Fin 100000) (k : Fin C) :
    Ideal.hostScatterAdd (ScatterRows.rowDims 100000 R C wfs) x (broadcastInDim ⟨2, ![R, 1]⟩ ![0] hc d)
        (mulf (F := Ideal) (φ := .f32) (Host.gather (GatherRows.rowDims 100000 R C wfg) h (wrapCol h0 hc s))
          (broadcastInDim ⟨2, ![R, C]⟩ ![0, 1] hs (broadcastInDim ⟨2, ![R, 1]⟩ ![0] hc nrm))) (ix2 p k)
      = x (ix2 p k) + ∑ e : Fin R, if (d (ix1 e)).toInt = (p.val : Int)
          then h (ix2 (rowOf (s (ix1 e))) k) * nrm (ix1 e) else 0 := by
  rw [ScatterSum.scatterAdd_rows_apply]
  congr 1
  refine Finset.sum_congr rfl fun e _ => ?_
  rw [colOfVec_apply hR]
  refine if_congr Iff.rfl ?_ rfl
  show Host.gather (GatherRows.rowDims 100000 R C wfg) h (wrapCol h0 hc s) (ix2 e k)
      * broadcastInDim ⟨2, ![R, C]⟩ ![0, 1] hs (broadcastInDim ⟨2, ![R, 1]⟩ ![0] hc nrm) (ix2 e k) = _
  rw [gather_rows_wrapped hR, colOfVec_spread_apply hR]

end Cert.HostPatterns

end
-- ==== Proof.RowLogSoftmax.lean ====
/-
  The log-softmax of one row of sixteen extended reals.

  The row's largest entry is taken as a fold of `max` starting from the value of the f32 pattern of minus infinity;
  every entry is shifted by it; the logarithm of the sum of the exponentials of the shifted entries is subtracted.
-/
import Idealize.ShloMosaic.PureOps.Ideal
import Mathlib.Data.Finset.Fold

noncomputable section

namespace Cert.RowLogSoftmax

open Idealize.ShloMosaic

/-- The largest entry of a row, folded from the value of the minus-infinity pattern. -/
def rowMax (v : Fin 16 → EReal) : EReal :=
  (Finset.univ : Finset (Fin 16)).fold max (Ideal.ofBits .f32 0xFF800000#32) v

/-- Entry `c` of the row's log-softmax: the shifted entry minus the logarithm of the sum of the exponentials of the
    shifted entries. -/
def rowLogSoftmax (v : Fin 16 → EReal) (c : Fin 16) : EReal :=
  (v c - rowMax v) - Ideal.log (∑ k : Fin 16, Ideal.exp (v k - rowMax v))

/-- Taking the larger of the fold's start value and the fold changes nothing. -/
theorem max_start_rowMax (v : Fin 16 → EReal) :
    max (Ideal.ofBits .f32 0xFF800000#32) (rowMax v) = rowMax v := by
  unfold rowMax
  exact max_eq_right ((Finset.le_fold_max _).mpr (Or.inl le_rfl))

end Cert.RowLogSoftmax

end
-- ==== Proof.GraphConvSpec.lean ====
/-
  A two-layer graph convolution over the extended reals, as one function of its inputs.

  The graph has 100000 nodes and 1600000 weighted edges; `s` and `d` are the index words of an edge's two ends and
  `w` its weight.  With `dv` the inverse square root of the degrees, edge `e` carries the norm
  `(dv[row s_e] · w_e) · dv[row d_e]`; node `p` collects, in column `k`, the sum over the edges ending at `p` of
  `h[row s_e, k] · norm_e`, adds its own row weighted by `dv[p] · dv[p]` (the self loop) and the bias.  The first layer
  is followed by the positive part, the second by a row-wise log-softmax.
-/
import proofs.«177980_j66692252172820_2_alg».proof.Proof.HostPatterns
import proofs.«177980_j66692252172820_2_alg».proof.Proof.RowLogSoftmax

noncomputable section

namespace Cert.GraphConv

open Idealize.ShloMosaic Idealize.ShloMosaic.ValueIdx Cert.IndexOps Cert.HostPatterns Cert.RowLogSoftmax

/-- One value per node. -/
abbrev Nodes : Type := (⟨1, ![100000]⟩ : Shape).Idx → EReal
/-- One row of `C` values per node. -/
abbrev Table (C : Nat) : Type := (⟨2, ![100000, C]⟩ : Shape).Idx → EReal
/-- One index word per edge. -/
abbrev EdgeWords : Type := (⟨1, ![1600000]⟩ : Shape).Idx → BitVec 32
/-- One value per edge. -/
abbrev EdgeVals : Type := (⟨1, ![1600000]⟩ : Shape).Idx → EReal

/-- The value of the all-zero f32 pattern (kept as the pattern's value, never evaluated). -/
def z32 : EReal := Ideal.ofBits .f32 0x00000000#32
/-- The value of the f32 pattern of one. -/
def one32 : EReal := Ideal.ofBits .f32 0x3F800000#32

/-- The index words of the edges' near ends: row 0 of the 2×1600000 index array. -/
def nearWords (x1 : (⟨2, ![2, 1600000]⟩ : Shape).Idx → BitVec 32) : EdgeWords := fun i => x1 (ix2 (0 : Fin 2) (i 0))
/-- The index words of the edges' far ends: row 1 of the index array. -/
def farWords (x1 : (⟨2, ![2, 1600000]⟩ : Shape).Idx → BitVec 32) : EdgeWords := fun i => x1 (ix2 (1 : Fin 2) (i 0))

/-- The sum of the weights of the edges ending at node `p`. -/
def inWeight (d : EdgeWords) (w : EdgeVals) (p : Fin 100000) : EReal :=
  ∑ e : Fin 1600000, if (d (ix1 e)).toInt = (p.val : Int) then w (ix1 e) else 0

/-- The degree of every node, self loop included. -/
def degree (d : EdgeWords) (w : EdgeVals) : Nodes := fun i => (z32 + inWeight d w (i 0)) + one32

/-- The inverse square root of a degree where it is positive, zero elsewhere (the comparison, the root and the
    choice are the float operations' exact readings). -/
def invRootPos (deg : Nodes) : Nodes := fun i =>
  Scalar.select (FloatOps.cmpf (F := Ideal) (φ := .f32) .ogt (deg i) z32) (FloatOps.hostUnary (F := Ideal) (φ := .f32) .rsqrt (deg i)) z32

/-- The symmetric norm of edge `e`. -/
def edgeNorm (dv : Nodes) (s d : EdgeWords) (w : EdgeVals) (e : Fin 1600000) : EReal :=
  (dv (ix1 (rowOf (s (ix1 e)))) * w (ix1 e)) * dv (ix1 (rowOf (d (ix1 e))))

/-- What arrives at node `p`, column `k`, along the edges. -/
def inflow {C : Nat} (dv : Nodes) (s d : EdgeWords) (w : EdgeVals) (h : Table C) (p : Fin 100000) (k : Fin C) : EReal :=
  ∑ e : Fin 1600000, if (d (ix1 e)).toInt = (p.val : Int)
    then h (ix2 (rowOf (s (ix1 e))) k) * edgeNorm dv s d w e else 0

/-- One convolution at node `p`, column `k`: the inflow, the self loop, the bias. -/
def conv {C : Nat} (dv : Nodes) (s d : EdgeWords) (w : EdgeVals) (h : Table C) (b : Fin C → EReal)
    (p : Fin 100000) (k : Fin C) : EReal :=
  ((z32 + inflow dv s d w h p k) + (dv (ix1 p) * dv (ix1 p)) * h (ix2 p k)) + b k

/-- The features times the first weight matrix. -/
def hidden (x0 : (⟨2, ![100000, 512]⟩ : Shape).Idx → EReal) (x3 : (⟨2, ![512, 128]⟩ : Shape).Idx → EReal) : Table 128 :=
  fun i => ∑ k : Fin 512, x0 (ix2 (i 0) k) * x3 (ix2 k (i 1))

/-- The first layer: convolution, then the positive part. -/
def layer1 (dv : Nodes) (s d : EdgeWords) (w : EdgeVals) (x0 : (⟨2, ![100000, 512]⟩ : Shape).Idx → EReal)
    (x3 : (⟨2, ![512, 128]⟩ : Shape).Idx → EReal) (x4 : (⟨1, ![128]⟩ : Shape).Idx → EReal) : Table 128 :=
  fun i => max (conv dv s d w (hidden x0 x3) (fun k => x4 (ix1 k)) (i 0) (i 1)) z32

/-- The first layer's output times the second weight matrix. -/
def projected (y : Table 128) (x5 : (⟨2, ![128, 16]⟩ : Shape).Idx → EReal) : Table 16 :=
  fun i => ∑ k : Fin 128, y (ix2 (i 0) k) * x5 (ix2 k (i 1))

/-- The network's output: the second convolution, then the row-wise log-softmax. -/
def output (dv : Nodes) (s d : EdgeWords) (w : EdgeVals) (x0 : (⟨2, ![100000, 512]⟩ : Shape).Idx → EReal)
    (x3 : (⟨2, ![512, 128]⟩ : Shape).Idx → EReal) (x4 : (⟨1, ![128]⟩ : Shape).Idx → EReal)
    (x5 : (⟨2, ![128, 16]⟩ : Shape).Idx → EReal) (x6 : (⟨1, ![16]⟩ : Shape).Idx → EReal) : Table 16 :=
  fun i => rowLogSoftmax
    (fun k => conv dv s d w (projected (layer1 dv s d w x0 x3 x4) x5) (fun k => x6 (ix1 k)) (i 0) k) (i 1)

end Cert.GraphConv

end
-- ==== Proof.HostStages.lean ====
/-
  The host's composite arrays of a graph convolution, named, with their entries.

  Each definition is the host's own chain of array operations for one quantity — the weights scattered onto the
  nodes, the guarded inverse square root, the edges' norms, the aggregated table — for any number `R` of update rows
  and `C` of columns; each theorem reads the array at an entry as a plain sum or product.
-/
import proofs.«177980_j66692252172820_2_alg».proof.Proof.GraphConvSpec

noncomputable section

namespace Cert.HostStages

open Idealize.ShloMosaic Idealize.ShloMosaic.ValueIdx Cert.IndexOps Cert.HostPatterns Cert.GraphConv

/-- The array of shape `t` filled with the value of the zero pattern. -/
abbrev zerosOf (t : Shape) (hz : (⟨0, ![]⟩ : Shape).BroadcastsInDim t ![]) : t.Idx → EReal :=
  broadcastInDim t ![] hz (constant (F := Ideal) ⟨0, ![]⟩ .f32 0x00000000#32)

theorem zerosOf_apply (t : Shape) (hz : (⟨0, ![]⟩ : Shape).BroadcastsInDim t ![]) (i : t.Idx) :
    zerosOf t hz i = z32 := rfl

/-- The weights scattered onto the nodes their far ends name, from zero. -/
def inDegree {R : Nat} (wfs : ScatterDims.WF ⟨1, ![100000]⟩ ⟨2, ![R, 1]⟩ ⟨1, ![R]⟩ [] [0] [0] 1)
    (hz : (⟨0, ![]⟩ : Shape).BroadcastsInDim ⟨1, ![100000]⟩ ![])
    (hc : (⟨1, ![R]⟩ : Shape).BroadcastsInDim ⟨2, ![R, 1]⟩ ![0])
    (d : IVec ⟨1, ![R]⟩ 32) (w : (⟨1, ![R]⟩ : Shape).Idx → EReal) : Nodes :=
  Ideal.hostScatterAdd (ScatterSum.vecDims 100000 R wfs) (zerosOf ⟨1, ![100000]⟩ hz)
    (broadcastInDim ⟨2, ![R, 1]⟩ ![0] hc d) w

theorem inDegree_apply {R : Nat} (hR : R ≠ 1)
    (wfs : ScatterDims.WF ⟨1, ![100000]⟩ ⟨2, ![R, 1]⟩ ⟨1, ![R]⟩ [] [0] [0] 1)
    (hz : (⟨0, ![]⟩ : Shape).BroadcastsInDim ⟨1, ![100000]⟩ ![])
    (hc : (⟨1, ![R]⟩ : Shape).BroadcastsInDim ⟨2, ![R, 1]⟩ ![0])
    (d : IVec ⟨1, ![R]⟩ 32) (w : (⟨1, ![R]⟩ : Shape).Idx → EReal) (p : Fin 100000) :
    inDegree wfs hz hc d w (ix1 p)
      = z32 + ∑ e : Fin R, if (d (ix1 e)).toInt = (p.val : Int) then w (ix1 e) else 0 :=
  degree_apply hR wfs hc _ d w p

/-- The host's guarded inverse square root: where the degree is positive its inverse root, elsewhere zero. -/
def invRootHost (hz : (⟨0, ![]⟩ : Shape).BroadcastsInDim ⟨1, ![100000]⟩ ![]) (deg : Nodes) : Nodes :=
  select (cmpf (F := Ideal) (φ := .f32) .ogt deg (zerosOf ⟨1, ![100000]⟩ hz)) (Host.rsqrt (F := Ideal) (φ := .f32) deg)
    (zerosOf ⟨1, ![100000]⟩ hz)

theorem invRootHost_eq (hz : (⟨0, ![]⟩ : Shape).BroadcastsInDim ⟨1, ![100000]⟩ ![]) (deg : Nodes) :
    invRootHost hz deg = invRootPos deg := rfl

/-- The edges' symmetric norms. -/
def normVec {R : Nat} (wfg : GatherDims.WF ⟨1, ![100000]⟩ ⟨2, ![R, 1]⟩ ⟨1, ![R]⟩ [] [0] [] [0] [] 1 ![1])
    (h0 : (⟨0, ![]⟩ : Shape).BroadcastsInDim ⟨1, ![R]⟩ ![])
    (hc : (⟨1, ![R]⟩ : Shape).BroadcastsInDim ⟨2, ![R, 1]⟩ ![0])
    (dv : Nodes) (s d : IVec ⟨1, ![R]⟩ 32) (w : (⟨1, ![R]⟩ : Shape).Idx → EReal) : (⟨1, ![R]⟩ : Shape).Idx → EReal :=
  mulf (F := Ideal) (φ := .f32)
    (mulf (F := Ideal) (φ := .f32) (Host.gather (GatherVec.vecDims 100000 R wfg) dv (wrapCol h0 hc s)) w)
    (Host.gather (GatherVec.vecDims 100000 R wfg) dv (wrapCol h0 hc d))

theorem normVec_apply {R : Nat} (hR : R ≠ 1)
    (wfg : GatherDims.WF ⟨1, ![100000]⟩ ⟨2, ![R, 1]⟩ ⟨1, ![R]⟩ [] [0] [] [0] [] 1 ![1])
    (h0 : (⟨0, ![]⟩ : Shape).BroadcastsInDim ⟨1, ![R]⟩ ![])
    (hc : (⟨1, ![R]⟩ : Shape).BroadcastsInDim ⟨2, ![R, 1]⟩ ![0])
    (dv : Nodes) (s d : IVec ⟨1, ![R]⟩ 32) (w : (⟨1, ![R]⟩ : Shape).Idx → EReal) (e : Fin R) :
    normVec wfg h0 hc dv s d w (ix1 e)
      = (dv (ix1 (rowOf (s (ix1 e)))) * w (ix1 e)) * dv (ix1 (rowOf (d (ix1 e)))) :=
  norm_apply hR wfg h0 hc dv s d w e

/-- The rows gathered along the edges, scaled by the norms and scattered onto the far ends, from zero. -/
def aggregated {R C : Nat}
    (wfs : ScatterDims.WF ⟨2, ![100000, C]⟩ ⟨2, ![R, 1]⟩ ⟨2, ![R, C]⟩ [1] [0] [0] 1)
    (wfg : GatherDims.WF ⟨2, ![100000, C]⟩ ⟨2, ![R, 1]⟩ ⟨2, ![R, C]⟩ [1] [0] [] [0] [] 1 ![1, C])
    (hz : (⟨0, ![]⟩ : Shape).BroadcastsInDim ⟨2, ![100000, C]⟩ ![])
    (h0 : (⟨0, ![]⟩ : Shape).BroadcastsInDim ⟨1, ![R]⟩ ![])
    (hc : (⟨1, ![R]⟩ : Shape).BroadcastsInDim ⟨2, ![R, 1]⟩ ![0])
    (hs : (⟨2, ![R, 1]⟩ : Shape).BroadcastsInDim ⟨2, ![R, C]⟩ ![0, 1])
    (h : Table C) (s d : IVec ⟨1, ![R]⟩ 32) (nrm : (⟨1, ![R]⟩ : Shape).Idx → EReal) : Table C :=
  Ideal.hostScatterAdd (ScatterRows.rowDims 100000 R C wfs) (zerosOf ⟨2, ![100000, C]⟩ hz)
    (broadcastInDim ⟨2, ![R, 1]⟩ ![0] hc d)
    (mulf (F := Ideal) (φ := .f32) (Host.gather (GatherRows.rowDims 100000 R C wfg) h (wrapCol h0 hc s))
      (broadcastInDim ⟨2, ![R, C]⟩ ![0, 1] hs (broadcastInDim ⟨2, ![R, 1]⟩ ![0] hc nrm)))

theorem aggregated_apply {R C : Nat} (hR : R ≠ 1)
    (wfs : ScatterDims.WF ⟨2, ![100000, C]⟩ ⟨2, ![R, 1]⟩ ⟨2, ![R, C]⟩ [1] [0] [0] 1)
    (wfg : GatherDims.WF ⟨2, ![100000, C]⟩ ⟨2, ![R, 1]⟩ ⟨2, ![R, C]⟩ [1] [0] [] [0] [] 1 ![1, C])
    (hz : (⟨0, ![]⟩ : Shape).BroadcastsInDim ⟨2, ![100000, C]⟩ ![])
    (h0 : (⟨0, ![]⟩ : Shape).BroadcastsInDim ⟨1, ![R]⟩ ![])
    (hc : (⟨1, ![R]⟩ : Shape).BroadcastsInDim ⟨2, ![R, 1]⟩ ![0])
    (hs : (⟨2, ![R, 1]⟩ : Shape).BroadcastsInDim ⟨2, ![R, C]⟩ ![0, 1])
    (h : Table C) (s d : IVec ⟨1, ![R]⟩ 32) (nrm : (⟨1, ![R]⟩ : Shape).Idx → EReal) (p : Fin 100000) (k : Fin C) :
    aggregated wfs wfg hz h0 hc hs h s d nrm (ix2 p k)
      = z32 + ∑ e : Fin R, if (d (ix1 e)).toInt = (p.val : Int)
          then h (ix2 (rowOf (s (ix1 e))) k) * nrm (ix1 e) else 0 :=
  aggregate_apply hR wfs wfg h0 hc hs _ h s d nrm p k

end Cert.HostStages

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.LibColumnCast.lean ====
/-
  A vector laid out as a one-column matrix.

  An array of `a` entries re-read with shape `[a, 1]` keeps its row-major order, so the entry at row `i` of its one
  column is the vector's entry `i`.
-/
import Idealize.ShloMosaic.Lib.Pipeline.Value
import Idealize.ShloMosaic.Lib.ValueIdx

noncomputable section

namespace Cert.LibColumnCast

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast

end
-- ==== Proof.HostStretches.lean ====
/-
  The host operations between the tiled regions, read at an entry.

  Each stretch of host operations is a straight line from the contents of the buffers before it.  Here every buffer a
  later region or stretch reads is written as a function of the contents the stretch starts from: the two rows of
  the index array as vectors of index words, the degrees and their inverse square roots, the edges' norms, the
  self-loop weights as a column, the aggregated tables and the bias rows.  Every statement holds over any starting
  contents.
-/
import proofs.«177980_j66692252172820_2_alg».proof.Proof.Gen.KernelIdeal.Frame
import proofs.«177980_j66692252172820_2_alg».proof.Proof.GraphConvSpec
import proofs.«177980_j66692252172820_2_alg».proof.Proof.HostStages
import proofs.«177980_j66692252172820_2_alg».proof.Proof.LibHostRows
import proofs.«177980_j66692252172820_2_alg».proof.Proof.LibColumnCast
import Idealize.ShloMosaic.Lib.StableHlo.Run
import Idealize.ShloMosaic.Lib.ValueIdx
import Idealize.ShloMosaic.Lib.Pipeline.Value
import Idealize.ShloMosaic.PureOps.Ideal

noncomputable section

open scoped BigOperators

namespace Cert.KernelIdeal.HostStretches

open Cert.KernelIdeal Cert.KernelIdeal.Gen Idealize.ShloMosaic Idealize.ShloMosaic.TcCoe Idealize.SL.Sem
open Idealize.ShloMosaic.ValueIdx
open Cert.GraphConv Cert.HostPatterns Cert.HostStages

-- the buffers' contents a stretch starts from
variable (Wp : Valuation τ sig (Elt Ideal))

/-! ## The pieces -/

/-- Row 0 of the index array, sliced off and flattened, is the vector of the edges' near-end words. -/
theorem near_term (x1 : S2x1600000.Idx → BitVec 32) :
    (fun i => shapeCast main_v1.ty.shape (extractStridedSlice S1x1600000 ![0, 0] x1 slices_S2x1600000_S1x1600000_0_0)
      shapeCasts_S1x1600000_S1600000 i) = nearWords x1 := by
  funext i
  refine (shapeCast_apply _ shapeCasts_S1x1600000_S1600000 i (ix2 (0 : Fin 1) (i 0)) ?_).trans ?_
  · rewrite [Shape.rowMajor_val_two, Shape.rowMajor_val_one]
    show 0 * 1600000 + (i 0).val = (i 0).val
    omega
  · exact extractStridedSlice_apply ![0, 0] x1 slices_S2x1600000_S1x1600000_0_0 (ix2 (0 : Fin 1) (i 0)) (ix2 (0 : Fin 2) (i 0))
      (fun a => match a with
        | ⟨0, _⟩ => by show 0 = 0 + 0; rfl
        | ⟨1, _⟩ => by show (i 0).val = 0 + (i 0).val; omega)

/-- Row 1 likewise is the vector of the far-end words. -/
theorem far_term (x1 : S2x1600000.Idx → BitVec 32) :
    (fun i => shapeCast main_v3.ty.shape (extractStridedSlice S1x1600000 ![1, 0] x1 slices_S2x1600000_S1x1600000_1_0)
      shapeCasts_S1x1600000_S1600000 i) = farWords x1 := by
  funext i
  refine (shapeCast_apply _ shapeCasts_S1x1600000_S1600000 i (ix2 (0 : Fin 1) (i 0)) ?_).trans ?_
  · rewrite [Shape.rowMajor_val_two, Shape.rowMajor_val_one]
    show 0 * 1600000 + (i 0).val = (i 0).val
    omega
  · exact extractStridedSlice_apply ![1, 0] x1 slices_S2x1600000_S1x1600000_1_0 (ix2 (0 : Fin 1) (i 0)) (ix2 (1 : Fin 2) (i 0))
      (fun a => match a with
        | ⟨0, _⟩ => by show 1 = 1 + 0; rfl
        | ⟨1, _⟩ => by show (i 0).val = 0 + (i 0).val; omega)

/-! ## The specification's sums, spelt out -/

theorem inWeight_eq (d : EdgeWords) (w : EdgeVals) (p : Fin 100000) :
    inWeight d w p = ∑ e : Fin 1600000, if (d (ix1 e)).toInt = (p.val : Int) then w (ix1 e) else 0 := rfl

theorem degree_entry (d : EdgeWords) (w : EdgeVals) (p : Fin 100000) :
    degree d w (ix1 p) = (z32 + inWeight d w p) + one32 := rfl

/-- The degrees: the weights scattered onto the far ends from zero, plus one for the self loop. -/
theorem degree_term (d : S1600000.Idx → BitVec 32) (w : S1600000.Idx → EReal) :
    addf (F := Ideal) (φ := .f32)
      (inDegree scatter_S100000_S1600000x1_S1600000_n_0_0_1_wf bcast_S_S100000 bcast_S1600000_S1600000x1_0 d w)
      (broadcastInDim S100000 ![] bcast_S_S100000 (constant (F := Ideal) S_ .f32 0x3F800000#32))
    = degree d w := by
  funext i
  obtain ⟨p, rfl⟩ : ∃ p : Fin 100000, i = ix1 p := ⟨i 0, eq_ix1 i⟩
  rw [addf_apply, degree_entry, inWeight_eq]
  refine congrArg₂ (· + ·) ?_ rfl
  exact inDegree_apply (R := 1600000) (by omega)
    scatter_S100000_S1600000x1_S1600000_n_0_0_1_wf bcast_S_S100000 bcast_S1600000_S1600000x1_0 d w p

/-- The degrees as the host computes them from the index array: the weights scattered, from zero, onto the nodes the
    far-end row names, plus one. -/
theorem degree_host (x1 : S2x1600000.Idx → BitVec 32) (w : S1600000.Idx → EReal) :
    addf (F := Ideal) (φ := .f32)
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0
          (fun i => shapeCast main_v3.ty.shape (extractStridedSlice S1x1600000 ![1, 0] x1 slices_S2x1600000_S1x1600000_1_0)
            shapeCasts_S1x1600000_S1600000 i)) w)
      (broadcastInDim S100000 ![] bcast_S_S100000 (constant (F := Ideal) S_ .f32 0x3F800000#32))
    = degree (farWords x1) w := by
  rw [far_term]
  exact degree_term _ _

/-! ## The first stretch: the index rows, the degrees, their sign test and inverse roots -/

theorem first_near : StableHlo.after hostOps0 Wp (Proc.devRef .tc main_v1) = nearWords (Wp (Proc.devRef .tc main_arg1)) := by
  after_results_simp
  exact near_term _

theorem first_far : StableHlo.after hostOps0 Wp (Proc.devRef .tc main_v3) = farWords (Wp (Proc.devRef .tc main_arg1)) := by
  after_results_simp
  exact far_term _

theorem first_positive : StableHlo.after hostOps0 Wp (Proc.devRef .tc main_v10)
    = cmpf (F := Ideal) (φ := .f32) .ogt (degree (farWords (Wp (Proc.devRef .tc main_arg1))) (Wp (Proc.devRef .tc main_arg2)))
        (zerosOf S100000 bcast_S_S100000) := by
  after_results_simp
  exact congrArg (fun D => cmpf (F := Ideal) (φ := .f32) .ogt D (zerosOf S100000 bcast_S_S100000)) (degree_host _ _)

theorem first_root : StableHlo.after hostOps0 Wp (Proc.devRef .tc main_v11)
    = Host.rsqrt (F := Ideal) (φ := .f32) (degree (farWords (Wp (Proc.devRef .tc main_arg1))) (Wp (Proc.devRef .tc main_arg2))) := by
  after_results_simp
  exact congrArg (fun D => Host.rsqrt (F := Ideal) (φ := .f32) D) (degree_host _ _)

theorem first_zero : StableHlo.after hostOps0 Wp (Proc.devRef .tc main_cst_2) = constant (F := Ideal) S_ .f32 0x00000000#32 := by
  after_results_simp

/-- The first stretch writes no argument array. -/
theorem first_keeps_arg0 : StableHlo.after hostOps0 Wp (Proc.devRef .tc main_arg0) = Wp (Proc.devRef .tc main_arg0) := by
  after_results_simp
theorem first_keeps_arg1 : StableHlo.after hostOps0 Wp (Proc.devRef .tc main_arg1) = Wp (Proc.devRef .tc main_arg1) := by
  after_results_simp
theorem first_keeps_arg2 : StableHlo.after hostOps0 Wp (Proc.devRef .tc main_arg2) = Wp (Proc.devRef .tc main_arg2) := by
  after_results_simp
theorem first_keeps_arg3 : StableHlo.after hostOps0 Wp (Proc.devRef .tc main_arg3) = Wp (Proc.devRef .tc main_arg3) := by
  after_results_simp
theorem first_keeps_arg4 : StableHlo.after hostOps0 Wp (Proc.devRef .tc main_arg4) = Wp (Proc.devRef .tc main_arg4) := by
  after_results_simp
theorem first_keeps_arg5 : StableHlo.after hostOps0 Wp (Proc.devRef .tc main_arg5) = Wp (Proc.devRef .tc main_arg5) := by
  after_results_simp
theorem first_keeps_arg6 : StableHlo.after hostOps0 Wp (Proc.devRef .tc main_arg6) = Wp (Proc.devRef .tc main_arg6) := by
  after_results_simp

/-! ## The second stretch: the guarded inverse root -/

/-- Contents moved to a buffer's own type and back are the contents. -/
theorem ofBuf_toBuf {T : BufTy} (x : StableHlo.TRef sig T) (v : T.Contents (Elt Ideal)) : x.ofBuf (x.toBuf v) = v := by
  unfold StableHlo.TRef.ofBuf StableHlo.TRef.toBuf
  rw [cast_cast, cast_eq]

theorem second_guarded : StableHlo.after hostOps0_1 Wp (Proc.devRef .tc main_v12)
    = select (Wp (Proc.devRef .tc main_v10)) (Wp (Proc.devRef .tc main_v11))
        (broadcastInDim S100000 ![] bcast_S_S100000 (Wp (Proc.devRef .tc main_cst_2))) := by
  after_results_simp
  simp only [ofBuf_toBuf]
  rfl

theorem second_keeps_v1 : StableHlo.after hostOps0_1 Wp (Proc.devRef .tc main_v1) = Wp (Proc.devRef .tc main_v1) := by
  after_results_simp
theorem second_keeps_v3 : StableHlo.after hostOps0_1 Wp (Proc.devRef .tc main_v3) = Wp (Proc.devRef .tc main_v3) := by
  after_results_simp
theorem second_keeps_arg0 : StableHlo.after hostOps0_1 Wp (Proc.devRef .tc main_arg0) = Wp (Proc.devRef .tc main_arg0) := by
  after_results_simp
theorem second_keeps_arg1 : StableHlo.after hostOps0_1 Wp (Proc.devRef .tc main_arg1) = Wp (Proc.devRef .tc main_arg1) := by
  after_results_simp
theorem second_keeps_arg2 : StableHlo.after hostOps0_1 Wp (Proc.devRef .tc main_arg2) = Wp (Proc.devRef .tc main_arg2) := by
  after_results_simp
theorem second_keeps_arg3 : StableHlo.after hostOps0_1 Wp (Proc.devRef .tc main_arg3) = Wp (Proc.devRef .tc main_arg3) := by
  after_results_simp
theorem second_keeps_arg4 : StableHlo.after hostOps0_1 Wp (Proc.devRef .tc main_arg4) = Wp (Proc.devRef .tc main_arg4) := by
  after_results_simp
theorem second_keeps_arg5 : StableHlo.after hostOps0_1 Wp (Proc.devRef .tc main_arg5) = Wp (Proc.devRef .tc main_arg5) := by
  after_results_simp
theorem second_keeps_arg6 : StableHlo.after hostOps0_1 Wp (Proc.devRef .tc main_arg6) = Wp (Proc.devRef .tc main_arg6) := by
  after_results_simp

/-! ## The third stretch: the edges' norms and the self-loop weights -/

theorem third_norms : StableHlo.after hostOps0_2 Wp (Proc.devRef .tc main_v28)
    = normVec gather_S100000_S1600000x1_S1600000_n_0_n_n_0_1_1_wf bcast_S_S1600000 bcast_S1600000_S1600000x1_0
        (Wp (Proc.devRef .tc main_v12)) (Wp (Proc.devRef .tc main_v1)) (Wp (Proc.devRef .tc main_v3))
        (Wp (Proc.devRef .tc main_arg2)) := by
  after_results_simp
  rfl

/-- A node's self-loop weight: the square of its inverse root degree. -/
abbrev selfWeight (dv : Nodes) (p : Fin 100000) : EReal := dv (ix1 p) * dv (ix1 p)

theorem third_column (p : Fin 100000) : StableHlo.after hostOps0_2 Wp (Proc.devRef .tc main_v30) (ix2 p (0 : Fin 1))
    = selfWeight (Wp (Proc.devRef .tc main_v12)) p := by
  after_results_simp
  refine (LibColumnCast.shapeCast_a_a1_apply (mulf (F := Ideal) (φ := .f32) (Wp (Proc.devRef .tc main_v12))
    (Wp (Proc.devRef .tc main_v12))) shapeCasts_S100000_S100000x1 p 0).trans ?_
  exact mulf_apply _ _ _

theorem third_keeps_v1 : StableHlo.after hostOps0_2 Wp (Proc.devRef .tc main_v1) = Wp (Proc.devRef .tc main_v1) := by
  after_results_simp
theorem third_keeps_v3 : StableHlo.after hostOps0_2 Wp (Proc.devRef .tc main_v3) = Wp (Proc.devRef .tc main_v3) := by
  after_results_simp
theorem third_keeps_v12 : StableHlo.after hostOps0_2 Wp (Proc.devRef .tc main_v12) = Wp (Proc.devRef .tc main_v12) := by
  after_results_simp
theorem third_keeps_arg0 : StableHlo.after hostOps0_2 Wp (Proc.devRef .tc main_arg0) = Wp (Proc.devRef .tc main_arg0) := by
  after_results_simp
theorem third_keeps_arg1 : StableHlo.after hostOps0_2 Wp (Proc.devRef .tc main_arg1) = Wp (Proc.devRef .tc main_arg1) := by
  after_results_simp
theorem third_keeps_arg2 : StableHlo.after hostOps0_2 Wp (Proc.devRef .tc main_arg2) = Wp (Proc.devRef .tc main_arg2) := by
  after_results_simp
theorem third_keeps_arg3 : StableHlo.after hostOps0_2 Wp (Proc.devRef .tc main_arg3) = Wp (Proc.devRef .tc main_arg3) := by
  after_results_simp
theorem third_keeps_arg4 : StableHlo.after hostOps0_2 Wp (Proc.devRef .tc main_arg4) = Wp (Proc.devRef .tc main_arg4) := by
  after_results_simp
theorem third_keeps_arg5 : StableHlo.after hostOps0_2 Wp (Proc.devRef .tc main_arg5) = Wp (Proc.devRef .tc main_arg5) := by
  after_results_simp
theorem third_keeps_arg6 : StableHlo.after hostOps0_2 Wp (Proc.devRef .tc main_arg6) = Wp (Proc.devRef .tc main_arg6) := by
  after_results_simp

/-! ## The fourth stretch: the first aggregation and the first bias row -/

theorem fourth_aggregated : StableHlo.after hostOps1 Wp (Proc.devRef .tc main_v44)
    = aggregated scatter_S100000x128_S1600000x1_S1600000x128_1_0_0_1_wf gather_S100000x128_S1600000x1_S1600000x128_1_0_n_n_0_1_1128_wf
        bcast_S_S100000x128 bcast_S_S1600000 bcast_S1600000_S1600000x1_0 bcast_S1600000x1_S1600000x128_0_1
        (Wp (Proc.devRef .tc main_v31)) (Wp (Proc.devRef .tc main_v1)) (Wp (Proc.devRef .tc main_v3))
        (Wp (Proc.devRef .tc main_v28)) := by
  after_results_simp
  rfl

theorem fourth_bias (k : Fin 128) : StableHlo.after hostOps1 Wp (Proc.devRef .tc main_v45) (ix2 (0 : Fin 1) k)
    = Wp (Proc.devRef .tc main_arg4) (ix1 k) := by
  after_results_simp
  exact LibHostRows.rowOfVec_cast_apply (Wp (Proc.devRef .tc main_arg4)) shapeCasts_S128_S1x128 k

theorem fourth_keeps_v1 : StableHlo.after hostOps1 Wp (Proc.devRef .tc main_v1) = Wp (Proc.devRef .tc main_v1) := by
  after_results_simp
theorem fourth_keeps_v3 : StableHlo.after hostOps1 Wp (Proc.devRef .tc main_v3) = Wp (Proc.devRef .tc main_v3) := by
  after_results_simp
theorem fourth_keeps_v28 : StableHlo.after hostOps1 Wp (Proc.devRef .tc main_v28) = Wp (Proc.devRef .tc main_v28) := by
  after_results_simp
theorem fourth_keeps_v30 : StableHlo.after hostOps1 Wp (Proc.devRef .tc main_v30) = Wp (Proc.devRef .tc main_v30) := by
  after_results_simp
theorem fourth_keeps_v31 : StableHlo.after hostOps1 Wp (Proc.devRef .tc main_v31) = Wp (Proc.devRef .tc main_v31) := by
  after_results_simp
theorem fourth_keeps_arg5 : StableHlo.after hostOps1 Wp (Proc.devRef .tc main_arg5) = Wp (Proc.devRef .tc main_arg5) := by
  after_results_simp
theorem fourth_keeps_arg6 : StableHlo.after hostOps1 Wp (Proc.devRef .tc main_arg6) = Wp (Proc.devRef .tc main_arg6) := by
  after_results_simp

end Cert.KernelIdeal.HostStretches

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.MatmulRegions.lean ====
/-
  The two matrix products of the two-layer graph convolution, as whole arrays.

  Each product region walks fifty grid points.  At point t it holds rows 2000·t … 2000·t + 1999 of the left
  array and the whole of the right array, multiplies the two blocks into a zero accumulator, and writes the
  result back as rows 2000·t … 2000·t + 1999 of the output array.  At the exact values a change of float
  format is the identity and the product unit's result, read at row p and column q, is the sum over the
  contraction index k of left[p,k] · right[k,q].  Row r of the output therefore ends as row r of the left
  array against the columns of the right one — the point that wrote it is r / 2000, and the fifty row blocks
  cover the array — so the output array is the matrix product of the two arrays as the region finds them.
-/
import proofs.«177980_j66692252172820_2_alg».proof.Proof.Gen.KernelIdeal.Frame
import proofs.«177980_j66692252172820_2_alg».proof.Proof.LibMatmulRows
import Idealize.ShloMosaic.Lib.ValueIdx
import Idealize.ShloMosaic.Lib.Pipeline.Value
import Idealize.ShloMosaic.PureOps.Ideal.Laws

noncomputable section

open scoped BigOperators

namespace Cert.KernelIdeal.MatmulRegions

open Cert.KernelIdeal Cert.KernelIdeal.Gen Idealize.ShloMosaic Idealize.ShloMosaic.TcCoe Idealize.SL.Sem
open Idealize.ShloMosaic.ValueIdx
open Idealize.ShloMosaic.Pipeline (Dat)

/-! ## The two products' dimension numbers: which operand coordinate is the output's and which is contracted -/

/-- First product: the left operand's row is the output's row … -/
theorem dims0_lhs_row (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- … its column the contraction position … -/
theorem dims0_lhs_contr (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
/-- … the right operand's row the contraction position … -/
theorem dims0_rhs_contr (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
/-- … and its column the output's column. -/
theorem dims0_rhs_col (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Second product: the same four facts. -/
theorem dims2_lhs_row (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem dims2_lhs_contr (i : S2000x16.Idx) (q : dot_S2000x128_S128x16_S2000x16_1_0_0_1_n_n.contr.Idx) :
    (dot_S2000x128_S128x16_S2000x16_1_0_0_1_n_n.lhsIdx i q 1).val = (q ⟨0, by decide⟩).val :=
  dot_S2000x128_S128x16_S2000x16_1_0_0_1_n_n.lhsIdx_val_of_single rfl i q
theorem dims2_rhs_contr (i : S2000x16.Idx) (q : dot_S2000x128_S128x16_S2000x16_1_0_0_1_n_n.contr.Idx) :
    (dot_S2000x128_S128x16_S2000x16_1_0_0_1_n_n.rhsIdx i q 0).val = (q ⟨0, by decide⟩).val :=
  dot_S2000x128_S128x16_S2000x16_1_0_0_1_n_n.rhsIdx_val_of_single rfl i q
theorem dims2_rhs_col (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-! ## One block of each product, entry by entry -/

/-- The first product's block: entry (p, q) is row p of the left block against column q of the right one
    (the narrowing of both operands to bf16 changes nothing at the exact values). -/
theorem product0_block_entry (x0 : Vec Ideal S2000x512 .f32) (x1 : Vec Ideal S512x128 .f32) (p : Fin 2000) (q : Fin 128) :
    k0_pay1 (F := Ideal) x0 x1 (ix2 p q) = ∑ k : Fin 512, x0 (ix2 p k) * x1 (ix2 k q) := by
  unfold k0_pay1
  exact Cert.LibMatmulRows.matmul_zero_apply dot_S2000x512_S512x128_S2000x128_1_0_0_1_n_n rfl rfl
    dims0_lhs_row dims0_lhs_contr dims0_rhs_contr dims0_rhs_col none _ _ p q

/-- The same at any index of the block. -/
theorem product0_block_apply (x0 : Vec Ideal S2000x512 .f32) (x1 : Vec Ideal S512x128 .f32) (y : S2000x128.Idx) :
    k0_pay1 (F := Ideal) x0 x1 y = ∑ k : Fin 512, x0 (ix2 (y 0) k) * x1 (ix2 k (y 1)) := by
  obtain ⟨p, q, rfl⟩ : ∃ (p : Fin 2000) (q : Fin 128), y = ix2 p q := ⟨y 0, y 1, eq_ix2 y⟩
  exact product0_block_entry x0 x1 p q

/-- The second product's block: entry (p, q) is row p of the left block against column q of the right one
    (a reshape to the same shape and the narrowing to bf16 change nothing). -/
theorem product2_block_entry (x0 : Vec Ideal S2000x128 .f32) (x1 : Vec Ideal S128x16 .f32) (p : Fin 2000) (q : Fin 16) :
    k2_pay1 (F := Ideal) x0 x1 (ix2 p q) = ∑ k : Fin 128, x0 (ix2 p k) * x1 (ix2 k q) := by
  unfold k2_pay1
  refine (Cert.LibMatmulRows.matmul_zero_apply dot_S2000x128_S128x16_S2000x16_1_0_0_1_n_n rfl rfl
    dims2_lhs_row dims2_lhs_contr dims2_rhs_contr dims2_rhs_col none _ _ p q).trans ?_
  show ∑ k : Fin 128, (shapeCast S2000x128 x0 shapeCasts_S2000x128_S2000x128) (ix2 p k) * x1 (ix2 k q) = _
  rw [shapeCast_self]

/-- The same at any index of the block. -/
theorem product2_block_apply (x0 : Vec Ideal S2000x128 .f32) (x1 : Vec Ideal S128x16 .f32) (y : S2000x16.Idx) :
    k2_pay1 (F := Ideal) x0 x1 y = ∑ k : Fin 128, x0 (ix2 (y 0) k) * x1 (ix2 k (y 1)) := by
  obtain ⟨p, q, rfl⟩ : ∃ (p : Fin 2000) (q : Fin 16), y = ix2 p q := ⟨y 0, y 1, eq_ix2 y⟩
  exact product2_block_entry x0 x1 p q

/-! ## From the blocks to the arrays -/

section Regions
variable (V : (c : Dev nD) → (b : Ref sig .tc) → Buf (Elt Ideal) ((c : Thread nD τ).loc b))

theorem zero_offsets : (![0, 0] : Fin 2 → Nat) = fun _ => 0 := funext fun a => by fin_cases a <;> rfl

/-- The product of a 100000 × 512 array with a 512 × 128 one, entry by entry. -/
abbrev product0 (a0 : S100000x512.Idx → EReal) (a1 : S512x128.Idx → EReal) : S100000x128.Idx → EReal :=
  fun i => ∑ k : Fin 512, a0 (ix2 (i 0) k) * a1 (ix2 k (i 1))

/-- The product of a 100000 × 128 array with a 128 × 16 one, entry by entry. -/
abbrev product2 (a0 : S100000x128.Idx → EReal) (a1 : S128x16.Idx → EReal) : S100000x16.Idx → EReal :=
  fun i => ∑ k : Fin 128, a0 (ix2 (i 0) k) * a1 (ix2 k (i 1))

/-! ### Region 0 -/
/-- Where the blocks of region 0 sit: at grid point t the left operand's and the result's blocks are row
    block t (column block 0), and the right operand's block is the whole array. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is rows 2000·t … 2000·t + 1999 of the product of the two arrays as the
    region finds them. -/
theorem region0_flushed (c : Dev nD) (t : Fin cfg0.N) :
    (dat0 (F := Ideal) V c).flushed 2 t = ((cfg0.win 2).blk t).view.read (Elt Ideal)
      (product0 (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  obtain ⟨e00, e01, e10, e11, e20, e21⟩ := block_indices0 t
  funext j
  show k0_pay1 (F := Ideal) (iblk0 V c 0 t) (iblk0 V c 1 t) ((cfg0.win 2).xinj (grid0.coords t) j) = _
  refine (product0_block_apply (iblk0 V c 0 t) (iblk0 V c 1 t) ((cfg0.win 2).xinj (grid0.coords t) j)).trans ?_
  show _ = product0 (V c (Pipeline.arrRef spec0 0)) (V c (Pipeline.arrRef spec0 1)) (((cfg0.win 2).blk t).view.emb j)
  refine Finset.sum_congr rfl fun k _ => ?_
  have h0 : iblk0 V c 0 t (ix2 ((cfg0.win 2).xinj (grid0.coords t) j 0) k)
      = V c (Pipeline.arrRef spec0 0) (ix2 (((cfg0.win 2).blk t).view.emb j 0) k) := by
    show V c (Pipeline.arrRef spec0 0) (((cfg0.win 0).blk t).view.emb (ix2 ((cfg0.win 2).xinj (grid0.coords t) j 0) k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : iblk0 V c 1 t (ix2 k ((cfg0.win 2).xinj (grid0.coords t) j 1))
      = V c (Pipeline.arrRef spec0 1) (ix2 k (((cfg0.win 2).blk t).view.emb j 1)) := by
    show V c (Pipeline.arrRef spec0 1) (((cfg0.win 1).blk t).view.emb (ix2 k ((cfg0.win 2).xinj (grid0.coords t) j 1))) = _
    refine congrArg _ (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [h0, h1]

/-- An index of the result array lies in grid point t's block when each coordinate lies in the block's range. -/
theorem mem_block0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v31).slice (win0_2.rect t)).set ↔ _
  rw [View.set_slice_whole, Rect.mem_set_unit]
  exact Iff.rfl

/-- Row r of the result lies in the block of grid point r / 2000: the fifty row blocks cover the array. -/
theorem region0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e20, e21⟩ := block_indices0 t
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The first product's array after region 0: entry (r, j) is row r of the left array against column j of
    the right one, the arrays as the region finds them. -/
theorem region0_array (c : Dev nD) :
    (dat0 (F := Ideal) V c).arrAt 2 cfg0.N
      = product0 (V c (Pipeline.arrRef spec0 0)) (V c (Pipeline.arrRef spec0 1)) :=
  (dat0 (F := Ideal) V c).arrAt_eq_of_cover 2
    (product0 (V c (Pipeline.arrRef spec0 0)) (V c (Pipeline.arrRef spec0 1)))
    (fun t _ => region0_flushed V c t) region0_cover

/-! ### Region 2 -/

/-- Where the blocks of region 2 sit: at grid point t the left operand's and the result's blocks are row
    block t (column block 0), and the right operand's block is the whole array. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is rows 2000·t … 2000·t + 1999 of the product of the two arrays as the
    region finds them. -/
theorem region2_flushed (c : Dev nD) (t : Fin cfg2.N) :
    (dat2 (F := Ideal) V c).flushed 2 t = ((cfg2.win 2).blk t).view.read (Elt Ideal)
      (product2 (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x16) zero_offsets]
  obtain ⟨e00, e01, e10, e11, e20, e21⟩ := block_indices2 t
  funext j
  show k2_pay1 (F := Ideal) (iblk2 V c 0 t) (iblk2 V c 1 t) ((cfg2.win 2).xinj (grid2.coords t) j) = _
  refine (product2_block_apply (iblk2 V c 0 t) (iblk2 V c 1 t) ((cfg2.win 2).xinj (grid2.coords t) j)).trans ?_
  show _ = product2 (V c (Pipeline.arrRef spec2 0)) (V c (Pipeline.arrRef spec2 1)) (((cfg2.win 2).blk t).view.emb j)
  refine Finset.sum_congr rfl fun k _ => ?_
  have h0 : iblk2 V c 0 t (ix2 ((cfg2.win 2).xinj (grid2.coords t) j 0) k)
      = V c (Pipeline.arrRef spec2 0) (ix2 (((cfg2.win 2).blk t).view.emb j 0) k) := by
    show V c (Pipeline.arrRef spec2 0) (((cfg2.win 0).blk t).view.emb (ix2 ((cfg2.win 2).xinj (grid2.coords t) j 0) k)) = _
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have h1 : iblk2 V c 1 t (ix2 k ((cfg2.win 2).xinj (grid2.coords t) j 1))
      = V c (Pipeline.arrRef spec2 1) (ix2 k (((cfg2.win 2).blk t).view.emb j 1)) := by
    show V c (Pipeline.arrRef spec2 1) (((cfg2.win 1).blk t).view.emb (ix2 k ((cfg2.win 2).xinj (grid2.coords t) j 1))) = _
    refine congrArg _ (funext fun a => Fin.ext ?_)
    match a with
    | ⟨0, _⟩ => show win2_1.index t (0 : Fin 2) * 128 + 1 * k.val = k.val; omega
    | ⟨1, _⟩ => show win2_1.index t (1 : Fin 2) * 16 + 1 * (j 1).val = win2_2.index t (1 : Fin 2) * 16 + 1 * (j 1).val; omega
  rw [h0, h1]

/-- An index of the result array lies in grid point t's block when each coordinate lies in the block's range. -/
theorem mem_block2 (t : Fin cfg2.N) (i : S100000x16.Idx) :
    i ∈ ((cfg2.win 2).blk t).view.set ↔ ∀ a : Fin 2, win2_2.index t a * S2000x16.size a ≤ (i a).val
      ∧ (i a).val < win2_2.index t a * S2000x16.size a + S2000x16.size a := by
  show i ∈ ((View.whole main_v47).slice (win2_2.rect t)).set ↔ _
  rw [View.set_slice_whole, Rect.mem_set_unit]
  exact Iff.rfl

/-- Row r of the result lies in the block of grid point r / 2000: the fifty row blocks cover the array. -/
theorem region2_cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, e20, e21⟩ := block_indices2 t
  refine ⟨t, flush2_2 t, ?_⟩
  rw [mem_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- The second product's array after region 2: entry (r, j) is row r of the left array against column j of
    the right one, the arrays as the region finds them. -/
theorem region2_array (c : Dev nD) :
    (dat2 (F := Ideal) V c).arrAt 2 cfg2.N
      = product2 (V c (Pipeline.arrRef spec2 0)) (V c (Pipeline.arrRef spec2 1)) :=
  (dat2 (F := Ideal) V c).arrAt_eq_of_cover 2
    (product2 (V c (Pipeline.arrRef spec2 0)) (V c (Pipeline.arrRef spec2 1)))
    (fun t _ => region2_flushed V c t) region2_cover

end Regions

end Cert.KernelIdeal.MatmulRegions

end
-- ==== Proof.AffineRegion1.lean ====
/-
  The first affine region of the kernel, read as one array.

  The region visits fifty blocks of two thousand rows. On each block it takes the aggregate block, adds the feature
  block scaled row by row by a column of coefficients, adds a bias row, and keeps the positive part. Below, the block
  written at a point is read entry by entry; each input block is located inside its array; and the fifty written
  blocks are put together: the output array is `affineRelu` of the four arrays the region finds.
-/
import proofs.«177980_j66692252172820_2_alg».proof.Proof.Gen.KernelIdeal.Frame
import Idealize.ShloMosaic.Lib.ValueIdx
import Idealize.ShloMosaic.Lib.Pipeline.Value
import Idealize.ShloMosaic.Lib.ValueLayout

noncomputable section

namespace Cert.KernelIdeal.AffineRegion1

open Cert.KernelIdeal Cert.KernelIdeal.Gen Idealize.ShloMosaic Idealize.ShloMosaic.TcCoe Idealize.SL.Sem
open Idealize.ShloMosaic.ValueIdx
open Idealize.ShloMosaic.Pipeline (Dat)

/-! ## Two layout facts -/

/-- The offset of every whole-buffer access of the body is zero on both axes. -/
theorem zero_offsets : (![0, 0] : Fin 2 → Nat) = fun _ => 0 := funext fun a => by fin_cases a <;> rfl

/-- A column `[a, 1]` broadcast to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The affine map followed by the positive part -/

/-- The array region 1 leaves: at row `r`, column `k`, the positive part of
    `(agg(r,k) + col(r) · h(r,k)) + bias(k)`. -/
abbrev affineRelu (agg h : S100000x128.Idx → EReal) (col : S100000x1.Idx → EReal) (bias : S1x128.Idx → EReal) :
    S100000x128.Idx → EReal :=
  fun i => max ((agg i + col (ix2 (i 0) (0 : Fin 1)) * h i) + bias (ix2 (0 : Fin 1) (i 1))) (Ideal.ofBits .f32 0x00000000#32)

/-- Entry `(p, q)` of the block the body stores, from the four blocks it loads. -/
theorem affineRelu_payload_apply (v0 : Vec Ideal S2000x128 .f32) (v2 : Vec Ideal S2000x1 .f32)
    (v4 : Vec Ideal S2000x128 .f32) (v9 : Vec Ideal S1x128 .f32) (p : Fin 2000) (q : Fin 128) :
    k1_pay1 (F := Ideal) v0 v2 v4 v9 (ix2 p q)
      = max ((v0 (ix2 p q) + v2 (ix2 p (0 : Fin 1)) * v4 (ix2 p q)) + v9 (ix2 (0 : Fin 1) q))
          (Ideal.ofBits .f32 0x00000000#32) := by
  unfold k1_pay1
  simp only [shapeCast_self]
  rw [maximumf_apply, addf_apply, addf_apply, mulf_apply, broadcast_apply]
  rw [broadcastTo_column_apply, broadcastTo_1b_ab_apply]
  rfl

/-- The printed index maps of region 1 over its fifty points: the two matrices, the column and the output move down
    one row block per point and stay in column block zero; the bias row stays where it is. -/
theorem affineRelu_index_agg : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem affineRelu_index_h : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem affineRelu_index_col : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem affineRelu_index_bias : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem affineRelu_index_out : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

section
variable (V : (c : Dev nD) → (b : Ref sig .tc) → Buf (Elt Ideal) ((c : Thread nD τ).loc b))

set_option maxHeartbeats 1000000 in
/-- Entry `j` of what the body leaves at point `t` is `affineRelu` of the arrays at the entry's place in the output
    array: each block is read where the output's rectangle says. -/
theorem affineRelu_block_entry (c : Dev nD) (t : Fin cfg1.N) (j : S2000x128.Idx) :
    k1_pay1 (F := Ideal) (iblk1 V c 0 t) (iblk1 V c 2 t) (iblk1 V c 1 t) (iblk1 V c 3 t) j
      = affineRelu (V c (Pipeline.arrRef spec1 0)) (V c (Pipeline.arrRef spec1 1))
          (V c (Pipeline.arrRef spec1 2)) (V c (Pipeline.arrRef spec1 3)) (((cfg1.win 4).blk t).view.emb j) := by
  obtain ⟨p, q, rfl⟩ : ∃ (p : Fin 2000) (q : Fin 128), j = ix2 p q := ⟨j 0, j 1, eq_ix2 j⟩
  have a00 := (affineRelu_index_agg t).1
  have a01 := (affineRelu_index_agg t).2
  have a10 := (affineRelu_index_h t).1
  have a11 := (affineRelu_index_h t).2
  have a20 := (affineRelu_index_col t).1
  have a21 := (affineRelu_index_col t).2
  have a30 := (affineRelu_index_bias t).1
  have a31 := (affineRelu_index_bias t).2
  have a40 := (affineRelu_index_out t).1
  have a41 := (affineRelu_index_out t).2
  refine (affineRelu_payload_apply (iblk1 V c 0 t) (iblk1 V c 2 t) (iblk1 V c 1 t) (iblk1 V c 3 t) p q).trans ?_
  have hp : p.val < 2000 := p.isLt
  have hq : q.val < 128 := q.isLt
  have h0 : ((cfg1.win 0).blk t).view.emb (ix2 p q : S2000x128.Idx)
      = ((cfg1.win 4).blk t).view.emb (ix2 p q : S2000x128.Idx) := by
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * q.val = win1_4.index t (1 : Fin 2) * 128 + 1 * q.val; omega
  have h1 : ((cfg1.win 1).blk t).view.emb (ix2 p q : S2000x128.Idx)
      = ((cfg1.win 4).blk t).view.emb (ix2 p q : S2000x128.Idx) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 128 + 1 * q.val = win1_4.index t (1 : Fin 2) * 128 + 1 * q.val; omega
  have h2 : ((cfg1.win 2).blk t).view.emb (ix2 p (0 : Fin 1) : S2000x1.Idx)
      = (ix2 ((((cfg1.win 4).blk t).view.emb (ix2 p q : S2000x128.Idx)) 0) (0 : Fin 1) : S100000x1.Idx) := by
    funext a; apply Fin.ext
    match a with
    | ⟨0, _⟩ => show win1_2.index t (0 : Fin 2) * 2000 + 1 * p.val = win1_4.index t (0 : Fin 2) * 2000 + 1 * p.val; omega
    | ⟨1, _⟩ => show win1_2.index t (1 : Fin 2) * 1 + 1 * 0 = 0; omega
  have h3 : ((cfg1.win 3).blk t).view.emb (ix2 (0 : Fin 1) q : S1x128.Idx)
      = (ix2 (0 : Fin 1) ((((cfg1.win 4).blk t).view.emb (ix2 p q : S2000x128.Idx)) 1) : S1x128.Idx) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  have e0 : iblk1 V c 0 t (ix2 p q : S2000x128.Idx)
      = V c (Pipeline.arrRef spec1 0) (((cfg1.win 4).blk t).view.emb (ix2 p q : S2000x128.Idx)) :=
    congrArg (V c (Pipeline.arrRef spec1 0)) h0
  have e1 : iblk1 V c 1 t (ix2 p q : S2000x128.Idx)
      = V c (Pipeline.arrRef spec1 1) (((cfg1.win 4).blk t).view.emb (ix2 p q : S2000x128.Idx)) :=
    congrArg (V c (Pipeline.arrRef spec1 1)) h1
  have e2 : iblk1 V c 2 t (ix2 p (0 : Fin 1) : S2000x1.Idx)
      = V c (Pipeline.arrRef spec1 2)
          (ix2 ((((cfg1.win 4).blk t).view.emb (ix2 p q : S2000x128.Idx)) 0) (0 : Fin 1) : S100000x1.Idx) :=
    congrArg (V c (Pipeline.arrRef spec1 2)) h2
  have e3 : iblk1 V c 3 t (ix2 (0 : Fin 1) q : S1x128.Idx)
      = V c (Pipeline.arrRef spec1 3)
          (ix2 (0 : Fin 1) ((((cfg1.win 4).blk t).view.emb (ix2 p q : S2000x128.Idx)) 1) : S1x128.Idx) :=
    congrArg (V c (Pipeline.arrRef spec1 3)) h3
  rw [e0, e1, e2, e3]

/-- What point `t` writes back is block `t` of `affineRelu` of the four arrays as the region finds them. -/
theorem affineRelu_flushed (c : Dev nD) (t : Fin cfg1.N) :
    (dat1 (F := Ideal) V c).flushed 4 t
      = ((cfg1.win 4).blk t).view.read (Elt Ideal)
          (affineRelu (V c (Pipeline.arrRef spec1 0)) (V c (Pipeline.arrRef spec1 1))
            (V c (Pipeline.arrRef spec1 2)) (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S2000x1) zero_offsets,
    View.ld_unit_zero (S := S1x128) zero_offsets]
  funext j
  exact affineRelu_block_entry V c t j

/-- An index of the output array is in point `t`'s block iff each coordinate is in the block's range on its axis. -/
theorem affineRelu_mem_block (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v46).slice (win1_4.rect t)).set ↔ _
  rw [View.set_slice_whole, Rect.mem_set_unit]
  exact Iff.rfl

/-- Row `r` of the output lies in the block of point `r / 2000`. -/
theorem affineRelu_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 50 := N_1
  let t : Fin cfg1.N := ⟨(i 0).val / 2000, by show (i 0).val / 2000 < grid1.N; omega⟩
  have a40 := (affineRelu_index_out t).1
  have a41 := (affineRelu_index_out t).2
  have ht : t.val = (i 0).val / 2000 := rfl
  refine ⟨t, flush1_4 t, ?_⟩
  rw [affineRelu_mem_block]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- After the fifty write-backs the output array is, entry by entry, the positive part of the affine combination of the
    arrays the region finds. -/
theorem region1_array (c : Dev nD) :
    (dat1 (F := Ideal) V c).arrAt 4 cfg1.N
      = affineRelu (V c (Pipeline.arrRef spec1 0)) (V c (Pipeline.arrRef spec1 1))
          (V c (Pipeline.arrRef spec1 2)) (V c (Pipeline.arrRef spec1 3)) :=
  (dat1 (F := Ideal) V c).arrAt_eq_of_cover 4
    (affineRelu (V c (Pipeline.arrRef spec1 0)) (V c (Pipeline.arrRef spec1 1))
      (V c (Pipeline.arrRef spec1 2)) (V c (Pipeline.arrRef spec1 3)))
    (fun t _ => affineRelu_flushed V c t) affineRelu_cover

end

end Cert.KernelIdeal.AffineRegion1

end
-- ==== Proof.KernelFirstHalf.lean ====
/-
  The first half of the graph convolution, as the tiled regions find it.

  From the launch contents of the seven arguments the buffers are followed through the host stretches and the first two
  tiled regions.  The index array's two rows give every edge's near and far end; the weights scattered onto the far
  ends, plus one, are the degrees, and their guarded inverse square roots `dv` weigh the edges (the norm of edge e is
  (dv[near e] · w_e) · dv[far e]) and the self loops (dv[p] · dv[p]).  Region 0 multiplies the features by the first
  weight matrix; the host gathers that table's rows along the edges, scales them by the norms and scatters them onto
  the far ends; region 1 adds the self loop and the bias and takes the positive part.  What region 2 then finds is the
  first layer of the specification, beside the edge data the second layer reads again.
-/
import proofs.«177980_j66692252172820_2_alg».proof.Proof.Gen.KernelIdeal.Frame
import proofs.«177980_j66692252172820_2_alg».proof.Proof.GraphConvSpec
import proofs.«177980_j66692252172820_2_alg».proof.Proof.HostStages
import proofs.«177980_j66692252172820_2_alg».proof.Proof.HostStretches
import proofs.«177980_j66692252172820_2_alg».proof.Proof.MatmulRegions
import proofs.«177980_j66692252172820_2_alg».proof.Proof.AffineRegion1
import Idealize.ShloMosaic.Lib.StableHlo.Run
import Idealize.ShloMosaic.Lib.ValueIdx
import Idealize.ShloMosaic.Lib.Pipeline.Value
import Idealize.ShloMosaic.PureOps.Ideal

noncomputable section

open scoped BigOperators

namespace Cert.KernelIdeal.Stages

open Cert.KernelIdeal Cert.KernelIdeal.Gen Idealize.ShloMosaic Idealize.ShloMosaic.TcCoe Idealize.SL.Sem
open Idealize.ShloMosaic.ValueIdx
open Cert.GraphConv Cert.HostPatterns Cert.HostStages Cert.KernelIdeal.HostStretches

variable (m : (ℓ : Loc nD τ sig) → Buf (Elt Ideal) ℓ) (ρ : Dev nD → PrngReg)

/-! ## The launch contents of the seven arguments, at their literal types -/

abbrev x0 (c : Dev nD) : S100000x512.Idx → EReal := m ((c : Thread nD τ).loc main_arg0)
abbrev x1 (c : Dev nD) : S2x1600000.Idx → BitVec 32 := m ((c : Thread nD τ).loc main_arg1)
abbrev x2 (c : Dev nD) : S1600000.Idx → EReal := m ((c : Thread nD τ).loc main_arg2)
abbrev x3 (c : Dev nD) : S512x128.Idx → EReal := m ((c : Thread nD τ).loc main_arg3)
abbrev x4 (c : Dev nD) : S128.Idx → EReal := m ((c : Thread nD τ).loc main_arg4)
abbrev x5 (c : Dev nD) : S128x16.Idx → EReal := m ((c : Thread nD τ).loc main_arg5)
abbrev x6 (c : Dev nD) : S16.Idx → EReal := m ((c : Thread nD τ).loc main_arg6)

/-- The inverse root degrees as region 0 finds them. -/
abbrev dv (c : Dev nD) : Nodes := W3 (F := Ideal) m ρ c (Proc.devRef .tc main_v12)

/-! ## After the first stretch -/

theorem W1_near (c : Dev nD) : W1 (F := Ideal) m ρ c (Proc.devRef .tc main_v1) = nearWords (x1 m c) :=
  first_near (W0 m ρ c)
theorem W1_far (c : Dev nD) : W1 (F := Ideal) m ρ c (Proc.devRef .tc main_v3) = farWords (x1 m c) :=
  first_far (W0 m ρ c)
theorem W1_positive (c : Dev nD) : W1 (F := Ideal) m ρ c (Proc.devRef .tc main_v10)
    = cmpf (F := Ideal) (φ := .f32) .ogt (degree (farWords (x1 m c)) (x2 m c)) (zerosOf S100000 bcast_S_S100000) :=
  first_positive (W0 m ρ c)
theorem W1_root (c : Dev nD) : W1 (F := Ideal) m ρ c (Proc.devRef .tc main_v11)
    = Host.rsqrt (F := Ideal) (φ := .f32) (degree (farWords (x1 m c)) (x2 m c)) :=
  first_root (W0 m ρ c)
theorem W1_zero (c : Dev nD) : W1 (F := Ideal) m ρ c (Proc.devRef .tc main_cst_2) = constant (F := Ideal) S_ .f32 0x00000000#32 :=
  first_zero (W0 m ρ c)

/-! ## After the second stretch: the inverse root degrees -/

theorem W2_dinv (c : Dev nD) : W2 (F := Ideal) m ρ c (Proc.devRef .tc main_v12)
    = invRootPos (degree (farWords (x1 m c)) (x2 m c)) := by
  refine (second_guarded (W1 m ρ c)).trans ?_
  rw [W1_positive, W1_root, W1_zero]
  exact invRootHost_eq bcast_S_S100000 _

/-- The inverse root degrees region 0 finds: the guarded inverse square root of the degrees. -/
theorem kernel_dinv (c : Dev nD) : W3 (F := Ideal) m ρ c (Proc.devRef .tc main_v12)
    = invRootPos (degree (farWords (x1 m c)) (x2 m c)) :=
  (third_keeps_v12 (W2 m ρ c)).trans (W2_dinv m ρ c)

/-! ## At region 0's entry -/

theorem W3_near (c : Dev nD) : W3 (F := Ideal) m ρ c (Proc.devRef .tc main_v1) = nearWords (x1 m c) :=
  (third_keeps_v1 (W2 m ρ c)).trans ((second_keeps_v1 (W1 m ρ c)).trans (W1_near m ρ c))
theorem W3_far (c : Dev nD) : W3 (F := Ideal) m ρ c (Proc.devRef .tc main_v3) = farWords (x1 m c) :=
  (third_keeps_v3 (W2 m ρ c)).trans ((second_keeps_v3 (W1 m ρ c)).trans (W1_far m ρ c))
theorem W3_arg0 (c : Dev nD) : W3 (F := Ideal) m ρ c (Proc.devRef .tc main_arg0) = x0 m c :=
  (third_keeps_arg0 (W2 m ρ c)).trans ((second_keeps_arg0 (W1 m ρ c)).trans (first_keeps_arg0 (W0 m ρ c)))
theorem W3_arg2 (c : Dev nD) : W3 (F := Ideal) m ρ c (Proc.devRef .tc main_arg2) = x2 m c :=
  (third_keeps_arg2 (W2 m ρ c)).trans ((second_keeps_arg2 (W1 m ρ c)).trans (first_keeps_arg2 (W0 m ρ c)))
theorem W3_arg3 (c : Dev nD) : W3 (F := Ideal) m ρ c (Proc.devRef .tc main_arg3) = x3 m c :=
  (third_keeps_arg3 (W2 m ρ c)).trans ((second_keeps_arg3 (W1 m ρ c)).trans (first_keeps_arg3 (W0 m ρ c)))
theorem W3_arg4 (c : Dev nD) : W3 (F := Ideal) m ρ c (Proc.devRef .tc main_arg4) = x4 m c :=
  (third_keeps_arg4 (W2 m ρ c)).trans ((second_keeps_arg4 (W1 m ρ c)).trans (first_keeps_arg4 (W0 m ρ c)))
theorem W3_arg5 (c : Dev nD) : W3 (F := Ideal) m ρ c (Proc.devRef .tc main_arg5) = x5 m c :=
  (third_keeps_arg5 (W2 m ρ c)).trans ((second_keeps_arg5 (W1 m ρ c)).trans (first_keeps_arg5 (W0 m ρ c)))
theorem W3_arg6 (c : Dev nD) : W3 (F := Ideal) m ρ c (Proc.devRef .tc main_arg6) = x6 m c :=
  (third_keeps_arg6 (W2 m ρ c)).trans ((second_keeps_arg6 (W1 m ρ c)).trans (first_keeps_arg6 (W0 m ρ c)))

theorem W2_near (c : Dev nD) : W2 (F := Ideal) m ρ c (Proc.devRef .tc main_v1) = nearWords (x1 m c) :=
  (second_keeps_v1 (W1 m ρ c)).trans (W1_near m ρ c)
theorem W2_far (c : Dev nD) : W2 (F := Ideal) m ρ c (Proc.devRef .tc main_v3) = farWords (x1 m c) :=
  (second_keeps_v3 (W1 m ρ c)).trans (W1_far m ρ c)
theorem W2_arg2 (c : Dev nD) : W2 (F := Ideal) m ρ c (Proc.devRef .tc main_arg2) = x2 m c :=
  (second_keeps_arg2 (W1 m ρ c)).trans (first_keeps_arg2 (W0 m ρ c))
theorem W2_dv (c : Dev nD) : W2 (F := Ideal) m ρ c (Proc.devRef .tc main_v12) = dv m ρ c :=
  (third_keeps_v12 (W2 m ρ c)).symm

/-- The norm of edge e, as region 0 finds it. -/
theorem W3_norm (c : Dev nD) (e : Fin 1600000) : W3 (F := Ideal) m ρ c (Proc.devRef .tc main_v28) (ix1 e)
    = edgeNorm (dv m ρ c) (nearWords (x1 m c)) (farWords (x1 m c)) (x2 m c) e := by
  refine (congrFun (third_norms (W2 m ρ c)) (ix1 e)).trans ?_
  rw [W2_near, W2_far, W2_arg2, W2_dv]
  unfold edgeNorm
  exact normVec_apply (R := 1600000) (by omega) gather_S100000_S1600000x1_S1600000_n_0_n_n_0_1_1_wf bcast_S_S1600000
    bcast_S1600000_S1600000x1_0 (dv m ρ c) (nearWords (x1 m c)) (farWords (x1 m c)) (x2 m c) e

/-- The self-loop weight of node p, as region 0 finds it. -/
theorem W3_column (c : Dev nD) (p : Fin 100000) : W3 (F := Ideal) m ρ c (Proc.devRef .tc main_v30) (ix2 p (0 : Fin 1))
    = selfWeight (dv m ρ c) p := by
  refine (third_column (W2 m ρ c) p).trans ?_
  rw [W2_dv]

/-! ## At region 0's exit: the features times the first weight matrix -/

theorem hidden_eq (a : S100000x512.Idx → EReal) (b : S512x128.Idx → EReal) : hidden a b = MatmulRegions.product0 a b := rfl

theorem W4_hidden (c : Dev nD) : W4 (F := Ideal) m ρ c (Proc.devRef .tc main_v31) = hidden (x0 m c) (x3 m c) := by
  refine (W4_arr m ρ c 2).trans ((MatmulRegions.region0_array (V3 m ρ) c).trans ?_)
  rw [hidden_eq]
  exact congrArg₂ MatmulRegions.product0 (W3_arg0 m ρ c) (W3_arg3 m ρ c)

theorem W4_near (c : Dev nD) : W4 (F := Ideal) m ρ c (Proc.devRef .tc main_v1) = nearWords (x1 m c) :=
  (W4_of_ne m ρ c main_v1 (by decide)).trans (W3_near m ρ c)
theorem W4_far (c : Dev nD) : W4 (F := Ideal) m ρ c (Proc.devRef .tc main_v3) = farWords (x1 m c) :=
  (W4_of_ne m ρ c main_v3 (by decide)).trans (W3_far m ρ c)
theorem W4_norm (c : Dev nD) (e : Fin 1600000) : W4 (F := Ideal) m ρ c (Proc.devRef .tc main_v28) (ix1 e)
    = edgeNorm (dv m ρ c) (nearWords (x1 m c)) (farWords (x1 m c)) (x2 m c) e :=
  (congrFun (W4_of_ne m ρ c main_v28 (by decide)) (ix1 e)).trans (W3_norm m ρ c e)
theorem W4_column (c : Dev nD) (p : Fin 100000) : W4 (F := Ideal) m ρ c (Proc.devRef .tc main_v30) (ix2 p (0 : Fin 1))
    = selfWeight (dv m ρ c) p :=
  (congrFun (W4_of_ne m ρ c main_v30 (by decide)) (ix2 p (0 : Fin 1))).trans (W3_column m ρ c p)
theorem W4_arg4 (c : Dev nD) : W4 (F := Ideal) m ρ c (Proc.devRef .tc main_arg4) = x4 m c :=
  (W4_of_ne m ρ c main_arg4 (by decide)).trans (W3_arg4 m ρ c)
theorem W4_arg5 (c : Dev nD) : W4 (F := Ideal) m ρ c (Proc.devRef .tc main_arg5) = x5 m c :=
  (W4_of_ne m ρ c main_arg5 (by decide)).trans (W3_arg5 m ρ c)
theorem W4_arg6 (c : Dev nD) : W4 (F := Ideal) m ρ c (Proc.devRef .tc main_arg6) = x6 m c :=
  (W4_of_ne m ρ c main_arg6 (by decide)).trans (W3_arg6 m ρ c)

/-! ## At region 1's entry: the first aggregation -/

theorem inflow_eq {C : Nat} (dv : Nodes) (s d : EdgeWords) (w : EdgeVals) (h : Table C) (p : Fin 100000) (k : Fin C) :
    inflow dv s d w h p k = ∑ e : Fin 1600000, if (d (ix1 e)).toInt = (p.val : Int)
      then h (ix2 (rowOf (s (ix1 e))) k) * edgeNorm dv s d w e else 0 := rfl

/-- What arrives at node p, column k, from the hidden table along the edges, on top of zero. -/
theorem W5_inflow (c : Dev nD) (p : Fin 100000) (k : Fin 128) : W5 (F := Ideal) m ρ c (Proc.devRef .tc main_v44) (ix2 p k)
    = z32 + inflow (dv m ρ c) (nearWords (x1 m c)) (farWords (x1 m c)) (x2 m c) (hidden (x0 m c) (x3 m c)) p k := by
  refine (congrFun (fourth_aggregated (W4 m ρ c)) (ix2 p k)).trans ?_
  rw [W4_hidden, W4_near, W4_far, inflow_eq]
  refine (aggregated_apply (R := 1600000) (C := 128) (by omega) scatter_S100000x128_S1600000x1_S1600000x128_1_0_0_1_wf
    gather_S100000x128_S1600000x1_S1600000x128_1_0_n_n_0_1_1128_wf bcast_S_S100000x128 bcast_S_S1600000
    bcast_S1600000_S1600000x1_0 bcast_S1600000x1_S1600000x128_0_1 (hidden (x0 m c) (x3 m c)) (nearWords (x1 m c))
    (farWords (x1 m c)) (W4 m ρ c (Proc.devRef .tc main_v28)) p k).trans ?_
  refine congrArg (z32 + ·) (Finset.sum_congr rfl fun e _ => ?_)
  rw [W4_norm]

theorem W5_hidden (c : Dev nD) : W5 (F := Ideal) m ρ c (Proc.devRef .tc main_v31) = hidden (x0 m c) (x3 m c) :=
  (fourth_keeps_v31 (W4 m ρ c)).trans (W4_hidden m ρ c)
theorem W5_column (c : Dev nD) (p : Fin 100000) : W5 (F := Ideal) m ρ c (Proc.devRef .tc main_v30) (ix2 p (0 : Fin 1))
    = selfWeight (dv m ρ c) p :=
  (congrFun (fourth_keeps_v30 (W4 m ρ c)) (ix2 p (0 : Fin 1))).trans (W4_column m ρ c p)
theorem W5_bias (c : Dev nD) (k : Fin 128) : W5 (F := Ideal) m ρ c (Proc.devRef .tc main_v45) (ix2 (0 : Fin 1) k)
    = x4 m c (ix1 k) :=
  (fourth_bias (W4 m ρ c) k).trans (congrFun (W4_arg4 m ρ c) (ix1 k))
theorem W5_near (c : Dev nD) : W5 (F := Ideal) m ρ c (Proc.devRef .tc main_v1) = nearWords (x1 m c) :=
  (fourth_keeps_v1 (W4 m ρ c)).trans (W4_near m ρ c)
theorem W5_far (c : Dev nD) : W5 (F := Ideal) m ρ c (Proc.devRef .tc main_v3) = farWords (x1 m c) :=
  (fourth_keeps_v3 (W4 m ρ c)).trans (W4_far m ρ c)
theorem W5_norm (c : Dev nD) (e : Fin 1600000) : W5 (F := Ideal) m ρ c (Proc.devRef .tc main_v28) (ix1 e)
    = edgeNorm (dv m ρ c) (nearWords (x1 m c)) (farWords (x1 m c)) (x2 m c) e :=
  (congrFun (fourth_keeps_v28 (W4 m ρ c)) (ix1 e)).trans (W4_norm m ρ c e)
theorem W5_arg5 (c : Dev nD) : W5 (F := Ideal) m ρ c (Proc.devRef .tc main_arg5) = x5 m c :=
  (fourth_keeps_arg5 (W4 m ρ c)).trans (W4_arg5 m ρ c)
theorem W5_arg6 (c : Dev nD) : W5 (F := Ideal) m ρ c (Proc.devRef .tc main_arg6) = x6 m c :=
  (fourth_keeps_arg6 (W4 m ρ c)).trans (W4_arg6 m ρ c)

/-! ## At region 1's exit: the first layer -/

theorem affineRelu_entry (agg h : S100000x128.Idx → EReal) (col : S100000x1.Idx → EReal) (bias : S1x128.Idx → EReal)
    (p : Fin 100000) (k : Fin 128) :
    AffineRegion1.affineRelu agg h col bias (ix2 p k)
      = max ((agg (ix2 p k) + col (ix2 p (0 : Fin 1)) * h (ix2 p k)) + bias (ix2 (0 : Fin 1) k)) (Ideal.ofBits .f32 0x00000000#32) := rfl

theorem layer1_entry (dv : Nodes) (s d : EdgeWords) (w : EdgeVals) (a0 : S100000x512.Idx → EReal)
    (a3 : S512x128.Idx → EReal) (a4 : S128.Idx → EReal) (p : Fin 100000) (k : Fin 128) :
    layer1 dv s d w a0 a3 a4 (ix2 p k) = max (conv dv s d w (hidden a0 a3) (fun k => a4 (ix1 k)) p k) z32 := rfl

theorem conv_eq {C : Nat} (dv : Nodes) (s d : EdgeWords) (w : EdgeVals) (h : Table C) (b : Fin C → EReal)
    (p : Fin 100000) (k : Fin C) :
    conv dv s d w h b p k = ((z32 + inflow dv s d w h p k) + (dv (ix1 p) * dv (ix1 p)) * h (ix2 p k)) + b k := rfl

/-- The first layer's output, as region 2 finds it. -/
theorem first_half_layer (c : Dev nD) : W6 (F := Ideal) m ρ c (Proc.devRef .tc main_v46)
    = layer1 (dv m ρ c) (nearWords (x1 m c)) (farWords (x1 m c)) (x2 m c) (x0 m c) (x3 m c) (x4 m c) := by
  refine (W6_arr m ρ c 4).trans ((AffineRegion1.region1_array (V5 m ρ) c).trans ?_)
  funext i
  obtain ⟨p, k, rfl⟩ : ∃ (p : Fin 100000) (k : Fin 128), i = ix2 p k := ⟨i 0, i 1, eq_ix2 i⟩
  refine (affineRelu_entry _ _ _ _ p k).trans ?_
  rw [layer1_entry, conv_eq]
  refine congrArg₂ max (congrArg₂ (· + ·) (congrArg₂ (· + ·) ?_ (congrArg₂ (· * ·) ?_ ?_)) ?_) rfl
  · exact W5_inflow m ρ c p k
  · exact W5_column m ρ c p
  · exact congrFun (W5_hidden m ρ c) (ix2 p k)
  · exact W5_bias m ρ c k

theorem first_half_near (c : Dev nD) : W6 (F := Ideal) m ρ c (Proc.devRef .tc main_v1) = nearWords (x1 m c) :=
  (W6_of_ne m ρ c main_v1 (by decide)).trans (W5_near m ρ c)
theorem first_half_far (c : Dev nD) : W6 (F := Ideal) m ρ c (Proc.devRef .tc main_v3) = farWords (x1 m c) :=
  (W6_of_ne m ρ c main_v3 (by decide)).trans (W5_far m ρ c)
theorem first_half_norm (c : Dev nD) (e : Fin 1600000) : W6 (F := Ideal) m ρ c (Proc.devRef .tc main_v28) (ix1 e)
    = edgeNorm (dv m ρ c) (nearWords (x1 m c)) (farWords (x1 m c)) (x2 m c) e :=
  (congrFun (W6_of_ne m ρ c main_v28 (by decide)) (ix1 e)).trans (W5_norm m ρ c e)
theorem first_half_column (c : Dev nD) (p : Fin 100000) : W6 (F := Ideal) m ρ c (Proc.devRef .tc main_v30) (ix2 p (0 : Fin 1))
    = dv m ρ c (ix1 p) * dv m ρ c (ix1 p) :=
  (congrFun ((W6_arr m ρ c 2).trans (((dat1 (V5 m ρ) c).arrAt_in 2 rfl _).trans (A_eq1 (V5 m ρ) c 2))) (ix2 p (0 : Fin 1))).trans
    (W5_column m ρ c p)
theorem first_half_arg5 (c : Dev nD) : W6 (F := Ideal) m ρ c (Proc.devRef .tc main_arg5) = x5 m c :=
  (W6_of_ne m ρ c main_arg5 (by decide)).trans (W5_arg5 m ρ c)
theorem first_half_arg6 (c : Dev nD) : W6 (F := Ideal) m ρ c (Proc.devRef .tc main_arg6) = x6 m c :=
  (W6_of_ne m ρ c main_arg6 (by decide)).trans (W5_arg6 m ρ c)

end Cert.KernelIdeal.Stages

end
-- ==== Proof.AffineRegion3.lean ====
/-
  The second affine region of the kernel, read as one array.

  The region visits fifty blocks of two thousand rows of sixteen entries. On each block it forms the affine block — the
  aggregate block plus the feature block scaled row by row by a column of coefficients, plus a bias row — and replaces
  every row by its log-softmax: the row's maximum is subtracted, then the logarithm of the sum of the exponentials.
  Below, the two reductions over a row are read as a fold of `max` and a sum over the row's sixteen entries; the block
  written at a point is read entry by entry; each input block is located inside its array; and the fifty written
  blocks are put together: the output array is `affineLogSoftmax` of the four arrays the region finds.
-/
import proofs.«177980_j66692252172820_2_alg».proof.Proof.Gen.KernelIdeal.Frame
import proofs.«177980_j66692252172820_2_alg».proof.Proof.RowLogSoftmax
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AffineRegion3

open Cert.KernelIdeal Cert.KernelIdeal.Gen Idealize.ShloMosaic Idealize.ShloMosaic.TcCoe Idealize.SL.Sem
open Idealize.ShloMosaic.ValueIdx
open Idealize.ShloMosaic.Pipeline (Dat)

/-! ## Two layout facts -/

/-- The offset of every whole-buffer access of the body is zero on both axes. -/
theorem zero_offsets : (![0, 0] : Fin 2 → Nat) = fun _ => 0 := funext fun a => by fin_cases a <;> rfl

/-- A column `[a, 1]` broadcast to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The rows' log-softmax, read at an entry -/

/-- A vector `[a]` cast to the column `[a, 1]` reads, at `(p, 0)`, the vector's entry `p`. -/
theorem shapeCast_vector_column_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- The exponential of a vector, read at an index. -/
theorem exp_apply {s : Shape} (x : FVec Ideal s .f32) (i : s.Idx) : exp x i = Ideal.exp (x i) := rfl
/-- The logarithm of a vector, read at an index. -/
theorem log_apply {s : Shape} (x : FVec Ideal s .f32) (i : s.Idx) : log x i = Ideal.log (x i) := rfl

/-- Reducing a `[2000, 16]` block over its columns visits, at row `p`, the entries `(p, k)`. -/
theorem lift_row (h : S2000x16.Reduces [1] S2000) (p : Fin 2000) (k : Fin 16) : h.lift (ix1 p) k = ix2 p k :=
  funext fun a => by match a with | ⟨0, _⟩ => rfl | ⟨1, _⟩ => rfl

/-- The maximum over the columns, read at row `p`, is the row's maximum folded from the value of the minus-infinity
    pattern. -/
theorem rowMax_reduction_apply (x : FVec Ideal S2000x16 .f32) (h : S2000x16.Reduces [1] S2000) (hφ : FKind.Formats .f32)
    (hacc : (0xFF800000#32 : BitVec 32) = FKind.maximumf.neutral .f32 hφ) (p : Fin 2000) :
    multiReduction .maximumf [1] S2000 x 0xFF800000#32 h hφ hacc (ix1 p)
      = Cert.RowLogSoftmax.rowMax (fun k : Fin 16 => x (ix2 p k)) := by
  refine (Ideal.multiReduction_maximumf_single x 0xFF800000#32 h hφ hacc (ix1 p)).trans ?_
  have hl : (x ∘ h.lift (ix1 p)) = fun k : Fin 16 => x (ix2 p k) := funext fun k => congrArg x (lift_row h p k)
  rw [hl]
  rfl

/-- The sum over the columns, read at row `p`, is the sum of the row's sixteen entries. -/
theorem rowSum_reduction_apply (x : FVec Ideal S2000x16 .f32) (h : S2000x16.Reduces [1] S2000) (hφ : FKind.Formats .f32)
    (hacc : (0x00000000#32 : BitVec 32) = FKind.add.neutral .f32 hφ) (p : Fin 2000) :
    multiReduction .add [1] S2000 x 0x00000000#32 h hφ hacc (ix1 p) = ∑ k : Fin 16, x (ix2 p k) := by
  refine (Ideal.multiReduction_add_single x 0x00000000#32 h hφ hacc (ix1 p)).trans ?_
  exact Finset.sum_congr rfl fun k _ => congrArg x (lift_row h p k)

/-- The body's row-wise log-softmax of a block `x`: subtract the row maximum, then the logarithm of the row sum of the
    exponentials. At `(p, q)` it is the log-softmax of row `p` at `q`. -/
theorem logSoftmax_rows_apply (x : FVec Ideal S2000x16 .f32) (h : S2000x16.Reduces [1] S2000) (hφ : FKind.Formats .f32)
    (hm : (0xFF800000#32 : BitVec 32) = FKind.maximumf.neutral .f32 hφ)
    (ha : (0x00000000#32 : BitVec 32) = FKind.add.neutral .f32 hφ)
    (hc : S2000.ShapeCasts S2000x1) (hb : S2000x1.Broadcasts S2000x16) (p : Fin 2000) (q : Fin 16) :
    subf (subf x (broadcastTo S2000x16 (shapeCast S2000x1 (multiReduction .maximumf [1] S2000 x 0xFF800000#32 h hφ hm) hc) hb))
        (broadcastTo S2000x16 (log (shapeCast S2000x1 (multiReduction .add [1] S2000
          (exp (subf x (broadcastTo S2000x16 (shapeCast S2000x1 (multiReduction .maximumf [1] S2000 x 0xFF800000#32 h hφ hm) hc) hb)))
          0x00000000#32 h hφ ha) hc)) hb) (ix2 p q)
      = Cert.RowLogSoftmax.rowLogSoftmax (fun k : Fin 16 => x (ix2 p k)) q := by
  have hmax : ∀ k : Fin 16,
      broadcastTo S2000x16 (shapeCast S2000x1 (multiReduction .maximumf [1] S2000 x 0xFF800000#32 h hφ hm) hc) hb (ix2 p k)
        = Cert.RowLogSoftmax.rowMax (fun k : Fin 16 => x (ix2 p k)) := fun k =>
    (broadcastTo_column_apply _ hb p k).trans
      ((shapeCast_vector_column_apply _ hc p).trans (rowMax_reduction_apply x h hφ hm p))
  have hshift : ∀ k : Fin 16,
      subf x (broadcastTo S2000x16 (shapeCast S2000x1 (multiReduction .maximumf [1] S2000 x 0xFF800000#32 h hφ hm) hc) hb) (ix2 p k)
        = x (ix2 p k) - Cert.RowLogSoftmax.rowMax (fun k : Fin 16 => x (ix2 p k)) := fun k => by
    rw [subf_apply, hmax k]
  have hsum : multiReduction .add [1] S2000
        (exp (subf x (broadcastTo S2000x16 (shapeCast S2000x1 (multiReduction .maximumf [1] S2000 x 0xFF800000#32 h hφ hm) hc) hb)))
        0x00000000#32 h hφ ha (ix1 p)
      = ∑ k : Fin 16, Ideal.exp (x (ix2 p k) - Cert.RowLogSoftmax.rowMax (fun k : Fin 16 => x (ix2 p k))) :=
    (rowSum_reduction_apply _ h hφ ha p).trans
      (Finset.sum_congr rfl fun k _ => by rw [exp_apply, hshift k])
  rw [subf_apply, hshift q, broadcastTo_column_apply, log_apply, shapeCast_vector_column_apply, hsum]
  rfl

/-- The affine block at `(p, k)`: the aggregate entry plus the row's coefficient times the feature entry, plus the bias. -/
theorem affine_apply (v0 v4 : FVec Ideal S2000x16 .f32) (v2 : FVec Ideal S2000x1 .f32) (v9 : FVec Ideal S1x16 .f32)
    (p : Fin 2000) (k : Fin 16) :
    addf (addf v0 (mulf (broadcastTo S2000x16 v2 broadcasts_S2000x1_S2000x16) v4))
        (broadcastTo S2000x16 v9 broadcasts_S1x16_S2000x16) (ix2 p k)
      = (v0 (ix2 p k) + v2 (ix2 p (0 : Fin 1)) * v4 (ix2 p k)) + v9 (ix2 (0 : Fin 1) k) := by
  rw [addf_apply, addf_apply, mulf_apply, broadcastTo_column_apply, broadcastTo_1b_ab_apply]

/-- Entry `(p, q)` of the block the body stores, from the four blocks it loads: the log-softmax of row `p` of the
    affine block, at `q`. -/
theorem affineLogSoftmax_payload_apply (v0 : Vec Ideal S2000x16 .f32) (v2 : Vec Ideal S2000x1 .f32)
    (v4 : Vec Ideal S2000x16 .f32) (v9 : Vec Ideal S1x16 .f32) (p : Fin 2000) (q : Fin 16) :
    k3_pay1 (F := Ideal) v0 v2 v4 v9 (ix2 p q)
      = Cert.RowLogSoftmax.rowLogSoftmax
          (fun k : Fin 16 => (v0 (ix2 p k) + v2 (ix2 p (0 : Fin 1)) * v4 (ix2 p k)) + v9 (ix2 (0 : Fin 1) k)) q := by
  unfold k3_pay1
  simp only [shapeCast_self]
  refine (logSoftmax_rows_apply _ reduces_S2000x16_S2000 (.inl rfl) rfl rfl shapeCasts_S2000_S2000x1
    broadcasts_S2000x1_S2000x16 p q).trans ?_
  exact congrArg (fun v => Cert.RowLogSoftmax.rowLogSoftmax v q) (funext fun k => affine_apply v0 v4 v2 v9 p k)

/-! ## The affine map followed by the rows' log-softmax, block by block -/

/-- The array region 3 leaves: row `r` is the log-softmax of the row
    `k ↦ (agg(r,k) + col(r) · h(r,k)) + bias(k)`. -/
abbrev affineLogSoftmax (agg h : S100000x16.Idx → EReal) (col : S100000x1.Idx → EReal) (bias : S1x16.Idx → EReal) :
    S100000x16.Idx → EReal :=
  fun i => Cert.RowLogSoftmax.rowLogSoftmax
    (fun k : Fin 16 => (agg (ix2 (i 0) k) + col (ix2 (i 0) (0 : Fin 1)) * h (ix2 (i 0) k)) + bias (ix2 (0 : Fin 1) k)) (i 1)

/-- Equal rows have equal log-softmax at equal places. -/
theorem rowLogSoftmax_congr (f g : Fin 16 → EReal) (a b : Fin 16) (hfg : ∀ k, f k = g k) (hab : a = b) :
    Cert.RowLogSoftmax.rowLogSoftmax f a = Cert.RowLogSoftmax.rowLogSoftmax g b := by
  rw [funext hfg, hab]

/-- The printed index maps of region 3 over its fifty points: the two matrices, the column and the output move down
    one row block per point and stay in column block zero; the bias row stays where it is. -/
theorem affineLogSoftmax_index_agg : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem affineLogSoftmax_index_h : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)
theorem affineLogSoftmax_index_col : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)
theorem affineLogSoftmax_index_bias : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem affineLogSoftmax_index_out : ∀ t : Fin cfg3.N, win3_4.index t (0 : Fin 2) = t.val ∧ win3_4.index t (1 : Fin 2) = 0 :=
  (by decide +kernel : ∀ t : Fin grid3.N, win3_4.index t (0 : Fin 2) = t.val ∧ win3_4.index t (1 : Fin 2) = 0)

section
variable (V : (c : Dev nD) → (b : Ref sig .tc) → Buf (Elt Ideal) ((c : Thread nD τ).loc b))

set_option maxHeartbeats 1000000 in
/-- Entry `j` of what the body leaves at point `t` is `affineLogSoftmax` of the arrays at the entry's place in the
    output array: the whole row of each matrix block, the row's coefficient and the bias row are read where the output's
    rectangle says. -/
theorem affineLogSoftmax_block_entry (c : Dev nD) (t : Fin cfg3.N) (j : S2000x16.Idx) :
    k3_pay1 (F := Ideal) (iblk3 V c 0 t) (iblk3 V c 2 t) (iblk3 V c 1 t) (iblk3 V c 3 t) j
      = affineLogSoftmax (V c (Pipeline.arrRef spec3 0)) (V c (Pipeline.arrRef spec3 1))
          (V c (Pipeline.arrRef spec3 2)) (V c (Pipeline.arrRef spec3 3)) (((cfg3.win 4).blk t).view.emb j) := by
  obtain ⟨p, q, rfl⟩ : ∃ (p : Fin 2000) (q : Fin 16), j = ix2 p q := ⟨j 0, j 1, eq_ix2 j⟩
  have a00 := (affineLogSoftmax_index_agg t).1
  have a01 := (affineLogSoftmax_index_agg t).2
  have a10 := (affineLogSoftmax_index_h t).1
  have a11 := (affineLogSoftmax_index_h t).2
  have a20 := (affineLogSoftmax_index_col t).1
  have a21 := (affineLogSoftmax_index_col t).2
  have a30 := (affineLogSoftmax_index_bias t).1
  have a31 := (affineLogSoftmax_index_bias t).2
  have a40 := (affineLogSoftmax_index_out t).1
  have a41 := (affineLogSoftmax_index_out t).2
  refine (affineLogSoftmax_payload_apply (iblk3 V c 0 t) (iblk3 V c 2 t) (iblk3 V c 1 t) (iblk3 V c 3 t) p q).trans ?_
  have hp : p.val < 2000 := p.isLt
  have hq : q.val < 16 := q.isLt
  have h0 : ∀ k : Fin 16, ((cfg3.win 0).blk t).view.emb (ix2 p k : S2000x16.Idx)
      = (ix2 ((((cfg3.win 4).blk t).view.emb (ix2 p q : S2000x16.Idx)) 0) k : S100000x16.Idx) := fun k => by
    have hk : k.val < 16 := k.isLt
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 16 + 1 * k.val = k.val; omega
  have h1 : ∀ k : Fin 16, ((cfg3.win 1).blk t).view.emb (ix2 p k : S2000x16.Idx)
      = (ix2 ((((cfg3.win 4).blk t).view.emb (ix2 p q : S2000x16.Idx)) 0) k : S100000x16.Idx) := fun k => by
    have hk : k.val < 16 := k.isLt
    funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 16 + 1 * k.val = k.val; omega
  have h2 : ((cfg3.win 2).blk t).view.emb (ix2 p (0 : Fin 1) : S2000x1.Idx)
      = (ix2 ((((cfg3.win 4).blk t).view.emb (ix2 p q : S2000x16.Idx)) 0) (0 : Fin 1) : S100000x1.Idx) := by
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  have h3 : ∀ k : Fin 16, ((cfg3.win 3).blk t).view.emb (ix2 (0 : Fin 1) k : S1x16.Idx)
      = (ix2 (0 : Fin 1) k : S1x16.Idx) := fun k => by
    have hk : k.val < 16 := k.isLt
    funext a; apply Fin.ext
    match a with
    | ⟨0, _⟩ => show win3_3.index t (0 : Fin 2) * 1 + 1 * 0 = 0; omega
    | ⟨1, _⟩ => show win3_3.index t (1 : Fin 2) * 16 + 1 * k.val = k.val; omega
  have hcol : (((cfg3.win 4).blk t).view.emb (ix2 p q : S2000x16.Idx)) 1 = q :=
    Fin.ext (show win3_4.index t (1 : Fin 2) * 16 + 1 * q.val = q.val by omega)
  have e0 : ∀ k : Fin 16, iblk3 V c 0 t (ix2 p k : S2000x16.Idx)
      = V c (Pipeline.arrRef spec3 0)
          (ix2 ((((cfg3.win 4).blk t).view.emb (ix2 p q : S2000x16.Idx)) 0) k : S100000x16.Idx) := fun k =>
    congrArg (V c (Pipeline.arrRef spec3 0)) (h0 k)
  have e1 : ∀ k : Fin 16, iblk3 V c 1 t (ix2 p k : S2000x16.Idx)
      = V c (Pipeline.arrRef spec3 1)
          (ix2 ((((cfg3.win 4).blk t).view.emb (ix2 p q : S2000x16.Idx)) 0) k : S100000x16.Idx) := fun k =>
    congrArg (V c (Pipeline.arrRef spec3 1)) (h1 k)
  have e2 : iblk3 V c 2 t (ix2 p (0 : Fin 1) : S2000x1.Idx)
      = V c (Pipeline.arrRef spec3 2)
          (ix2 ((((cfg3.win 4).blk t).view.emb (ix2 p q : S2000x16.Idx)) 0) (0 : Fin 1) : S100000x1.Idx) :=
    congrArg (V c (Pipeline.arrRef spec3 2)) h2
  have e3 : ∀ k : Fin 16, iblk3 V c 3 t (ix2 (0 : Fin 1) k : S1x16.Idx)
      = V c (Pipeline.arrRef spec3 3) (ix2 (0 : Fin 1) k : S1x16.Idx) := fun k =>
    congrArg (V c (Pipeline.arrRef spec3 3)) (h3 k)
  refine rowLogSoftmax_congr _ _ _ _ (fun k => ?_) hcol.symm
  beta_reduce
  rw [e0 k, e1 k, e2, e3 k]

/-- What point `t` writes back is block `t` of `affineLogSoftmax` of the four arrays as the region finds them. -/
theorem affineLogSoftmax_flushed (c : Dev nD) (t : Fin cfg3.N) :
    (dat3 (F := Ideal) V c).flushed 4 t
      = ((cfg3.win 4).blk t).view.read (Elt Ideal)
          (affineLogSoftmax (V c (Pipeline.arrRef spec3 0)) (V c (Pipeline.arrRef spec3 1))
            (V c (Pipeline.arrRef spec3 2)) (V c (Pipeline.arrRef spec3 3))) := by
  show (cfg3.win 4).cut (grid3.coords t) ((dat3 V c).after 4 t) = _
  rw [after3_4]
  unfold out3_4
  rw [View.canon_unit_zero zero_offsets]
  simp only [View.ld_unit_zero (S := S2000x16) zero_offsets, View.ld_unit_zero (S := S2000x1) zero_offsets,
    View.ld_unit_zero (S := S1x16) zero_offsets]
  funext j
  exact affineLogSoftmax_block_entry V c t j

/-- An index of the output array is in point `t`'s block iff each coordinate is in the block's range on its axis. -/
theorem affineLogSoftmax_mem_block (t : Fin cfg3.N) (i : S100000x16.Idx) :
    i ∈ ((cfg3.win 4).blk t).view.set ↔ ∀ a : Fin 2, win3_4.index t a * S2000x16.size a ≤ (i a).val ∧ (i a).val < win3_4.index t a * S2000x16.size a + S2000x16.size a := by
  show i ∈ ((View.whole main_v62).slice (win3_4.rect t)).set ↔ _
  rw [View.set_slice_whole, Rect.mem_set_unit]
  exact Iff.rfl

/-- Row `r` of the output lies in the block of point `r / 2000`. -/
theorem affineLogSoftmax_cover (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  have hN : grid3.N = 50 := N_3
  let t : Fin cfg3.N := ⟨(i 0).val / 2000, by show (i 0).val / 2000 < grid3.N; omega⟩
  have a40 := (affineLogSoftmax_index_out t).1
  have a41 := (affineLogSoftmax_index_out t).2
  have ht : t.val = (i 0).val / 2000 := rfl
  refine ⟨t, flush3_4 t, ?_⟩
  rw [affineLogSoftmax_mem_block]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 16 ≤ (i 1).val ∧ (i 1).val < win3_4.index t (1 : Fin 2) * 16 + 16; omega

/-- After the fifty write-backs every row of the output array is the log-softmax of the affine combination of the
    arrays the region finds. -/
theorem region3_array (c : Dev nD) :
    (dat3 (F := Ideal) V c).arrAt 4 cfg3.N
      = affineLogSoftmax (V c (Pipeline.arrRef spec3 0)) (V c (Pipeline.arrRef spec3 1))
          (V c (Pipeline.arrRef spec3 2)) (V c (Pipeline.arrRef spec3 3)) :=
  (dat3 (F := Ideal) V c).arrAt_eq_of_cover 4
    (affineLogSoftmax (V c (Pipeline.arrRef spec3 0)) (V c (Pipeline.arrRef spec3 1))
      (V c (Pipeline.arrRef spec3 2)) (V c (Pipeline.arrRef spec3 3)))
    (fun t _ => affineLogSoftmax_flushed V c t) affineLogSoftmax_cover

end

end Cert.KernelIdeal.AffineRegion3

end
-- ==== Proof.KernelSecondHalf.lean ====
/-
  The second half of the idealized kernel's run: from what region 1 leaves to the result.

  Region 2 multiplies the first layer's output by the second weight matrix.  The host operations before region 3 gather
  the product's rows along the edges, scale them by the edges' norms and add them onto the rows the far ends name,
  starting from zero, and re-lay the bias vector as one row.  Region 3 adds to the aggregated table the product scaled
  row by row by the squared inverse root degrees, adds the bias, and replaces every row by its log-softmax.  With the
  norms the symmetric ones this is the second convolution of the network followed by the row-wise log-softmax.
-/
import proofs.«177980_j66692252172820_2_alg».proof.Proof.Gen.KernelIdeal.Frame
import proofs.«177980_j66692252172820_2_alg».proof.Proof.HostStages
import proofs.«177980_j66692252172820_2_alg».proof.Proof.LibHostRows
import proofs.«177980_j66692252172820_2_alg».proof.Proof.MatmulRegions
import proofs.«177980_j66692252172820_2_alg».proof.Proof.AffineRegion3
import Idealize.ShloMosaic.Lib.StableHlo.Run

set_option maxRecDepth 16384

noncomputable section

namespace Cert.KernelIdeal.SecondHalf

open Cert.KernelIdeal Cert.KernelIdeal.Gen
open Idealize.ShloMosaic Idealize.ShloMosaic.TcCoe Idealize.SL.Sem Idealize.ShloMosaic.StableHlo Idealize.ShloMosaic.ValueIdx
open Cert.IndexOps Cert.HostPatterns Cert.GraphConv Cert.HostStages
open Cert.KernelIdeal.AffineRegion3 (affineLogSoftmax rowLogSoftmax_congr)

/-! ## The host operations before region 3, from any incoming contents -/

section
variable (Wp : Valuation τ sig (Elt Ideal))

/-- The second aggregation: the rows of `main_v47` gathered along the edges, scaled by the norms in `main_v28` and
    scattered onto the far ends, from zero. -/
theorem aggregation : after hostOps3 Wp (Proc.devRef .tc main_v60)
    = aggregated (R := 1600000) (C := 16) scatter_S100000x16_S1600000x1_S1600000x16_1_0_0_1_wf
        gather_S100000x16_S1600000x1_S1600000x16_1_0_n_n_0_1_116_wf bcast_S_S100000x16 bcast_S_S1600000
        bcast_S1600000_S1600000x1_0 bcast_S1600000x1_S1600000x16_0_1
        (Wp (Proc.devRef .tc main_v47)) (Wp (Proc.devRef .tc main_v1)) (Wp (Proc.devRef .tc main_v3))
        (Wp (Proc.devRef .tc main_v28)) := by
  after_results_simp; rfl

/-- The bias vector re-laid as one row. -/
theorem bias_row : after hostOps3 Wp (Proc.devRef .tc main_v61)
    = shapeCast S1x16 (Wp (Proc.devRef .tc main_arg6)) shapeCasts_S16_S1x16 := by
  after_results_simp; rfl

/-- The product passes through. -/
theorem keeps_v47 : after hostOps3 Wp (Proc.devRef .tc main_v47) = Wp (Proc.devRef .tc main_v47) := by
  after_results_simp

/-- So does the column of squared inverse root degrees. -/
theorem keeps_v30 : after hostOps3 Wp (Proc.devRef .tc main_v30) = Wp (Proc.devRef .tc main_v30) := by
  after_results_simp

end

/-! ## The second layer, away from the run -/

/-- With the edges' symmetric norms, the aggregated table's entry is the zero start value plus the inflow. -/
theorem aggregated_inflow {C : Nat}
    (wfs : ScatterDims.WF ⟨2, ![100000, C]⟩ ⟨2, ![1600000, 1]⟩ ⟨2, ![1600000, C]⟩ [1] [0] [0] 1)
    (wfg : GatherDims.WF ⟨2, ![100000, C]⟩ ⟨2, ![1600000, 1]⟩ ⟨2, ![1600000, C]⟩ [1] [0] [] [0] [] 1 ![1, C])
    (hz : (⟨0, ![]⟩ : Shape).BroadcastsInDim ⟨2, ![100000, C]⟩ ![])
    (h0 : (⟨0, ![]⟩ : Shape).BroadcastsInDim ⟨1, ![1600000]⟩ ![])
    (hc : (⟨1, ![1600000]⟩ : Shape).BroadcastsInDim ⟨2, ![1600000, 1]⟩ ![0])
    (hs : (⟨2, ![1600000, 1]⟩ : Shape).BroadcastsInDim ⟨2, ![1600000, C]⟩ ![0, 1])
    (h : Table C) (dv : Nodes) (s d : EdgeWords) (w nrm : EdgeVals)
    (hn : ∀ e : Fin 1600000, nrm (ix1 e) = edgeNorm dv s d w e) (p : Fin 100000) (k : Fin C) :
    aggregated (R := 1600000) wfs wfg hz h0 hc hs h s d nrm (ix2 p k) = z32 + inflow dv s d w h p k := by
  rw [aggregated_apply (by decide)]
  unfold inflow
  exact congrArg (z32 + ·) (Finset.sum_congr rfl fun e _ =>
    if_congr Iff.rfl (congrArg (h (ix2 (rowOf (s (ix1 e))) k) * ·) (hn e)) rfl)

/-- The affine map of region 3 over an aggregated table, the table it was aggregated from, the squared inverse root
    degrees as a column and the bias as a row is the convolution; so its rows' log-softmax is the convolution's. -/
theorem affineLogSoftmax_conv (dv : Nodes) (s d : EdgeWords) (w : EdgeVals) (H : Table 16)
    (b : (⟨1, ![16]⟩ : Shape).Idx → EReal) (A0 : Table 16) (col : S100000x1.Idx → EReal) (row : S1x16.Idx → EReal)
    (hA : ∀ (p : Fin 100000) (k : Fin 16), A0 (ix2 p k) = z32 + inflow dv s d w H p k)
    (hcol : ∀ p : Fin 100000, col (ix2 p (0 : Fin 1)) = dv (ix1 p) * dv (ix1 p))
    (hrow : ∀ k : Fin 16, row (ix2 (0 : Fin 1) k) = b (ix1 k)) :
    affineLogSoftmax A0 H col row
      = fun i => Cert.RowLogSoftmax.rowLogSoftmax (fun k => conv dv s d w H (fun k => b (ix1 k)) (i 0) k) (i 1) := by
  funext i
  obtain ⟨p, q, rfl⟩ : ∃ (p : Fin 100000) (q : Fin 16), i = ix2 p q := ⟨i 0, i 1, eq_ix2 i⟩
  show Cert.RowLogSoftmax.rowLogSoftmax
      (fun k : Fin 16 => (A0 (ix2 p k) + col (ix2 p (0 : Fin 1)) * H (ix2 p k)) + row (ix2 (0 : Fin 1) k)) q
    = Cert.RowLogSoftmax.rowLogSoftmax (fun k : Fin 16 => conv dv s d w H (fun k => b (ix1 k)) p k) q
  refine rowLogSoftmax_congr _ _ q q (fun k => ?_) rfl
  show (A0 (ix2 p k) + col (ix2 p (0 : Fin 1)) * H (ix2 p k)) + row (ix2 (0 : Fin 1) k)
    = conv dv s d w H (fun k => b (ix1 k)) p k
  unfold conv
  rw [hA p k, hcol p, hrow k]

/-! ## The run's second half -/

section
variable (m : (ℓ : Loc nD τ sig) → Buf (Elt Ideal) ℓ) (ρ : Dev nD → PrngReg) (c : Dev nD)

/-- From the first layer's output, the index words, the edges' norms, the squared inverse root degrees and the second
    layer's weights and bias as region 1 leaves them, the kernel's result is the network's output. -/
theorem kernel_second_half (dv : Nodes) (s d : EdgeWords) (x2 : EdgeVals)
    (x0 : (⟨2, ![100000, 512]⟩ : Shape).Idx → EReal) (x3 : (⟨2, ![512, 128]⟩ : Shape).Idx → EReal)
    (x4 : (⟨1, ![128]⟩ : Shape).Idx → EReal) (x5 : (⟨2, ![128, 16]⟩ : Shape).Idx → EReal)
    (x6 : (⟨1, ![16]⟩ : Shape).Idx → EReal)
    (h46 : W6 (F := Ideal) m ρ c (Proc.devRef .tc main_v46) = layer1 dv s d x2 x0 x3 x4)
    (h1 : W6 (F := Ideal) m ρ c (Proc.devRef .tc main_v1) = s)
    (h3 : W6 (F := Ideal) m ρ c (Proc.devRef .tc main_v3) = d)
    (h28 : ∀ e : Fin 1600000, W6 (F := Ideal) m ρ c (Proc.devRef .tc main_v28) (ix1 e) = edgeNorm dv s d x2 e)
    (h30 : ∀ p : Fin 100000, W6 (F := Ideal) m ρ c (Proc.devRef .tc main_v30) (ix2 p (0 : Fin 1)) = dv (ix1 p) * dv (ix1 p))
    (h5 : W6 (F := Ideal) m ρ c (Proc.devRef .tc main_arg5) = x5)
    (h6 : W6 (F := Ideal) m ρ c (Proc.devRef .tc main_arg6) = x6) :
    W9 (F := Ideal) m ρ c (Proc.devRef .tc main_v62) = output dv s d x2 x0 x3 x4 x5 x6 := by
  -- region 2: the product of the first layer's output with the second weights
  have e47 : W7 (F := Ideal) m ρ c (Proc.devRef .tc main_v47) = projected (layer1 dv s d x2 x0 x3 x4) x5 := by
    refine ((W7_arr m ρ c 2).trans (MatmulRegions.region2_array (V6 m ρ) c)).trans ?_
    show MatmulRegions.product2 (W6 m ρ c (Proc.devRef .tc main_v46)) (W6 m ρ c (Proc.devRef .tc main_arg5)) = _
    rw [h46, h5]
    rfl
  -- what region 2 does not write passes through it
  have p1 : W7 (F := Ideal) m ρ c (Proc.devRef .tc main_v1) = s := (W7_of_ne m ρ c main_v1 (by decide)).trans h1
  have p3 : W7 (F := Ideal) m ρ c (Proc.devRef .tc main_v3) = d := (W7_of_ne m ρ c main_v3 (by decide)).trans h3
  have p28 : W7 (F := Ideal) m ρ c (Proc.devRef .tc main_v28) = W6 m ρ c (Proc.devRef .tc main_v28) :=
    W7_of_ne m ρ c main_v28 (by decide)
  have p30 : W7 (F := Ideal) m ρ c (Proc.devRef .tc main_v30) = W6 m ρ c (Proc.devRef .tc main_v30) :=
    W7_of_ne m ρ c main_v30 (by decide)
  have p6 : W7 (F := Ideal) m ρ c (Proc.devRef .tc main_arg6) = x6 := (W7_of_ne m ρ c main_arg6 (by decide)).trans h6
  -- the host stretch before region 3
  have E60 : W8 (F := Ideal) m ρ c (Proc.devRef .tc main_v60)
      = aggregated (R := 1600000) (C := 16) scatter_S100000x16_S1600000x1_S1600000x16_1_0_0_1_wf
          gather_S100000x16_S1600000x1_S1600000x16_1_0_n_n_0_1_116_wf bcast_S_S100000x16 bcast_S_S1600000
          bcast_S1600000_S1600000x1_0 bcast_S1600000x1_S1600000x16_0_1
          (projected (layer1 dv s d x2 x0 x3 x4) x5) s d (W6 m ρ c (Proc.devRef .tc main_v28)) := by
    refine (aggregation (W7 m ρ c)).trans ?_
    rw [e47, p1, p3, p28]
  have E47 : W8 (F := Ideal) m ρ c (Proc.devRef .tc main_v47) = projected (layer1 dv s d x2 x0 x3 x4) x5 :=
    (keeps_v47 (W7 m ρ c)).trans e47
  have E30 : W8 (F := Ideal) m ρ c (Proc.devRef .tc main_v30) = W6 m ρ c (Proc.devRef .tc main_v30) :=
    (keeps_v30 (W7 m ρ c)).trans p30
  have E61 : W8 (F := Ideal) m ρ c (Proc.devRef .tc main_v61) = shapeCast S1x16 x6 shapeCasts_S16_S1x16 := by
    refine (bias_row (W7 m ρ c)).trans ?_
    rw [p6]
  -- region 3
  refine ((W9_arr m ρ c 4).trans (Cert.KernelIdeal.AffineRegion3.region3_array (V8 m ρ) c)).trans ?_
  show affineLogSoftmax (W8 m ρ c (Proc.devRef .tc main_v60)) (W8 m ρ c (Proc.devRef .tc main_v47))
      (W8 m ρ c (Proc.devRef .tc main_v30)) (W8 m ρ c (Proc.devRef .tc main_v61)) = _
  rw [E60, E47, E30, E61]
  exact affineLogSoftmax_conv dv s d x2 (projected (layer1 dv s d x2 x0 x3 x4) x5) x6 _ _ _
    (fun p k => aggregated_inflow _ _ _ _ _ _ _ dv s d x2 _ h28 p k) h30
    (fun k => Cert.LibHostRows.rowOfVec_cast_apply x6 shapeCasts_S16_S1x16 k)

end

end Cert.KernelIdeal.SecondHalf

end
-- ==== Proof.KernelResult.lean ====
/-
  The idealized kernel's result is the specification's output.

  The contents of the buffers at the boundaries of the kernel's nine segments are followed in two halves: up to the
  first layer's output, and from there to the result.  Put together, the result buffer ends holding the
  specification's output of the arguments, with the inverse root of the degrees computed from the index array and
  the weights.
-/
import proofs.«177980_j66692252172820_2_alg».proof.Proof.KernelFirstHalf
import proofs.«177980_j66692252172820_2_alg».proof.Proof.KernelSecondHalf

set_option maxRecDepth 16384

noncomputable section

namespace Cert.KernelIdeal.Result

open Cert.KernelIdeal Cert.KernelIdeal.Gen Cert.KernelIdeal.Stages Cert.GraphConv
open Idealize.ShloMosaic Idealize.ShloMosaic.TcCoe Idealize.SL.Sem

/-- The result buffer's final contents, as the specification's function of the launch contents of the arguments. -/
theorem kernel_result (m : (ℓ : Loc nD τ sig) → Buf (Elt Ideal) ℓ) (ρ : Dev nD → PrngReg) (c : Dev nD) :
    W9 (F := Ideal) m ρ c (Proc.devRef .tc main_v62)
      = output (invRootPos (degree (farWords (x1 m c)) (x2 m c))) (nearWords (x1 m c)) (farWords (x1 m c)) (x2 m c)
          (x0 m c) (x3 m c) (x4 m c) (x5 m c) (x6 m c) :=
  (Cert.KernelIdeal.SecondHalf.kernel_second_half m ρ c (dv m ρ c) (nearWords (x1 m c)) (farWords (x1 m c)) (x2 m c)
      (x0 m c) (x3 m c) (x4 m c) (x5 m c) (x6 m c)
      (first_half_layer m ρ c) (first_half_near m ρ c) (first_half_far m ρ c) (first_half_norm m ρ c)
      (first_half_column m ρ c) (first_half_arg5 m ρ c) (first_half_arg6 m ρ c)).trans
    (congrArg (fun v : Nodes => output v (nearWords (x1 m c)) (farWords (x1 m c)) (x2 m c)
        (x0 m c) (x3 m c) (x4 m c) (x5 m c) (x6 m c)) (kernel_dinv m ρ c))

end Cert.KernelIdeal.Result

end
-- ==== Proof.RefRun.lean ====
/-
  The reference program as a list of host operations, and its run.

  The reference's @main is 138 host operations in a row (the outlined `where`, `relu` and `log_softmax` stand inline at
  their calls).  Every weakly fair execution terminates, and every buffer then holds the fold of the operations'
  results over the launch contents.  The list is also given as twelve consecutive stretches, and running the whole list
  is running the stretches one after the other, so that each stretch can be read on its own from the contents the
  previous one leaves.
-/
import proofs.«177980_j66692252172820_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 138 operations, in order. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v8 main_v23 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg3 main_v32 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v5 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v5 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v5 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf,
    nullary main_v50 (iotaInDim S100000 32 0),
    binary main_v1 main_v50 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v50 main_v52 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v53 (broadcastInDim S100000 ![] bcast_S_S100000 : (⟨S_, .f32⟩ : BufTy).Contents (Elt F) → (⟨S100000, .f32⟩ : BufTy).Contents (Elt F)),
    binary main_arg2 main_v53 main_v54 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_10 (constant S_ .f32 0x00000000#32),
    unary main_cst_10 main_v55 (broadcastInDim S100000 ![] bcast_S_S100000 : (⟨S_, .f32⟩ : BufTy).Contents (Elt F) → (⟨S100000, .f32⟩ : BufTy).Contents (Elt F)),
    unary main_v52 main_v56 (broadcastInDim S1700000x1 ![0] bcast_S1700000_S1700000x1_0 : (⟨S1700000, .i32⟩ : BufTy).Contents (Elt F) → (⟨S1700000x1, .i32⟩ : BufTy).Contents (Elt F)),
    ternary main_v55 main_v56 main_v54 main_v57 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v58 (broadcastInDim S100000 ![] bcast_S_S100000 : (⟨S_, .f32⟩ : BufTy).Contents (Elt F) → (⟨S100000, .f32⟩ : BufTy).Contents (Elt F)),
    binary main_v57 main_v58 main_v59 (cmpf .ogt : (⟨S100000, .f32⟩ : BufTy).Contents (Elt F) → (⟨S100000, .f32⟩ : BufTy).Contents (Elt F) → (⟨S100000, .i1⟩ : BufTy).Contents (Elt F)),
    unary main_v57 main_v60 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v59) (TRef.of (T := ⟨S100000, .f32⟩) main_v60) (TRef.of (T := ⟨S100000, .f32⟩) main_call2_v1) (TRef.of (T := ⟨S100000, .f32⟩) main_v61) select,
    nullary main_c_13 (constantI S_ 32 0#32),
    unary main_c_13 main_v62 (broadcastInDim S1700000 ![] bcast_S_S1700000 : (⟨S_, .i32⟩ : BufTy).Contents (Elt F) → (⟨S1700000, .i32⟩ : BufTy).Contents (Elt F)),
    binary main_v51 main_v62 main_v63 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v64 (broadcastInDim S1700000 ![] bcast_S_S1700000 : (⟨S_, .i32⟩ : BufTy).Contents (Elt F) → (⟨S1700000, .i32⟩ : BufTy).Contents (Elt F)),
    binary main_v51 main_v64 main_v65 (addi : (⟨S1700000, .i32⟩ : BufTy).Contents (Elt F) → (⟨S1700000, .i32⟩ : BufTy).Contents (Elt F) → (⟨S1700000, .i32⟩ : BufTy).Contents (Elt F)),
    ternary main_v63 main_v65 main_v51 main_v66 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v66 main_v67 (broadcastInDim S1700000x1 ![0] bcast_S1700000_S1700000x1_0 : (⟨S1700000, .i32⟩ : BufTy).Contents (Elt F) → (⟨S1700000x1, .i32⟩ : BufTy).Contents (Elt F)),
    binary main_v61 main_v67 main_v68 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v68 main_v54 main_v69 (mulf : (⟨S1700000, .f32⟩ : BufTy).Contents (Elt F) → (⟨S1700000, .f32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v52 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v52 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v52 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v61 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)),
    binary main_v49 main_arg5 main_v78 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v51 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v51 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v51 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x16 ![0, 1] bcast_S1700000x1_S1700000x16_0_1 : (⟨S1700000x1, .f32⟩ : BufTy).Contents (Elt F) → (⟨S1700000x16, .f32⟩ : BufTy).Contents (Elt F)),
    binary main_v85 main_v87 main_v88 (mulf : (⟨S1700000x16, .f32⟩ : BufTy).Contents (Elt F) → (⟨S1700000x16, .f32⟩ : BufTy).Contents (Elt F) → (⟨S1700000x16, .f32⟩ : BufTy).Contents (Elt F)),
    nullary main_cst_19 (constant S_ .f32 0x00000000#32),
    unary main_cst_19 main_v89 (broadcastInDim S100000x16 ![] bcast_S_S100000x16 : (⟨S_, .f32⟩ : BufTy).Contents (Elt F) → (⟨S100000x16, .f32⟩ : BufTy).Contents (Elt F)),
    unary main_v52 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg6 main_v92 (broadcastInDim S1x16 ![1] bcast_S16_S1x16_1 : (⟨S16, .f32⟩ : BufTy).Contents (Elt F) → (⟨S1x16, .f32⟩ : BufTy).Contents (Elt F)),
    unary main_v92 main_v93 (broadcastInDim S100000x16 ![0, 1] bcast_S1x16_S100000x16_0_1 : (⟨S1x16, .f32⟩ : BufTy).Contents (Elt F) → (⟨S100000x16, .f32⟩ : BufTy).Contents (Elt F)),
    binary main_v91 main_v93 main_v94 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call3_cst) (constant S_ .f32 0xFF800000#32),
    TRef.binary (TRef.of (T := ⟨S100000x16, .f32⟩) main_v94) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v94) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v95) subf ]

set_option maxRecDepth 8192 in
set_option maxHeartbeats 4000000 in
/-- @main is the sequence of its operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The twelve stretches -/

/-- Operations 1 to 10. The two rows of the index array as vectors, the row numbers, and the index words and the weights each joined with the nodes' own. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]

/-- Operations 11 to 19. The degrees over the joined rows, their comparison with zero and their inverse square roots. -/
abbrev opsA2 : List (HloOp τ sig (Elt F)) :=
  [ nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- Operations 20 to 22. The choice between the inverse root and zero (the outlined `where`). -/
abbrev opsA3 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 23 to 42. The symmetric norm of every joined row. -/
abbrev opsB : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v8 main_v23 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- Operations 43 to 62. The first layer before the positive part: the features' product with the first weights, the rows gathered along the joined rows and scaled, their scatter-add onto the nodes, the bias. -/
abbrev opsC : List (HloOp τ sig (Elt F)) :=
  [ binary main_arg0 main_arg3 main_v32 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v5 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v5 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v5 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- Operations 63 to 65. The positive part (the outlined `relu`). -/
abbrev opsC2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- Operations 66 to 71. The joined vectors once more (the second convolution builds them again). -/
abbrev opsD : List (HloOp τ sig (Elt F)) :=
  [ nullary main_v50 (iotaInDim S100000 32 0),
    binary main_v1 main_v50 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v50 main_v52 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v53 (broadcastInDim S100000 ![] bcast_S_S100000 : (⟨S_, .f32⟩ : BufTy).Contents (Elt F) → (⟨S100000, .f32⟩ : BufTy).Contents (Elt F)),
    binary main_arg2 main_v53 main_v54 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]

/-- Operations 72 to 80. The degrees over the joined rows, their comparison with zero and their inverse square roots, again. -/
abbrev opsD2 : List (HloOp τ sig (Elt F)) :=
  [ nullary main_cst_10 (constant S_ .f32 0x00000000#32),
    unary main_cst_10 main_v55 (broadcastInDim S100000 ![] bcast_S_S100000 : (⟨S_, .f32⟩ : BufTy).Contents (Elt F) → (⟨S100000, .f32⟩ : BufTy).Contents (Elt F)),
    unary main_v52 main_v56 (broadcastInDim S1700000x1 ![0] bcast_S1700000_S1700000x1_0 : (⟨S1700000, .i32⟩ : BufTy).Contents (Elt F) → (⟨S1700000x1, .i32⟩ : BufTy).Contents (Elt F)),
    ternary main_v55 main_v56 main_v54 main_v57 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v58 (broadcastInDim S100000 ![] bcast_S_S100000 : (⟨S_, .f32⟩ : BufTy).Contents (Elt F) → (⟨S100000, .f32⟩ : BufTy).Contents (Elt F)),
    binary main_v57 main_v58 main_v59 (cmpf .ogt : (⟨S100000, .f32⟩ : BufTy).Contents (Elt F) → (⟨S100000, .f32⟩ : BufTy).Contents (Elt F) → (⟨S100000, .i1⟩ : BufTy).Contents (Elt F)),
    unary main_v57 main_v60 (Host.rsqrt : (⟨S100000, .f32⟩ : BufTy).Contents (Elt F) → (⟨S100000, .f32⟩ : BufTy).Contents (Elt F)),
    nullary main_cst_12 (constant S_ .f32 0x00000000#32) ]

/-- Operations 81 to 83. The choice between the inverse root and zero, again. -/
abbrev opsD3 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v59) (TRef.of (T := ⟨S100000, .f32⟩) main_v60) (TRef.of (T := ⟨S100000, .f32⟩) main_call2_v1) (TRef.of (T := ⟨S100000, .f32⟩) main_v61) select ]

/-- Operations 84 to 103. The symmetric norm of every joined row, again. -/
abbrev opsE : List (HloOp τ sig (Elt F)) :=
  [ nullary main_c_13 (constantI S_ 32 0#32),
    unary main_c_13 main_v62 (broadcastInDim S1700000 ![] bcast_S_S1700000 : (⟨S_, .i32⟩ : BufTy).Contents (Elt F) → (⟨S1700000, .i32⟩ : BufTy).Contents (Elt F)),
    binary main_v51 main_v62 main_v63 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v64 (broadcastInDim S1700000 ![] bcast_S_S1700000 : (⟨S_, .i32⟩ : BufTy).Contents (Elt F) → (⟨S1700000, .i32⟩ : BufTy).Contents (Elt F)),
    binary main_v51 main_v64 main_v65 (addi : (⟨S1700000, .i32⟩ : BufTy).Contents (Elt F) → (⟨S1700000, .i32⟩ : BufTy).Contents (Elt F) → (⟨S1700000, .i32⟩ : BufTy).Contents (Elt F)),
    ternary main_v63 main_v65 main_v51 main_v66 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v66 main_v67 (broadcastInDim S1700000x1 ![0] bcast_S1700000_S1700000x1_0 : (⟨S1700000, .i32⟩ : BufTy).Contents (Elt F) → (⟨S1700000x1, .i32⟩ : BufTy).Contents (Elt F)),
    binary main_v61 main_v67 main_v68 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v68 main_v54 main_v69 (mulf : (⟨S1700000, .f32⟩ : BufTy).Contents (Elt F) → (⟨S1700000, .f32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v52 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v52 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v52 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v61 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)) ]

/-- Operations 104 to 123. The second layer: the product with the second weights, the gather, the scaling, the scatter-add and the bias. -/
abbrev opsF : List (HloOp τ sig (Elt F)) :=
  [ binary main_v49 main_arg5 main_v78 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v51 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v51 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v51 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x16 ![0, 1] bcast_S1700000x1_S1700000x16_0_1 : (⟨S1700000x1, .f32⟩ : BufTy).Contents (Elt F) → (⟨S1700000x16, .f32⟩ : BufTy).Contents (Elt F)),
    binary main_v85 main_v87 main_v88 (mulf : (⟨S1700000x16, .f32⟩ : BufTy).Contents (Elt F) → (⟨S1700000x16, .f32⟩ : BufTy).Contents (Elt F) → (⟨S1700000x16, .f32⟩ : BufTy).Contents (Elt F)),
    nullary main_cst_19 (constant S_ .f32 0x00000000#32),
    unary main_cst_19 main_v89 (broadcastInDim S100000x16 ![] bcast_S_S100000x16 : (⟨S_, .f32⟩ : BufTy).Contents (Elt F) → (⟨S100000x16, .f32⟩ : BufTy).Contents (Elt F)),
    unary main_v52 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg6 main_v92 (broadcastInDim S1x16 ![1] bcast_S16_S1x16_1 : (⟨S16, .f32⟩ : BufTy).Contents (Elt F) → (⟨S1x16, .f32⟩ : BufTy).Contents (Elt F)),
    unary main_v92 main_v93 (broadcastInDim S100000x16 ![0, 1] bcast_S1x16_S100000x16_0_1 : (⟨S1x16, .f32⟩ : BufTy).Contents (Elt F) → (⟨S100000x16, .f32⟩ : BufTy).Contents (Elt F)),
    binary main_v91 main_v93 main_v94 (addf : (⟨S100000x16, .f32⟩ : BufTy).Contents (Elt F) → (⟨S100000x16, .f32⟩ : BufTy).Contents (Elt F) → (⟨S100000x16, .f32⟩ : BufTy).Contents (Elt F)) ]

/-- Operations 124 to 138. The row-wise log-softmax. -/
abbrev opsG : List (HloOp τ sig (Elt F)) :=
  [ TRef.nullary (TRef.of (T := ⟨S_, .f32⟩) main_call3_cst) (constant S_ .f32 0xFF800000#32),
    TRef.binary (TRef.of (T := ⟨S100000x16, .f32⟩) main_v94) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v94) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v95) subf ]

set_option maxRecDepth 8192 in
/-- The list is its stretches in a row. -/
theorem ops_split : (ops : List (HloOp τ sig (Elt F))) = opsA ++ (opsA2 ++ (opsA3 ++ (opsB ++ (opsC ++ (opsC2 ++ (opsD ++ (opsD2 ++ (opsD3 ++ (opsE ++ (opsF ++ (opsG))))))))))) := rfl

/-- Running a list followed by another is running the first, then the second from what the first leaves. -/
theorem after_append (a b : List (HloOp τ sig (Elt F))) (V : Valuation τ sig (Elt F)) :
    after (a ++ b) V = after b (after a V) := by
  induction a generalizing V with
  | nil => rfl
  | cons op a ih => simp only [List.cons_append, after_cons]; exact ih _

/-- The contents of every buffer after each stretch, from the launch contents `V`. -/
abbrev U1 (V : Valuation τ sig (Elt F)) : Valuation τ sig (Elt F) := after opsA V
abbrev U2 (V : Valuation τ sig (Elt F)) : Valuation τ sig (Elt F) := after opsA2 (U1 V)
abbrev U3 (V : Valuation τ sig (Elt F)) : Valuation τ sig (Elt F) := after opsA3 (U2 V)
abbrev U4 (V : Valuation τ sig (Elt F)) : Valuation τ sig (Elt F) := after opsB (U3 V)
abbrev U5 (V : Valuation τ sig (Elt F)) : Valuation τ sig (Elt F) := after opsC (U4 V)
abbrev U6 (V : Valuation τ sig (Elt F)) : Valuation τ sig (Elt F) := after opsC2 (U5 V)
abbrev U7 (V : Valuation τ sig (Elt F)) : Valuation τ sig (Elt F) := after opsD (U6 V)
abbrev U8 (V : Valuation τ sig (Elt F)) : Valuation τ sig (Elt F) := after opsD2 (U7 V)
abbrev U9 (V : Valuation τ sig (Elt F)) : Valuation τ sig (Elt F) := after opsD3 (U8 V)
abbrev U10 (V : Valuation τ sig (Elt F)) : Valuation τ sig (Elt F) := after opsE (U9 V)
abbrev U11 (V : Valuation τ sig (Elt F)) : Valuation τ sig (Elt F) := after opsF (U10 V)
abbrev U12 (V : Valuation τ sig (Elt F)) : Valuation τ sig (Elt F) := after opsG (U11 V)

/-- Running the whole list leaves what the twelve stretches leave. -/
theorem after_ops (V : Valuation τ sig (Elt F)) : after ops V = U12 V := by
  rw [ops_split]
  simp only [after_append]

set_option maxRecDepth 8192 in
set_option maxHeartbeats 55200000 in
/-- Every weakly fair execution of @main terminates; the result buffer then holds what the twelve stretches leave
    in it, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = U12 (launchContents m c) (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v95).trans (by rw [after_ops]),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.HandRun

end
-- ==== Proof.LibSigmoid.lean ====
/-
  The sigmoid in its two spellings, at the exact values.

  A kernel applies the one operation `logistic`; a host program may spell the same function in four operations,

      σ(x) = 1 / (1 + exp (−x)) :

  negate, exponential, add to a broadcast constant one, divide a broadcast constant one by the sum. On the extended
  reals `logistic` is defined as that very expression (with the corners −∞ ↦ 0 and +∞ ↦ 1 that the division and the
  exponential give), the host's negate, exponential and quotient are the kernel's, and the pattern 0x3F800000 denotes
  the number one, so the two spellings are one function on whole arrays of any shape, with no condition on the entries.
-/
import Idealize.ShloMosaic.PureOps.Ideal

noncomputable section

namespace LibSigmoid

open Idealize.ShloMosaic

/-- The single-precision pattern 0x3F800000 (sign 0, exponent 127, fraction 0) denotes the number one. -/
theorem ofBits_one_f32 : Ideal.ofBits .f32 0x3F800000#32 = (1 : EReal) := by
  simp [Ideal.ofBits, Ideal.ieee, -EReal.coe_mul]; norm_num

/-- On one value: one divided by one plus the exponential of the negation is the logistic function. -/
theorem sigmoid_scalar (x : EReal) : Ideal.div 1 (1 + Ideal.exp (-x)) = Ideal.logistic x := rfl

/-- On whole arrays of any shape: the host's expansion of the sigmoid — a constant one broadcast from a scalar,
    divided by the sum of a constant one broadcast from a scalar and the exponential of the negated operand — is the
    kernel's `logistic` of the operand. -/
theorem hostSigmoid_eq_logistic {t : Shape}
    (h₁ h₂ : (⟨0, ![]⟩ : Shape).BroadcastsInDim t (![] : Fin 0 → Fin t.rank)) (x : FVec Ideal t .f32) :
    Host.divf (F := Ideal) (broadcastInDim t ![] h₂ (constant (F := Ideal) ⟨0, ![]⟩ .f32 0x3F800000#32))
        (addf (F := Ideal) (broadcastInDim t ![] h₁ (constant (F := Ideal) ⟨0, ![]⟩ .f32 0x3F800000#32))
          (Host.exp (F := Ideal) (Host.negf (F := Ideal) x)))
      = logistic (F := Ideal) x := by
  funext i
  simp only [Host.divf, addf, Host.exp, Host.negf, logistic, broadcastInDim, constant, Ideal.hostDivf_def,
    Ideal.addf_def, Ideal.hostUnary_exp_def, Ideal.hostNegf_def, Ideal.negf_def, Ideal.logistic_def, Ideal.ofBits_def,
    ofBits_one_f32, Ideal.logistic]

end LibSigmoid

end
-- ==== Proof.JoinedEdges.lean ====
/-
  The reference's way of adding the self loops: every edge list is joined with the list of the nodes themselves.

  The reference appends to the edges' index words the row numbers `0 … 99999` (an iota) and to the weights as many
  ones, and runs the same scatter-adds over the 1700000 joined rows.  A sum over the joined rows splits into the sum
  over the edges and the sum over the appended rows; appended row `k` has both ends at node `k` and weight one, so of the
  appended rows exactly row `p` lands on node `p`.  Hence the joined degree is the edges' weight into `p` plus one, and
  the joined inflow is the edges' inflow plus the node's own row times `(dv[p] · 1) · dv[p]`; commuting and
  re-associating gives the form with the self loop as a separate term.
-/
import proofs.«177980_j66692252172820_2_alg».proof.Proof.GraphConvSpec
import proofs.«177980_j66692252172820_2_alg».proof.Proof.LibSigmoid

noncomputable section

namespace Cert.JoinedEdges

open Idealize.ShloMosaic Idealize.ShloMosaic.ValueIdx Cert.IndexOps Cert.HostPatterns Cert.GraphConv

/-- The fact that a 1600000-vector followed by a 100000-vector is a 1700000-vector. -/
abbrev Joins : Prop :=
  Shape.Concatenates [(⟨1, ![1600000]⟩ : Shape), ⟨1, ![100000]⟩] ⟨1, ![1700000]⟩ 0

/-- Index words followed by the row numbers. -/
abbrev joinW (hcat : Joins) (a : EdgeWords) : IVec ⟨1, ![1700000]⟩ 32 :=
  concatenate (⟨1, ![1700000]⟩ : Shape) 0
    [⟨⟨1, ![1600000]⟩, a⟩, ⟨⟨1, ![100000]⟩, iotaInDim (⟨1, ![100000]⟩ : Shape) 32 0⟩] hcat

/-- Weights followed by ones. -/
abbrev joinV (hcat : Joins) (hb : (⟨0, ![]⟩ : Shape).BroadcastsInDim ⟨1, ![100000]⟩ ![]) (w : EdgeVals) :
    (⟨1, ![1700000]⟩ : Shape).Idx → EReal :=
  concatenate (⟨1, ![1700000]⟩ : Shape) 0
    [⟨⟨1, ![1600000]⟩, w⟩,
     ⟨⟨1, ![100000]⟩, broadcastInDim (⟨1, ![100000]⟩ : Shape) ![] hb (constant (F := Ideal) ⟨0, ![]⟩ .f32 0x3F800000#32)⟩] hcat

theorem joinW_edge (hcat : Joins) (a : EdgeWords) (e : Fin 1600000) :
    joinW hcat a (ix1 (Fin.castAdd 100000 e)) = a (ix1 e) := joined_left _ _ hcat e

theorem joinW_node (hcat : Joins) (a : EdgeWords) (k : Fin 100000) :
    joinW hcat a (ix1 (Fin.natAdd 1600000 k)) = BitVec.ofNat 32 k.val :=
  (joined_right _ _ hcat k).trans (iota_apply k)

theorem joinV_edge (hcat : Joins) (hb : (⟨0, ![]⟩ : Shape).BroadcastsInDim ⟨1, ![100000]⟩ ![]) (w : EdgeVals)
    (e : Fin 1600000) : joinV hcat hb w (ix1 (Fin.castAdd 100000 e)) = w (ix1 e) := joined_left _ _ hcat e

theorem joinV_node (hcat : Joins) (hb : (⟨0, ![]⟩ : Shape).BroadcastsInDim ⟨1, ![100000]⟩ ![]) (w : EdgeVals)
    (k : Fin 100000) : joinV hcat hb w (ix1 (Fin.natAdd 1600000 k)) = one32 :=
  (joined_right _ _ hcat k).trans rfl

/-- The row a gather reads for the word of a row number is that row. -/
theorem rowOf_node (k : Fin 100000) : rowOf (BitVec.ofNat 32 k.val) = k := by
  refine Fin.ext ?_
  have hk := k.isLt
  show min (wrap (BitVec.ofNat 32 k.val)).toInt.toNat (100000 - 1) = k.val
  rw [wrap_ofNat_row hk, toInt_ofNat_row hk]
  omega

/-- The word of a row number, read as a signed integer, is `p` exactly for row `p`. -/
theorem node_hits (k p : Fin 100000) : (BitVec.ofNat 32 k.val).toInt = (p.val : Int) ↔ k = p := by
  rw [toInt_ofNat_row k.isLt]
  constructor
  · intro h; exact Fin.ext (by exact_mod_cast h)
  · intro h; rw [h]

/-- A sum over the appended rows of a term that is present only on the row landing on `p` is that row's term. -/
theorem sum_nodes (p : Fin 100000) (f : Fin 100000 → EReal) :
    (∑ k : Fin 100000, if (BitVec.ofNat 32 k.val).toInt = (p.val : Int) then f k else 0) = f p := by
  rw [Finset.sum_eq_single p]
  · rw [if_pos ((node_hits p p).mpr rfl)]
  · intro k _ hk
    rw [if_neg (fun h => hk ((node_hits k p).mp h))]
  · intro h; exact absurd (Finset.mem_univ p) h

/-- The joined degree sum: the edges' weight into `p`, plus one. -/
theorem degree_joined (hcat : Joins) (hb : (⟨0, ![]⟩ : Shape).BroadcastsInDim ⟨1, ![100000]⟩ ![])
    (d : EdgeWords) (w : EdgeVals) (p : Fin 100000) :
    (∑ e : Fin 1700000, if (joinW hcat d (ix1 e)).toInt = (p.val : Int) then joinV hcat hb w (ix1 e) else 0)
      = inWeight d w p + one32 := by
  refine (sum_joined (fun e : Fin 1700000 =>
    if (joinW hcat d (ix1 e)).toInt = (p.val : Int) then joinV hcat hb w (ix1 e) else 0)).trans ?_
  refine congrArg₂ (· + ·) ?_ ?_
  · unfold inWeight
    refine Finset.sum_congr rfl fun e _ => ?_
    rw [joinW_edge, joinV_edge]
  · refine (Finset.sum_congr rfl fun k _ => ?_).trans (sum_nodes p fun _ => one32)
    rw [joinW_node, joinV_node]

/-- The joined inflow sum: the edges' inflow, plus the node's own row times the appended row's norm. -/
theorem inflow_joined {C : Nat} (hcat : Joins) (dv : Nodes) (s d : EdgeWords) (w : EdgeVals) (h : Table C)
    (nrm : (⟨1, ![1700000]⟩ : Shape).Idx → EReal)
    (hE : ∀ e : Fin 1600000, nrm (ix1 (Fin.castAdd 100000 e)) = edgeNorm dv s d w e)
    (hN : ∀ k : Fin 100000, nrm (ix1 (Fin.natAdd 1600000 k)) = (dv (ix1 k) * one32) * dv (ix1 k))
    (p : Fin 100000) (k : Fin C) :
    (∑ e : Fin 1700000, if (joinW hcat d (ix1 e)).toInt = (p.val : Int)
        then h (ix2 (rowOf (joinW hcat s (ix1 e))) k) * nrm (ix1 e) else 0)
      = inflow dv s d w h p k + h (ix2 p k) * ((dv (ix1 p) * one32) * dv (ix1 p)) := by
  refine (sum_joined (fun e : Fin 1700000 =>
    if (joinW hcat d (ix1 e)).toInt = (p.val : Int)
      then h (ix2 (rowOf (joinW hcat s (ix1 e))) k) * nrm (ix1 e) else 0)).trans ?_
  refine congrArg₂ (· + ·) ?_ ?_
  · unfold inflow
    refine Finset.sum_congr rfl fun e _ => ?_
    rw [joinW_edge, joinW_edge, hE]
  · refine (Finset.sum_congr rfl fun j _ => ?_).trans
      (sum_nodes p fun j => h (ix2 j k) * ((dv (ix1 j) * one32) * dv (ix1 j)))
    rw [joinW_node, joinW_node, rowOf_node, hN]

/-- The symmetric norm over the joined rows, at an edge and at an appended row. -/
theorem norm_joined_edge (hcat : Joins) (hb : (⟨0, ![]⟩ : Shape).BroadcastsInDim ⟨1, ![100000]⟩ ![])
    (dv : Nodes) (s d : EdgeWords) (w : EdgeVals) (e : Fin 1600000) :
    (dv (ix1 (rowOf (joinW hcat s (ix1 (Fin.castAdd 100000 e))))) * joinV hcat hb w (ix1 (Fin.castAdd 100000 e)))
        * dv (ix1 (rowOf (joinW hcat d (ix1 (Fin.castAdd 100000 e)))))
      = edgeNorm dv s d w e := by
  rw [joinW_edge, joinW_edge, joinV_edge]
  rfl

theorem norm_joined_node (hcat : Joins) (hb : (⟨0, ![]⟩ : Shape).BroadcastsInDim ⟨1, ![100000]⟩ ![])
    (dv : Nodes) (s d : EdgeWords) (w : EdgeVals) (k : Fin 100000) :
    (dv (ix1 (rowOf (joinW hcat s (ix1 (Fin.natAdd 1600000 k))))) * joinV hcat hb w (ix1 (Fin.natAdd 1600000 k)))
        * dv (ix1 (rowOf (joinW hcat d (ix1 (Fin.natAdd 1600000 k)))))
      = (dv (ix1 k) * one32) * dv (ix1 k) := by
  rw [joinW_node, joinW_node, joinV_node, rowOf_node]

/-- The degree with the self loop counted among the joined rows is the degree with it added afterwards. -/
theorem degree_regroup (d : EdgeWords) (w : EdgeVals) :
    (fun i : (⟨1, ![100000]⟩ : Shape).Idx => z32 + (inWeight d w (i 0) + one32)) = degree d w := by
  funext i
  exact (add_assoc _ _ _).symm

/-- The convolution with the self loop counted among the joined rows is the convolution with it as its own term. -/
theorem conv_regroup {C : Nat} (dv : Nodes) (s d : EdgeWords) (w : EdgeVals) (h : Table C) (b : Fin C → EReal)
    (p : Fin 100000) (k : Fin C) :
    (z32 + (inflow dv s d w h p k + h (ix2 p k) * ((dv (ix1 p) * one32) * dv (ix1 p)))) + b k
      = conv dv s d w h b p k := by
  unfold conv
  have h1 : one32 = 1 := LibSigmoid.ofBits_one_f32
  rw [h1, mul_one, ← add_assoc, mul_comm (h (ix2 p k))]

end Cert.JoinedEdges

end
-- ==== Proof.RefStageA.lean ====
/-
  The reference's first stretch: the joined vectors.

  From the contents `W` the stretch finds, it leaves: the two rows of the index array as vectors of words; each of them
  followed by the row numbers; the weights followed by ones.
-/
import proofs.«177980_j66692252172820_2_alg».proof.Proof.RefRun
import proofs.«177980_j66692252172820_2_alg».proof.Proof.HostStages
import proofs.«177980_j66692252172820_2_alg».proof.Proof.JoinedEdges

set_option maxRecDepth 16384

noncomputable section

namespace Cert.ReferenceIdeal.StageA

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

/-- Row `r` of the 2×1600000 index array, cut out and re-laid as a vector, read at entry `e`. -/
theorem sliceRow_apply {α : Type} (x1 : (⟨2, ![2, 1600000]⟩ : Shape).Idx → α) (r : Fin 2)
    (hs : (⟨2, ![2, 1600000]⟩ : Shape).Slices ![r.val, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![r.val, 0] x1 hs) hc (ix1 e) = x1 (ix2 r e) := by
  rw [shapeCast_apply _ hc (ix1 e) (ix2 (0 : Fin 1) e) (by
    rw [Shape.rowMajor_val_two, Shape.rowMajor_val_one]
    show 0 * 1600000 + e.val = e.val
    omega)]
  exact extractStridedSlice_apply ![r.val, 0] x1 hs (ix2 (0 : Fin 1) e) (ix2 r e) (fun a => match a with
    | ⟨0, _⟩ => by show r.val = r.val + 0; omega
    | ⟨1, _⟩ => by show e.val = 0 + e.val; omega)

/-- The near ends' words as the stretch computes them. -/
def nearVec (x1 : (⟨2, ![2, 1600000]⟩ : Shape).Idx → BitVec 32) : EdgeWords :=
  shapeCast ⟨1, ![1600000]⟩ (extractStridedSlice ⟨2, ![1, 1600000]⟩ ![0, 0] x1 slices_S2x1600000_S1x1600000_0_0)
    shapeCasts_S1x1600000_S1600000

/-- The far ends' words as the stretch computes them. -/
def farVec (x1 : (⟨2, ![2, 1600000]⟩ : Shape).Idx → BitVec 32) : EdgeWords :=
  shapeCast ⟨1, ![1600000]⟩ (extractStridedSlice ⟨2, ![1, 1600000]⟩ ![1, 0] x1 slices_S2x1600000_S1x1600000_1_0)
    shapeCasts_S1x1600000_S1600000

theorem nearVec_eq (x1 : (⟨2, ![2, 1600000]⟩ : Shape).Idx → BitVec 32) : nearVec x1 = nearWords x1 := by
  funext i
  rw [eq_ix1 i]
  exact sliceRow_apply x1 0 slices_S2x1600000_S1x1600000_0_0 shapeCasts_S1x1600000_S1600000 (i 0)

theorem farVec_eq (x1 : (⟨2, ![2, 1600000]⟩ : Shape).Idx → BitVec 32) : farVec x1 = farWords x1 := by
  funext i
  rw [eq_ix1 i]
  exact sliceRow_apply x1 1 slices_S2x1600000_S1x1600000_1_0 shapeCasts_S1x1600000_S1600000 (i 0)

variable (W : Valuation τ sig (Elt Ideal))

theorem near_words : after opsA W (Proc.devRef .tc main_v1) = nearVec (W (Proc.devRef .tc main_arg1)) := by
  after_results_simp; rfl

theorem far_words : after opsA W (Proc.devRef .tc main_v3) = farVec (W (Proc.devRef .tc main_arg1)) := by
  after_results_simp; rfl

theorem joined_near : after opsA W (Proc.devRef .tc main_v5)
    = joinW concatenates_S1600000_S100000_S1700000_d0 (nearVec (W (Proc.devRef .tc main_arg1))) := by
  after_results_simp; rfl

theorem joined_far : after opsA W (Proc.devRef .tc main_v6)
    = joinW concatenates_S1600000_S100000_S1700000_d0 (farVec (W (Proc.devRef .tc main_arg1))) := by
  after_results_simp; rfl

theorem joined_weights : after opsA W (Proc.devRef .tc main_v8)
    = joinV concatenates_S1600000_S100000_S1700000_d0 bcast_S_S100000 (W (Proc.devRef .tc main_arg2)) := by
  after_results_simp; rfl

theorem keeps_arg0 : after opsA W (Proc.devRef .tc main_arg0) = W (Proc.devRef .tc main_arg0) := by
  after_results_simp

theorem keeps_arg2 : after opsA W (Proc.devRef .tc main_arg2) = W (Proc.devRef .tc main_arg2) := by
  after_results_simp

theorem keeps_arg3 : after opsA W (Proc.devRef .tc main_arg3) = W (Proc.devRef .tc main_arg3) := by
  after_results_simp

theorem keeps_arg4 : after opsA W (Proc.devRef .tc main_arg4) = W (Proc.devRef .tc main_arg4) := by
  after_results_simp

theorem keeps_arg5 : after opsA W (Proc.devRef .tc main_arg5) = W (Proc.devRef .tc main_arg5) := by
  after_results_simp

theorem keeps_arg6 : after opsA W (Proc.devRef .tc main_arg6) = W (Proc.devRef .tc main_arg6) := by
  after_results_simp

end Cert.ReferenceIdeal.StageA

end
-- ==== Proof.RefStageA2.lean ====
/-
  The reference's second stretch: the degrees.

  The joined weights scattered, from zero, onto the nodes the joined far ends name; their comparison with zero; their
  inverse square roots.  Read at a node the scattered weights are zero plus the edges' weight into the node plus one
  (the node's own appended row): the degrees.
-/
import proofs.«177980_j66692252172820_2_alg».proof.Proof.RefRun
import proofs.«177980_j66692252172820_2_alg».proof.Proof.HostStages
import proofs.«177980_j66692252172820_2_alg».proof.Proof.JoinedEdges

set_option maxRecDepth 16384

noncomputable section

namespace Cert.ReferenceIdeal.StageA2

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

/-- The weights scattered over the joined rows, from zero, are the degrees. -/
theorem inDegree_joined (hcat : Joins) (hb : (⟨0, ![]⟩ : Shape).BroadcastsInDim ⟨1, ![100000]⟩ ![])
    (wfs : ScatterDims.WF ⟨1, ![100000]⟩ ⟨2, ![1700000, 1]⟩ ⟨1, ![1700000]⟩ [] [0] [0] 1)
    (hc : (⟨1, ![1700000]⟩ : Shape).BroadcastsInDim ⟨2, ![1700000, 1]⟩ ![0]) (d : EdgeWords) (w : EdgeVals) :
    inDegree wfs hb hc (joinW hcat d) (joinV hcat hb w) = degree d w := by
  funext i
  obtain ⟨p, rfl⟩ : ∃ p : Fin 100000, i = ix1 p := ⟨i 0, eq_ix1 i⟩
  rw [inDegree_apply (by decide), degree_joined]
  exact (add_assoc z32 (inWeight d w p) one32).symm

/-- The choice between the inverse root of a degree, where the degree is positive, and zero. -/
theorem chosen_eq (hz : (⟨0, ![]⟩ : Shape).BroadcastsInDim ⟨1, ![100000]⟩ ![]) (deg : Nodes) :
    select (cmpf (F := Ideal) (φ := .f32) .ogt deg (zerosOf ⟨1, ![100000]⟩ hz)) (Host.rsqrt (F := Ideal) (φ := .f32) deg)
        (broadcastInDim (⟨1, ![100000]⟩ : Shape) ![] hz (constant (F := Ideal) ⟨0, ![]⟩ .f32 0x00000000#32))
      = invRootPos deg := rfl

variable (W : Valuation τ sig (Elt Ideal))

theorem positive : after opsA2 W (Proc.devRef .tc main_v13)
    = cmpf (F := Ideal) (φ := .f32) .ogt (inDegree scatter_S100000_S1700000x1_S1700000_n_0_0_1_wf bcast_S_S100000 bcast_S1700000_S1700000x1_0 (W (Proc.devRef .tc main_v6)) (W (Proc.devRef .tc main_v8)))
        (zerosOf ⟨1, ![100000]⟩ bcast_S_S100000) := by
  after_results_simp; rfl

theorem inverse_root : after opsA2 W (Proc.devRef .tc main_v14)
    = Host.rsqrt (F := Ideal) (φ := .f32) (inDegree scatter_S100000_S1700000x1_S1700000_n_0_0_1_wf bcast_S_S100000 bcast_S1700000_S1700000x1_0 (W (Proc.devRef .tc main_v6)) (W (Proc.devRef .tc main_v8))) := by
  after_results_simp; rfl

theorem zero_scalar : after opsA2 W (Proc.devRef .tc main_cst_2) = constant (F := Ideal) ⟨0, ![]⟩ .f32 0x00000000#32 := by
  after_results_simp

theorem keeps_v1 : after opsA2 W (Proc.devRef .tc main_v1) = W (Proc.devRef .tc main_v1) := by
  after_results_simp

theorem keeps_v3 : after opsA2 W (Proc.devRef .tc main_v3) = W (Proc.devRef .tc main_v3) := by
  after_results_simp

theorem keeps_v5 : after opsA2 W (Proc.devRef .tc main_v5) = W (Proc.devRef .tc main_v5) := by
  after_results_simp

theorem keeps_v6 : after opsA2 W (Proc.devRef .tc main_v6) = W (Proc.devRef .tc main_v6) := by
  after_results_simp

theorem keeps_v8 : after opsA2 W (Proc.devRef .tc main_v8) = W (Proc.devRef .tc main_v8) := by
  after_results_simp

theorem keeps_arg0 : after opsA2 W (Proc.devRef .tc main_arg0) = W (Proc.devRef .tc main_arg0) := by
  after_results_simp

theorem keeps_arg2 : after opsA2 W (Proc.devRef .tc main_arg2) = W (Proc.devRef .tc main_arg2) := by
  after_results_simp

theorem keeps_arg3 : after opsA2 W (Proc.devRef .tc main_arg3) = W (Proc.devRef .tc main_arg3) := by
  after_results_simp

theorem keeps_arg4 : after opsA2 W (Proc.devRef .tc main_arg4) = W (Proc.devRef .tc main_arg4) := by
  after_results_simp

theorem keeps_arg5 : after opsA2 W (Proc.devRef .tc main_arg5) = W (Proc.devRef .tc main_arg5) := by
  after_results_simp

theorem keeps_arg6 : after opsA2 W (Proc.devRef .tc main_arg6) = W (Proc.devRef .tc main_arg6) := by
  after_results_simp

end Cert.ReferenceIdeal.StageA2

end
-- ==== Proof.RefStageG.lean ====
/-
  The reference's last stretch: every row of the second layer's output replaced by its log-softmax.

  The stretch takes each row's maximum — a fold of `max` over the row from the value of the minus-infinity pattern, and
  once more the larger of that value and the fold —, subtracts it from the row, sums the exponentials of the shifted
  entries from the value of the zero pattern, takes the logarithm of the sum and subtracts it.  Below, the operations are
  composed as four named arrays, each is read at an entry, and what the stretch leaves is `rowsLogSoftmax` of the array
  it finds.
-/
import proofs.«177980_j66692252172820_2_alg».proof.Proof.RefRun
import proofs.«177980_j66692252172820_2_alg».proof.Proof.RowLogSoftmax
import proofs.«177980_j66692252172820_2_alg».proof.Proof.LibColumnSpread
import Idealize.ShloMosaic.Lib.IdealHost
import Idealize.ShloMosaic.Lib.Pipeline.Value
import Idealize.ShloMosaic.PureOps.Ideal.Laws
import Idealize.ShloMosaic.PureOps.Reduce

set_option maxRecDepth 16384

noncomputable section

namespace Cert.ReferenceIdeal.StageG

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.LibColumnSpread

/-- Every row of a `100000 × 16` array replaced by its log-softmax. -/
abbrev rowsLogSoftmax (v : S100000x16.Idx → EReal) : S100000x16.Idx → EReal :=
  fun i => Cert.RowLogSoftmax.rowLogSoftmax (fun k : Fin 16 => v (ix2 (i 0) k)) (i 1)

/-! ## The stretch's operations, composed -/

/-- Each row's maximum as the reference takes it: the maximum over the row from the value of the minus-infinity
    pattern, and once more the larger of that value and the result. -/
def hostRowMax (v : FVec Ideal S100000x16 .f32) : FVec Ideal S100000 .f32 :=
  maximumf (broadcastInDim S100000 ![] bcast_S_S100000 (constant (F := Ideal) S_ .f32 0xFF800000#32))
    (Host.reduce FloatOps.maximumf v (constant (F := Ideal) S_ .f32 0xFF800000#32) reducesTo_S100000x16_S100000_d1 h_S_)

/-- Every entry less its row's maximum. -/
def hostShifted (v : FVec Ideal S100000x16 .f32) : FVec Ideal S100000x16 .f32 :=
  subf v (broadcastInDim S100000x16 ![0, 1] bcast_S100000x1_S100000x16_0_1
    (broadcastInDim S100000x1 ![0] bcast_S100000_S100000x1_0 (hostRowMax v)))

/-- Each row's sum of the exponentials of the shifted entries, from the value of the zero pattern. -/
def hostExpSum (v : FVec Ideal S100000x16 .f32) : FVec Ideal S100000 .f32 :=
  Host.reduceAdd (Host.exp (hostShifted v)) (constant (F := Ideal) S_ .f32 0x00000000#32) reducesTo_S100000x16_S100000_d1 h_S_

/-- The shifted entries less the logarithm of their row's sum of exponentials. -/
def hostLogSoftmax (v : FVec Ideal S100000x16 .f32) : FVec Ideal S100000x16 .f32 :=
  subf (hostShifted v) (broadcastInDim S100000x16 ![0, 1] bcast_S100000x1_S100000x16_0_1
    (Host.log (broadcastInDim S100000x1 ![0] bcast_S100000_S100000x1_0 (hostExpSum v))))

/-! ## Read at an entry -/

/-- The host's exponential of an array, read at an index. -/
theorem hostExp_apply {s : Shape} (x : FVec Ideal s .f32) (i : s.Idx) : Host.exp x i = Ideal.exp (x i) := rfl
/-- The host's logarithm of an array, read at an index. -/
theorem hostLog_apply {s : Shape} (x : FVec Ideal s .f32) (i : s.Idx) : Host.log x i = Ideal.log (x i) := rfl

/-- Reducing a `[100000, 16]` array over its columns visits, at row `p`, the entries `(p, k)`. -/
theorem lift_row (h : S100000x16.Reduces [1] S100000) (p : Fin 100000) (k : Fin 16) : h.lift (ix1 p) k = ix2 p k :=
  funext fun a => by match a with | ⟨0, _⟩ => rfl | ⟨1, _⟩ => rfl

/-- The reference's row maximum at row `p` is the row's maximum folded from the value of the minus-infinity pattern:
    taking the larger of the start value and the fold changes nothing. -/
theorem hostRowMax_apply (h : S100000x16.Reduces [1] S100000) (v : FVec Ideal S100000x16 .f32) (p : Fin 100000) :
    hostRowMax v (ix1 p) = Cert.RowLogSoftmax.rowMax (fun k : Fin 16 => v (ix2 p k)) := by
  have hfold : Host.reduce FloatOps.maximumf v (constant (F := Ideal) S_ .f32 0xFF800000#32) reducesTo_S100000x16_S100000_d1 h_S_ (ix1 p)
      = Cert.RowLogSoftmax.rowMax (fun k : Fin 16 => v (ix2 p k)) := by
    refine (Host.reduce_eq_fold_single FloatOps.maximumf v _ reducesTo_S100000x16_S100000_d1 h h_S_ (ix1 p)).trans ?_
    have hl : (v ∘ h.lift (ix1 p)) = fun k : Fin 16 => v (ix2 p k) := funext fun k => congrArg v (lift_row h p k)
    rw [hl]
    rfl
  have hstart : broadcastInDim S100000 ![] bcast_S_S100000 (constant (F := Ideal) S_ .f32 0xFF800000#32) (ix1 p)
      = Ideal.ofBits .f32 0xFF800000#32 := broadcastInDim_scalar_apply _ _ _
  unfold hostRowMax
  rw [maximumf_apply, hstart, hfold]
  exact Cert.RowLogSoftmax.max_start_rowMax _

/-- A shifted entry is the entry less its row's maximum. -/
theorem hostShifted_apply (h : S100000x16.Reduces [1] S100000) (v : FVec Ideal S100000x16 .f32) (p : Fin 100000) (k : Fin 16) :
    hostShifted v (ix2 p k) = v (ix2 p k) - Cert.RowLogSoftmax.rowMax (fun k : Fin 16 => v (ix2 p k)) :=
  congrArg (fun m => v (ix2 p k) - m)
    ((colOfVec_spread_apply (by decide) (hostRowMax v) bcast_S100000_S100000x1_0 bcast_S100000x1_S100000x16_0_1 p k).trans
      (hostRowMax_apply h v p))

/-- The reference's row sum at row `p` is the sum over the row of the exponentials of the shifted entries: the start
    value is zero. -/
theorem hostExpSum_apply (h : S100000x16.Reduces [1] S100000) (v : FVec Ideal S100000x16 .f32) (p : Fin 100000) :
    hostExpSum v (ix1 p)
      = ∑ k : Fin 16, Ideal.exp (v (ix2 p k) - Cert.RowLogSoftmax.rowMax (fun k : Fin 16 => v (ix2 p k))) := by
  unfold hostExpSum
  refine (hostReduceAdd_apply _ _ _ _ (ix1 p)).trans ?_
  refine (Ideal.hostReduceAdd_single reducesTo_S100000x16_S100000_d1 h _ _ (ix1 p)).trans ?_
  rw [constant_apply, Ideal.ofBits_zero_f32, zero_add]
  exact Finset.sum_congr rfl fun k _ =>
    (congrArg (Host.exp (hostShifted v)) (lift_row h p k)).trans
      ((hostExp_apply (hostShifted v) (ix2 p k)).trans (congrArg Ideal.exp (hostShifted_apply h v p k)))

/-- The composed operations at `(p, q)`: the log-softmax of row `p` at `q`. -/
theorem hostLogSoftmax_apply (h : S100000x16.Reduces [1] S100000) (v : FVec Ideal S100000x16 .f32) (p : Fin 100000) (q : Fin 16) :
    hostLogSoftmax v (ix2 p q) = Cert.RowLogSoftmax.rowLogSoftmax (fun k : Fin 16 => v (ix2 p k)) q := by
  have e1 := hostShifted_apply h v p q
  have e2 : broadcastInDim S100000x16 ![0, 1] bcast_S100000x1_S100000x16_0_1
        (Host.log (broadcastInDim S100000x1 ![0] bcast_S100000_S100000x1_0 (hostExpSum v))) (ix2 p q)
      = Ideal.log (∑ k : Fin 16, Ideal.exp (v (ix2 p k) - Cert.RowLogSoftmax.rowMax (fun k : Fin 16 => v (ix2 p k)))) :=
    (col_spread_apply (by decide) _ bcast_S100000x1_S100000x16_0_1 p q).trans
      ((hostLog_apply _ (ix2 p (0 : Fin 1))).trans
        (congrArg Ideal.log ((colOfVec_apply (by decide) _ bcast_S100000_S100000x1_0 p 0).trans (hostExpSum_apply h v p))))
  unfold hostLogSoftmax
  rw [subf_apply, e1, e2]
  rfl

/-- The composed operations are the rows' log-softmax. -/
theorem hostLogSoftmax_eq (v : FVec Ideal S100000x16 .f32) : hostLogSoftmax v = rowsLogSoftmax v := by
  funext i
  obtain ⟨p, q, rfl⟩ : ∃ (p : Fin 100000) (q : Fin 16), i = ix2 p q := ⟨i 0, i 1, eq_ix2 i⟩
  exact hostLogSoftmax_apply (by decide) v p q

/-! ## The stretch -/

/-- Contents moved to a typed reference's buffer and back are unchanged. -/
theorem ofBuf_toBuf {T : BufTy} (x : TRef sig T) (v : T.Contents (Elt Ideal)) : x.ofBuf (x.toBuf v) = v := by
  unfold TRef.ofBuf TRef.toBuf
  rw [cast_cast, cast_eq]

section
variable (W : Valuation τ sig (Elt Ideal))

/-- What the stretch leaves in its last buffer is the composed operations of what it finds in `main_v94`. -/
theorem composed : after opsG W (Proc.devRef .tc main_v95) = hostLogSoftmax (W (Proc.devRef .tc main_v94)) := by
  after_results_simp
  simp only [ofBuf_toBuf]
  rfl

/-- The last stretch of the reference replaces every row of `main_v94` by its log-softmax. -/
theorem log_softmax_rows : after opsG W (Proc.devRef .tc main_v95) = rowsLogSoftmax (W (Proc.devRef .tc main_v94)) :=
  (composed W).trans (hostLogSoftmax_eq _)

end

end Cert.ReferenceIdeal.StageG

end
-- ==== Proof.RefStageA3.lean ====
/-
  The reference's third stretch: the inverse root where the degree is positive, zero elsewhere.
-/
import proofs.«177980_j66692252172820_2_alg».proof.Proof.RefRun
import proofs.«177980_j66692252172820_2_alg».proof.Proof.HostStages
import proofs.«177980_j66692252172820_2_alg».proof.Proof.JoinedEdges
import proofs.«177980_j66692252172820_2_alg».proof.Proof.RefStageG
set_option maxRecDepth 16384

noncomputable section

namespace Cert.ReferenceIdeal.StageA3

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

variable (W : Valuation τ sig (Elt Ideal))

theorem chosen : after opsA3 W (Proc.devRef .tc main_v15)
    = select (W (Proc.devRef .tc main_v13)) (W (Proc.devRef .tc main_v14))
        (broadcastInDim (⟨1, ![100000]⟩ : Shape) ![] bcast_S_S100000 (W (Proc.devRef .tc main_cst_2))) := by
  after_results_simp
  simp only [Cert.ReferenceIdeal.StageG.ofBuf_toBuf]
  rfl

theorem keeps_v1 : after opsA3 W (Proc.devRef .tc main_v1) = W (Proc.devRef .tc main_v1) := by
  after_results_simp

theorem keeps_v3 : after opsA3 W (Proc.devRef .tc main_v3) = W (Proc.devRef .tc main_v3) := by
  after_results_simp

theorem keeps_v5 : after opsA3 W (Proc.devRef .tc main_v5) = W (Proc.devRef .tc main_v5) := by
  after_results_simp

theorem keeps_v6 : after opsA3 W (Proc.devRef .tc main_v6) = W (Proc.devRef .tc main_v6) := by
  after_results_simp

theorem keeps_v8 : after opsA3 W (Proc.devRef .tc main_v8) = W (Proc.devRef .tc main_v8) := by
  after_results_simp

theorem keeps_arg0 : after opsA3 W (Proc.devRef .tc main_arg0) = W (Proc.devRef .tc main_arg0) := by
  after_results_simp

theorem keeps_arg2 : after opsA3 W (Proc.devRef .tc main_arg2) = W (Proc.devRef .tc main_arg2) := by
  after_results_simp

theorem keeps_arg3 : after opsA3 W (Proc.devRef .tc main_arg3) = W (Proc.devRef .tc main_arg3) := by
  after_results_simp

theorem keeps_arg4 : after opsA3 W (Proc.devRef .tc main_arg4) = W (Proc.devRef .tc main_arg4) := by
  after_results_simp

theorem keeps_arg5 : after opsA3 W (Proc.devRef .tc main_arg5) = W (Proc.devRef .tc main_arg5) := by
  after_results_simp

theorem keeps_arg6 : after opsA3 W (Proc.devRef .tc main_arg6) = W (Proc.devRef .tc main_arg6) := by
  after_results_simp

end Cert.ReferenceIdeal.StageA3

end
-- ==== Proof.RefStageB.lean ====
/-
  The reference's fourth stretch: the symmetric norm of every joined row, from the inverse root degrees, the joined
  index words and the joined weights the first three stretches left; everything else passes through unchanged.
-/
import proofs.«177980_j66692252172820_2_alg».proof.Proof.RefRun
import proofs.«177980_j66692252172820_2_alg».proof.Proof.HostStages
import proofs.«177980_j66692252172820_2_alg».proof.Proof.JoinedEdges

set_option maxRecDepth 16384

noncomputable section

namespace Cert.ReferenceIdeal.StageB

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

variable (W : Valuation τ sig (Elt Ideal))

theorem norms : after opsB W (Proc.devRef .tc main_v31)
    = normVec gather_S100000_S1700000x1_S1700000_n_0_n_n_0_1_1_wf bcast_S_S1700000 bcast_S1700000_S1700000x1_0
        (W (Proc.devRef .tc main_v15)) (W (Proc.devRef .tc main_v5)) (W (Proc.devRef .tc main_v6)) (W (Proc.devRef .tc main_v8)) := by
  after_results_simp; rfl

theorem keeps_v1 : after opsB W (Proc.devRef .tc main_v1) = W (Proc.devRef .tc main_v1) := by
  after_results_simp

theorem keeps_v3 : after opsB W (Proc.devRef .tc main_v3) = W (Proc.devRef .tc main_v3) := by
  after_results_simp

theorem keeps_v5 : after opsB W (Proc.devRef .tc main_v5) = W (Proc.devRef .tc main_v5) := by
  after_results_simp

theorem keeps_v6 : after opsB W (Proc.devRef .tc main_v6) = W (Proc.devRef .tc main_v6) := by
  after_results_simp

theorem keeps_arg0 : after opsB W (Proc.devRef .tc main_arg0) = W (Proc.devRef .tc main_arg0) := by
  after_results_simp

theorem keeps_arg2 : after opsB W (Proc.devRef .tc main_arg2) = W (Proc.devRef .tc main_arg2) := by
  after_results_simp

theorem keeps_arg3 : after opsB W (Proc.devRef .tc main_arg3) = W (Proc.devRef .tc main_arg3) := by
  after_results_simp

theorem keeps_arg4 : after opsB W (Proc.devRef .tc main_arg4) = W (Proc.devRef .tc main_arg4) := by
  after_results_simp

theorem keeps_arg5 : after opsB W (Proc.devRef .tc main_arg5) = W (Proc.devRef .tc main_arg5) := by
  after_results_simp

theorem keeps_arg6 : after opsB W (Proc.devRef .tc main_arg6) = W (Proc.devRef .tc main_arg6) := by
  after_results_simp

end Cert.ReferenceIdeal.StageB

end
-- ==== Proof.RefDots.lean ====
/-
  The reference's two matrix products as sums.

  At the exact values the host's product of an M×K by a K×N matrix along their shared axis has, at `(p, j)`, the value
  `∑ k, l[p,k] · r[k,j]`: the features times the first weights is `hidden`, a table times the second weights is
  `projected`.
-/
import proofs.«177980_j66692252172820_2_alg».proof.Proof.Gen.ReferenceIdeal
import proofs.«177980_j66692252172820_2_alg».proof.Proof.GraphConvSpec
import proofs.«177980_j66692252172820_2_alg».proof.Proof.LibHostRows

noncomputable section

namespace Cert.ReferenceIdeal.Dots

open Cert.ReferenceIdeal Idealize.ShloMosaic Idealize.ShloMosaic.ValueIdx Cert.GraphConv

/-- The features times the first weight matrix. -/
theorem hidden_host (x0 : (⟨2, ![100000, 512]⟩ : Shape).Idx → EReal) (x3 : (⟨2, ![512, 128]⟩ : Shape).Idx → EReal) :
    Host.dotGeneral (F := Ideal) (φ₁ := .f32) (φ₂ := .f32) dot_S100000x512_S512x128_S100000x128_1_0_0_1_n_n none x0 x3
      = hidden x0 x3 := by
  funext i
  obtain ⟨p, j, rfl⟩ : ∃ (p : Fin 100000) (j : Fin 128), i = ix2 p j := ⟨i 0, i 1, eq_ix2 i⟩
  exact Cert.LibHostRows.hostDot_apply dot_S100000x512_S512x128_S100000x128_1_0_0_1_n_n rfl rfl
    (fun i q => by
      unfold DotDims.lhsIdx
      rw [dif_neg (show ¬(0 : Fin S100000x512.rank) ∈ dot_S100000x512_S512x128_S100000x128_1_0_0_1_n_n.lhsBatch by decide),
        dif_pos (show (0 : Fin S100000x512.rank) ∈ dot_S100000x512_S512x128_S100000x128_1_0_0_1_n_n.lhsNonContracting by decide)]
      rfl)
    (fun i q => dot_S100000x512_S512x128_S100000x128_1_0_0_1_n_n.lhsIdx_val_of_single rfl i q)
    (fun i q => dot_S100000x512_S512x128_S100000x128_1_0_0_1_n_n.rhsIdx_val_of_single rfl i q)
    (fun i q => by
      unfold DotDims.rhsIdx
      rw [dif_neg (show ¬(1 : Fin S512x128.rank) ∈ dot_S100000x512_S512x128_S100000x128_1_0_0_1_n_n.rhsBatch by decide),
        dif_pos (show (1 : Fin S512x128.rank) ∈ dot_S100000x512_S512x128_S100000x128_1_0_0_1_n_n.rhsNonContracting by decide)]
      rfl)
    none x0 x3 p j

/-- A table times the second weight matrix. -/
theorem projected_host (y : Table 128) (x5 : (⟨2, ![128, 16]⟩ : Shape).Idx → EReal) :
    Host.dotGeneral (F := Ideal) (φ₁ := .f32) (φ₂ := .f32) dot_S100000x128_S128x16_S100000x16_1_0_0_1_n_n none y x5
      = projected y x5 := by
  funext i
  obtain ⟨p, j, rfl⟩ : ∃ (p : Fin 100000) (j : Fin 16), i = ix2 p j := ⟨i 0, i 1, eq_ix2 i⟩
  exact Cert.LibHostRows.hostDot_apply dot_S100000x128_S128x16_S100000x16_1_0_0_1_n_n rfl rfl
    (fun i q => by
      unfold DotDims.lhsIdx
      rw [dif_neg (show ¬(0 : Fin S100000x128.rank) ∈ dot_S100000x128_S128x16_S100000x16_1_0_0_1_n_n.lhsBatch by decide),
        dif_pos (show (0 : Fin S100000x128.rank) ∈ dot_S100000x128_S128x16_S100000x16_1_0_0_1_n_n.lhsNonContracting by decide)]
      rfl)
    (fun i q => dot_S100000x128_S128x16_S100000x16_1_0_0_1_n_n.lhsIdx_val_of_single rfl i q)
    (fun i q => dot_S100000x128_S128x16_S100000x16_1_0_0_1_n_n.rhsIdx_val_of_single rfl i q)
    (fun i q => by
      unfold DotDims.rhsIdx
      rw [dif_neg (show ¬(1 : Fin S128x16.rank) ∈ dot_S100000x128_S128x16_S100000x16_1_0_0_1_n_n.rhsBatch by decide),
        dif_pos (show (1 : Fin S128x16.rank) ∈ dot_S100000x128_S128x16_S100000x16_1_0_0_1_n_n.rhsNonContracting by decide)]
      rfl)
    none y x5 p j

end Cert.ReferenceIdeal.Dots

end
-- ==== Proof.RefStageC.lean ====
/-
  The reference's fifth stretch: the first layer before the positive part.

  The features' product with the first weights; its rows gathered along the joined rows, scaled by the norms and
  scattered onto the far ends from zero; the bias spread over the nodes.  With the joined rows
  being the edges followed by the nodes themselves and the norms the symmetric ones, this is the specification's
  first layer: the appended rows contribute the self loop.
-/
import proofs.«177980_j66692252172820_2_alg».proof.Proof.RefRun
import proofs.«177980_j66692252172820_2_alg».proof.Proof.HostStages
import proofs.«177980_j66692252172820_2_alg».proof.Proof.JoinedEdges
import proofs.«177980_j66692252172820_2_alg».proof.Proof.RefDots
set_option maxRecDepth 16384

noncomputable section

namespace Cert.ReferenceIdeal.StageC

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

/-- The first layer before the positive part, as the host computes it over the joined rows. -/
def layer1Host (x0 : (⟨2, ![100000, 512]⟩ : Shape).Idx → EReal) (x3 : (⟨2, ![512, 128]⟩ : Shape).Idx → EReal)
    (x4 : (⟨1, ![128]⟩ : Shape).Idx → EReal) (s d : IVec ⟨1, ![1700000]⟩ 32)
    (nrm : (⟨1, ![1700000]⟩ : Shape).Idx → EReal) : Table 128 :=
  (addf (F := Ideal) (φ := .f32)
      (aggregated (R := 1700000) (C := 128) scatter_S100000x128_S1700000x1_S1700000x128_1_0_0_1_wf
        gather_S100000x128_S1700000x1_S1700000x128_1_0_n_n_0_1_1128_wf bcast_S_S100000x128 bcast_S_S1700000
        bcast_S1700000_S1700000x1_0 bcast_S1700000x1_S1700000x128_0_1
        (Host.dotGeneral (F := Ideal) (φ₁ := .f32) (φ₂ := .f32) dot_S100000x512_S512x128_S100000x128_1_0_0_1_n_n none x0 x3)
        s d nrm)
      (broadcastInDim S100000x128 ![0, 1] bcast_S1x128_S100000x128_0_1 (broadcastInDim S1x128 ![1] bcast_S128_S1x128_1 x4)))

variable (W : Valuation τ sig (Elt Ideal))

theorem layer1_host : after opsC W (Proc.devRef .tc main_v48)
    = layer1Host (W (Proc.devRef .tc main_arg0)) (W (Proc.devRef .tc main_arg3)) (W (Proc.devRef .tc main_arg4))
        (W (Proc.devRef .tc main_v5)) (W (Proc.devRef .tc main_v6)) (W (Proc.devRef .tc main_v31)) := by
  after_results_simp; rfl

theorem keeps_v1 : after opsC W (Proc.devRef .tc main_v1) = W (Proc.devRef .tc main_v1) := by
  after_results_simp

theorem keeps_v3 : after opsC W (Proc.devRef .tc main_v3) = W (Proc.devRef .tc main_v3) := by
  after_results_simp

theorem keeps_arg2 : after opsC W (Proc.devRef .tc main_arg2) = W (Proc.devRef .tc main_arg2) := by
  after_results_simp

theorem keeps_arg5 : after opsC W (Proc.devRef .tc main_arg5) = W (Proc.devRef .tc main_arg5) := by
  after_results_simp

theorem keeps_arg6 : after opsC W (Proc.devRef .tc main_arg6) = W (Proc.devRef .tc main_arg6) := by
  after_results_simp

/-- The host's first layer before the positive part, at node `p`, column `k`. -/
theorem layer1Host_apply (x0 : (⟨2, ![100000, 512]⟩ : Shape).Idx → EReal) (x3 : (⟨2, ![512, 128]⟩ : Shape).Idx → EReal)
    (x4 : (⟨1, ![128]⟩ : Shape).Idx → EReal) (s d : IVec ⟨1, ![1700000]⟩ 32)
    (nrm : (⟨1, ![1700000]⟩ : Shape).Idx → EReal) (p : Fin 100000) (k : Fin 128) :
    layer1Host x0 x3 x4 s d nrm (ix2 p k)
      = (z32 + ∑ e : Fin 1700000, if (d (ix1 e)).toInt = (p.val : Int)
          then hidden x0 x3 (ix2 (rowOf (s (ix1 e))) k) * nrm (ix1 e) else 0) + x4 (ix1 k) := by
  unfold layer1Host
  rw [Cert.ReferenceIdeal.Dots.hidden_host, addf_apply, aggregated_apply (by decide),
    Cert.LibHostRows.rowOfVec_spread_apply (by decide)]

/-- Over the edges followed by the nodes themselves, with the symmetric norms, the host's first layer before the
    positive part is the specification's convolution. -/
theorem layer1Host_joined (hcat : Joins) (dv : Nodes) (s d : EdgeWords) (w : EdgeVals)
    (x0 : (⟨2, ![100000, 512]⟩ : Shape).Idx → EReal) (x3 : (⟨2, ![512, 128]⟩ : Shape).Idx → EReal)
    (x4 : (⟨1, ![128]⟩ : Shape).Idx → EReal) (nrm : (⟨1, ![1700000]⟩ : Shape).Idx → EReal)
    (hE : ∀ e : Fin 1600000, nrm (ix1 (Fin.castAdd 100000 e)) = edgeNorm dv s d w e)
    (hN : ∀ k : Fin 100000, nrm (ix1 (Fin.natAdd 1600000 k)) = (dv (ix1 k) * one32) * dv (ix1 k))
    (p : Fin 100000) (k : Fin 128) :
    layer1Host x0 x3 x4 (joinW hcat s) (joinW hcat d) nrm (ix2 p k)
      = conv dv s d w (hidden x0 x3) (fun k => x4 (ix1 k)) p k := by
  rw [layer1Host_apply, inflow_joined hcat dv s d w (hidden x0 x3) nrm hE hN,
    conv_regroup dv s d w (hidden x0 x3) (fun k => x4 (ix1 k))]

end Cert.ReferenceIdeal.StageC

end
-- ==== Proof.RefStageC2.lean ====
/-
  The reference's sixth stretch: the positive part of the first layer (the outlined `relu`).
-/
import proofs.«177980_j66692252172820_2_alg».proof.Proof.RefRun
import proofs.«177980_j66692252172820_2_alg».proof.Proof.HostStages
import proofs.«177980_j66692252172820_2_alg».proof.Proof.JoinedEdges
import proofs.«177980_j66692252172820_2_alg».proof.Proof.RefStageG
set_option maxRecDepth 16384

noncomputable section

namespace Cert.ReferenceIdeal.StageC2

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

variable (W : Valuation τ sig (Elt Ideal))

theorem positive_part : after opsC2 W (Proc.devRef .tc main_v49)
    = maximumf (F := Ideal) (φ := .f32) (W (Proc.devRef .tc main_v48)) (zerosOf S100000x128 bcast_S_S100000x128) := by
  after_results_simp
  simp only [Cert.ReferenceIdeal.StageG.ofBuf_toBuf]
  rfl

theorem keeps_v1 : after opsC2 W (Proc.devRef .tc main_v1) = W (Proc.devRef .tc main_v1) := by
  after_results_simp

theorem keeps_v3 : after opsC2 W (Proc.devRef .tc main_v3) = W (Proc.devRef .tc main_v3) := by
  after_results_simp

theorem keeps_arg2 : after opsC2 W (Proc.devRef .tc main_arg2) = W (Proc.devRef .tc main_arg2) := by
  after_results_simp

theorem keeps_arg5 : after opsC2 W (Proc.devRef .tc main_arg5) = W (Proc.devRef .tc main_arg5) := by
  after_results_simp

theorem keeps_arg6 : after opsC2 W (Proc.devRef .tc main_arg6) = W (Proc.devRef .tc main_arg6) := by
  after_results_simp

end Cert.ReferenceIdeal.StageC2

end
-- ==== Proof.RefStageD.lean ====
/-
  The reference's seventh stretch: the second convolution builds the joined vectors again, from the index
  words and weights that passed through; the first layer's output passes through.
-/
import proofs.«177980_j66692252172820_2_alg».proof.Proof.RefRun
import proofs.«177980_j66692252172820_2_alg».proof.Proof.HostStages
import proofs.«177980_j66692252172820_2_alg».proof.Proof.JoinedEdges

set_option maxRecDepth 16384

noncomputable section

namespace Cert.ReferenceIdeal.StageD

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

variable (W : Valuation τ sig (Elt Ideal))

theorem joined_near : after opsD W (Proc.devRef .tc main_v51)
    = joinW concatenates_S1600000_S100000_S1700000_d0 (W (Proc.devRef .tc main_v1)) := by
  after_results_simp; rfl

theorem joined_far : after opsD W (Proc.devRef .tc main_v52)
    = joinW concatenates_S1600000_S100000_S1700000_d0 (W (Proc.devRef .tc main_v3)) := by
  after_results_simp; rfl

theorem joined_weights : after opsD W (Proc.devRef .tc main_v54)
    = joinV concatenates_S1600000_S100000_S1700000_d0 bcast_S_S100000 (W (Proc.devRef .tc main_arg2)) := by
  after_results_simp; rfl

theorem keeps_v49 : after opsD W (Proc.devRef .tc main_v49) = W (Proc.devRef .tc main_v49) := by
  after_results_simp

theorem keeps_arg5 : after opsD W (Proc.devRef .tc main_arg5) = W (Proc.devRef .tc main_arg5) := by
  after_results_simp

theorem keeps_arg6 : after opsD W (Proc.devRef .tc main_arg6) = W (Proc.devRef .tc main_arg6) := by
  after_results_simp

end Cert.ReferenceIdeal.StageD

end
-- ==== Proof.RefStageD2.lean ====
/-
  The reference's eighth stretch: the degrees over the joined rows, their comparison with zero and their inverse
  square roots, once more.
-/
import proofs.«177980_j66692252172820_2_alg».proof.Proof.RefRun
import proofs.«177980_j66692252172820_2_alg».proof.Proof.HostStages
import proofs.«177980_j66692252172820_2_alg».proof.Proof.JoinedEdges

set_option maxRecDepth 16384

noncomputable section

namespace Cert.ReferenceIdeal.StageD2

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

variable (W : Valuation τ sig (Elt Ideal))

theorem positive : after opsD2 W (Proc.devRef .tc main_v59)
    = cmpf (F := Ideal) (φ := .f32) .ogt (inDegree scatter_S100000_S1700000x1_S1700000_n_0_0_1_wf bcast_S_S100000 bcast_S1700000_S1700000x1_0 (W (Proc.devRef .tc main_v52)) (W (Proc.devRef .tc main_v54)))
        (zerosOf ⟨1, ![100000]⟩ bcast_S_S100000) := by
  after_results_simp; rfl

theorem inverse_root : after opsD2 W (Proc.devRef .tc main_v60)
    = Host.rsqrt (F := Ideal) (φ := .f32) (inDegree scatter_S100000_S1700000x1_S1700000_n_0_0_1_wf bcast_S_S100000 bcast_S1700000_S1700000x1_0 (W (Proc.devRef .tc main_v52)) (W (Proc.devRef .tc main_v54))) := by
  after_results_simp; rfl

theorem zero_scalar : after opsD2 W (Proc.devRef .tc main_cst_12) = constant (F := Ideal) ⟨0, ![]⟩ .f32 0x00000000#32 := by
  after_results_simp

theorem keeps_v49 : after opsD2 W (Proc.devRef .tc main_v49) = W (Proc.devRef .tc main_v49) := by
  after_results_simp

theorem keeps_v51 : after opsD2 W (Proc.devRef .tc main_v51) = W (Proc.devRef .tc main_v51) := by
  after_results_simp

theorem keeps_v52 : after opsD2 W (Proc.devRef .tc main_v52) = W (Proc.devRef .tc main_v52) := by
  after_results_simp

theorem keeps_v54 : after opsD2 W (Proc.devRef .tc main_v54) = W (Proc.devRef .tc main_v54) := by
  after_results_simp

theorem keeps_arg5 : after opsD2 W (Proc.devRef .tc main_arg5) = W (Proc.devRef .tc main_arg5) := by
  after_results_simp

theorem keeps_arg6 : after opsD2 W (Proc.devRef .tc main_arg6) = W (Proc.devRef .tc main_arg6) := by
  after_results_simp

end Cert.ReferenceIdeal.StageD2

end
-- ==== Proof.RefStageD3.lean ====
/-
  The reference's ninth stretch: the inverse root where the degree is positive, zero elsewhere, once more.
-/
import proofs.«177980_j66692252172820_2_alg».proof.Proof.RefRun
import proofs.«177980_j66692252172820_2_alg».proof.Proof.HostStages
import proofs.«177980_j66692252172820_2_alg».proof.Proof.JoinedEdges
import proofs.«177980_j66692252172820_2_alg».proof.Proof.RefStageG
set_option maxRecDepth 16384

noncomputable section

namespace Cert.ReferenceIdeal.StageD3

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

variable (W : Valuation τ sig (Elt Ideal))

theorem chosen : after opsD3 W (Proc.devRef .tc main_v61)
    = select (W (Proc.devRef .tc main_v59)) (W (Proc.devRef .tc main_v60))
        (broadcastInDim (⟨1, ![100000]⟩ : Shape) ![] bcast_S_S100000 (W (Proc.devRef .tc main_cst_12))) := by
  after_results_simp
  simp only [Cert.ReferenceIdeal.StageG.ofBuf_toBuf]
  rfl

theorem keeps_v49 : after opsD3 W (Proc.devRef .tc main_v49) = W (Proc.devRef .tc main_v49) := by
  after_results_simp

theorem keeps_v51 : after opsD3 W (Proc.devRef .tc main_v51) = W (Proc.devRef .tc main_v51) := by
  after_results_simp

theorem keeps_v52 : after opsD3 W (Proc.devRef .tc main_v52) = W (Proc.devRef .tc main_v52) := by
  after_results_simp

theorem keeps_v54 : after opsD3 W (Proc.devRef .tc main_v54) = W (Proc.devRef .tc main_v54) := by
  after_results_simp

theorem keeps_arg5 : after opsD3 W (Proc.devRef .tc main_arg5) = W (Proc.devRef .tc main_arg5) := by
  after_results_simp

theorem keeps_arg6 : after opsD3 W (Proc.devRef .tc main_arg6) = W (Proc.devRef .tc main_arg6) := by
  after_results_simp

end Cert.ReferenceIdeal.StageD3

end
-- ==== Proof.RefStageE.lean ====
/-
  The reference's tenth stretch: the symmetric norm of every joined row once more; the first layer's output and the
  joined index words pass through.
-/
import proofs.«177980_j66692252172820_2_alg».proof.Proof.RefRun
import proofs.«177980_j66692252172820_2_alg».proof.Proof.HostStages
import proofs.«177980_j66692252172820_2_alg».proof.Proof.JoinedEdges

set_option maxRecDepth 16384

noncomputable section

namespace Cert.ReferenceIdeal.StageE

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

variable (W : Valuation τ sig (Elt Ideal))

theorem norms : after opsE W (Proc.devRef .tc main_v77)
    = normVec gather_S100000_S1700000x1_S1700000_n_0_n_n_0_1_1_wf bcast_S_S1700000 bcast_S1700000_S1700000x1_0
        (W (Proc.devRef .tc main_v61)) (W (Proc.devRef .tc main_v51)) (W (Proc.devRef .tc main_v52)) (W (Proc.devRef .tc main_v54)) := by
  after_results_simp; rfl

theorem keeps_v49 : after opsE W (Proc.devRef .tc main_v49) = W (Proc.devRef .tc main_v49) := by
  after_results_simp

theorem keeps_v51 : after opsE W (Proc.devRef .tc main_v51) = W (Proc.devRef .tc main_v51) := by
  after_results_simp

theorem keeps_v52 : after opsE W (Proc.devRef .tc main_v52) = W (Proc.devRef .tc main_v52) := by
  after_results_simp

theorem keeps_arg5 : after opsE W (Proc.devRef .tc main_arg5) = W (Proc.devRef .tc main_arg5) := by
  after_results_simp

theorem keeps_arg6 : after opsE W (Proc.devRef .tc main_arg6) = W (Proc.devRef .tc main_arg6) := by
  after_results_simp

end Cert.ReferenceIdeal.StageE

end
-- ==== Proof.RefStageF.lean ====
/-
  The reference's eleventh stretch: the second layer before the log-softmax.

  The first layer's output times the second weights; its rows gathered along the joined rows, scaled by the norms and
  scattered onto the far ends from zero; the bias spread over the nodes.  Over the edges followed by the nodes
  themselves, with the symmetric norms, this is the specification's second convolution: the appended rows contribute
  the self loop.
-/
import proofs.«177980_j66692252172820_2_alg».proof.Proof.RefRun
import proofs.«177980_j66692252172820_2_alg».proof.Proof.HostStages
import proofs.«177980_j66692252172820_2_alg».proof.Proof.JoinedEdges
import proofs.«177980_j66692252172820_2_alg».proof.Proof.RefDots
set_option maxRecDepth 16384

noncomputable section

namespace Cert.ReferenceIdeal.StageF

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges

/-- The second convolution as the host computes it over the joined rows. -/
def logitsHost (y : Table 128) (x5 : (⟨2, ![128, 16]⟩ : Shape).Idx → EReal) (x6 : (⟨1, ![16]⟩ : Shape).Idx → EReal)
    (s d : IVec ⟨1, ![1700000]⟩ 32) (nrm : (⟨1, ![1700000]⟩ : Shape).Idx → EReal) : Table 16 :=
  addf (F := Ideal) (φ := .f32)
    (aggregated (R := 1700000) (C := 16) scatter_S100000x16_S1700000x1_S1700000x16_1_0_0_1_wf
      gather_S100000x16_S1700000x1_S1700000x16_1_0_n_n_0_1_116_wf bcast_S_S100000x16 bcast_S_S1700000
      bcast_S1700000_S1700000x1_0 bcast_S1700000x1_S1700000x16_0_1
      (Host.dotGeneral (F := Ideal) (φ₁ := .f32) (φ₂ := .f32) dot_S100000x128_S128x16_S100000x16_1_0_0_1_n_n none y x5)
      s d nrm)
    (broadcastInDim S100000x16 ![0, 1] bcast_S1x16_S100000x16_0_1 (broadcastInDim S1x16 ![1] bcast_S16_S1x16_1 x6))

variable (W : Valuation τ sig (Elt Ideal))

theorem logits_host : after opsF W (Proc.devRef .tc main_v94)
    = logitsHost (W (Proc.devRef .tc main_v49)) (W (Proc.devRef .tc main_arg5)) (W (Proc.devRef .tc main_arg6))
        (W (Proc.devRef .tc main_v51)) (W (Proc.devRef .tc main_v52)) (W (Proc.devRef .tc main_v77)) := by
  after_results_simp; rfl

/-- The host's second convolution at node `p`, column `k`. -/
theorem logitsHost_apply (y : Table 128) (x5 : (⟨2, ![128, 16]⟩ : Shape).Idx → EReal)
    (x6 : (⟨1, ![16]⟩ : Shape).Idx → EReal) (s d : IVec ⟨1, ![1700000]⟩ 32)
    (nrm : (⟨1, ![1700000]⟩ : Shape).Idx → EReal) (p : Fin 100000) (k : Fin 16) :
    logitsHost y x5 x6 s d nrm (ix2 p k)
      = (z32 + ∑ e : Fin 1700000, if (d (ix1 e)).toInt = (p.val : Int)
          then projected y x5 (ix2 (rowOf (s (ix1 e))) k) * nrm (ix1 e) else 0) + x6 (ix1 k) := by
  unfold logitsHost
  rw [Cert.ReferenceIdeal.Dots.projected_host, addf_apply, aggregated_apply (by decide),
    Cert.LibHostRows.rowOfVec_spread_apply (by decide)]

/-- Over the edges followed by the nodes themselves, with the symmetric norms, the host's second convolution is
    the specification's. -/
theorem logitsHost_joined (hcat : Joins) (dv : Nodes) (s d : EdgeWords) (w : EdgeVals) (y : Table 128)
    (x5 : (⟨2, ![128, 16]⟩ : Shape).Idx → EReal) (x6 : (⟨1, ![16]⟩ : Shape).Idx → EReal)
    (nrm : (⟨1, ![1700000]⟩ : Shape).Idx → EReal)
    (hE : ∀ e : Fin 1600000, nrm (ix1 (Fin.castAdd 100000 e)) = edgeNorm dv s d w e)
    (hN : ∀ k : Fin 100000, nrm (ix1 (Fin.natAdd 1600000 k)) = (dv (ix1 k) * one32) * dv (ix1 k))
    (p : Fin 100000) (k : Fin 16) :
    logitsHost y x5 x6 (joinW hcat s) (joinW hcat d) nrm (ix2 p k)
      = conv dv s d w (projected y x5) (fun k => x6 (ix1 k)) p k := by
  rw [logitsHost_apply, inflow_joined hcat dv s d w (projected y x5) nrm hE hN,
    conv_regroup dv s d w (projected y x5) (fun k => x6 (ix1 k))]

end Cert.ReferenceIdeal.StageF

end
-- ==== Proof.RefResult.lean ====
/-
  The reference's result is the specification's output.

  The twelve stretches are run one after the other from the launch contents `V`.  The first three leave the joined
  vectors and the inverse root of the degrees; the fourth the symmetric norms of the joined rows; the fifth and sixth
  the first layer, which over the edges followed by the nodes themselves is the specification's first layer (the
  appended rows are the self loops); the seventh to tenth compute the same joined vectors, inverse roots and norms
  again; the eleventh the second convolution; the twelfth the row-wise log-softmax.  Everything a later stretch reads
  passes unchanged through the stretches in between.
-/
import proofs.«177980_j66692252172820_2_alg».proof.Proof.RefStageA
import proofs.«177980_j66692252172820_2_alg».proof.Proof.RefStageA2
import proofs.«177980_j66692252172820_2_alg».proof.Proof.RefStageA3
import proofs.«177980_j66692252172820_2_alg».proof.Proof.RefStageB
import proofs.«177980_j66692252172820_2_alg».proof.Proof.RefStageC
import proofs.«177980_j66692252172820_2_alg».proof.Proof.RefStageC2
import proofs.«177980_j66692252172820_2_alg».proof.Proof.RefStageD
import proofs.«177980_j66692252172820_2_alg».proof.Proof.RefStageD2
import proofs.«177980_j66692252172820_2_alg».proof.Proof.RefStageD3
import proofs.«177980_j66692252172820_2_alg».proof.Proof.RefStageE
import proofs.«177980_j66692252172820_2_alg».proof.Proof.RefStageF
import proofs.«177980_j66692252172820_2_alg».proof.Proof.RefStageG

set_option maxRecDepth 16384

noncomputable section

namespace Cert.ReferenceIdeal.Result

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.IndexOps Cert.HostPatterns Cert.GraphConv Cert.HostStages Cert.JoinedEdges
open Cert.ReferenceIdeal.StageA (nearVec farVec)

/-- The contents after each stretch, from the launch contents. -/
def T1 (V : Valuation τ sig (Elt Ideal)) : Valuation τ sig (Elt Ideal) := after opsA V
def T2 (V : Valuation τ sig (Elt Ideal)) : Valuation τ sig (Elt Ideal) := after opsA2 (T1 V)
def T3 (V : Valuation τ sig (Elt Ideal)) : Valuation τ sig (Elt Ideal) := after opsA3 (T2 V)
def T4 (V : Valuation τ sig (Elt Ideal)) : Valuation τ sig (Elt Ideal) := after opsB (T3 V)
def T5 (V : Valuation τ sig (Elt Ideal)) : Valuation τ sig (Elt Ideal) := after opsC (T4 V)
def T6 (V : Valuation τ sig (Elt Ideal)) : Valuation τ sig (Elt Ideal) := after opsC2 (T5 V)
def T7 (V : Valuation τ sig (Elt Ideal)) : Valuation τ sig (Elt Ideal) := after opsD (T6 V)
def T8 (V : Valuation τ sig (Elt Ideal)) : Valuation τ sig (Elt Ideal) := after opsD2 (T7 V)
def T9 (V : Valuation τ sig (Elt Ideal)) : Valuation τ sig (Elt Ideal) := after opsD3 (T8 V)
def T10 (V : Valuation τ sig (Elt Ideal)) : Valuation τ sig (Elt Ideal) := after opsE (T9 V)
def T11 (V : Valuation τ sig (Elt Ideal)) : Valuation τ sig (Elt Ideal) := after opsF (T10 V)
def T12 (V : Valuation τ sig (Elt Ideal)) : Valuation τ sig (Elt Ideal) := after opsG (T11 V)

theorem U12_eq (V : Valuation τ sig (Elt Ideal)) : U12 V = T12 V := rfl

/-- The symmetric norm over the joined rows, at an edge. -/
theorem joined_norm_edge (dvv : Nodes) (s d : EdgeWords) (w : EdgeVals) (e : Fin 1600000) :
    normVec gather_S100000_S1700000x1_S1700000_n_0_n_n_0_1_1_wf bcast_S_S1700000 bcast_S1700000_S1700000x1_0 dvv (joinW concatenates_S1600000_S100000_S1700000_d0 s) (joinW concatenates_S1600000_S100000_S1700000_d0 d) (joinV concatenates_S1600000_S100000_S1700000_d0 bcast_S_S100000 w) (ix1 (Fin.castAdd 100000 e))
      = edgeNorm dvv s d w e := by
  rw [normVec_apply (by decide)]
  exact norm_joined_edge concatenates_S1600000_S100000_S1700000_d0 bcast_S_S100000 dvv s d w e

/-- The symmetric norm over the joined rows, at a node's own appended row. -/
theorem joined_norm_node (dvv : Nodes) (s d : EdgeWords) (w : EdgeVals) (k : Fin 100000) :
    normVec gather_S100000_S1700000x1_S1700000_n_0_n_n_0_1_1_wf bcast_S_S1700000 bcast_S1700000_S1700000x1_0 dvv (joinW concatenates_S1600000_S100000_S1700000_d0 s) (joinW concatenates_S1600000_S100000_S1700000_d0 d) (joinV concatenates_S1600000_S100000_S1700000_d0 bcast_S_S100000 w) (ix1 (Fin.natAdd 1600000 k))
      = (dvv (ix1 k) * one32) * dvv (ix1 k) := by
  rw [normVec_apply (by decide)]
  exact norm_joined_node concatenates_S1600000_S100000_S1700000_d0 bcast_S_S100000 dvv s d w k

variable (V : Valuation τ sig (Elt Ideal))

/-- The inverse root of the degrees, from the launch contents of the index array and the weights. -/
def dv : Nodes := invRootPos (degree (farWords (V (Proc.devRef .tc main_arg1))) (V (Proc.devRef .tc main_arg2)))

/-! ## The joined vectors -/

theorem t1_v1 : T1 V (Proc.devRef .tc main_v1) = nearVec (V (Proc.devRef .tc main_arg1)) := StageA.near_words V
theorem t1_v3 : T1 V (Proc.devRef .tc main_v3) = farVec (V (Proc.devRef .tc main_arg1)) := StageA.far_words V
theorem t1_v5 : T1 V (Proc.devRef .tc main_v5) = joinW concatenates_S1600000_S100000_S1700000_d0 (nearVec (V (Proc.devRef .tc main_arg1))) := StageA.joined_near V
theorem t1_v6 : T1 V (Proc.devRef .tc main_v6) = joinW concatenates_S1600000_S100000_S1700000_d0 (farVec (V (Proc.devRef .tc main_arg1))) := StageA.joined_far V
theorem t1_v8 : T1 V (Proc.devRef .tc main_v8) = joinV concatenates_S1600000_S100000_S1700000_d0 bcast_S_S100000 (V (Proc.devRef .tc main_arg2)) := StageA.joined_weights V
theorem t1_arg0 : T1 V (Proc.devRef .tc main_arg0) = V (Proc.devRef .tc main_arg0) :=
  (StageA.keeps_arg0 V)
theorem t1_arg3 : T1 V (Proc.devRef .tc main_arg3) = V (Proc.devRef .tc main_arg3) :=
  (StageA.keeps_arg3 V)
theorem t1_arg4 : T1 V (Proc.devRef .tc main_arg4) = V (Proc.devRef .tc main_arg4) :=
  (StageA.keeps_arg4 V)
theorem t1_arg2 : T1 V (Proc.devRef .tc main_arg2) = V (Proc.devRef .tc main_arg2) :=
  (StageA.keeps_arg2 V)
theorem t1_arg5 : T1 V (Proc.devRef .tc main_arg5) = V (Proc.devRef .tc main_arg5) :=
  (StageA.keeps_arg5 V)
theorem t1_arg6 : T1 V (Proc.devRef .tc main_arg6) = V (Proc.devRef .tc main_arg6) :=
  (StageA.keeps_arg6 V)

/-! ## The degrees -/

theorem t2_v13 : T2 V (Proc.devRef .tc main_v13)
    = cmpf (F := Ideal) (φ := .f32) .ogt (inDegree scatter_S100000_S1700000x1_S1700000_n_0_0_1_wf bcast_S_S100000 bcast_S1700000_S1700000x1_0 (joinW concatenates_S1600000_S100000_S1700000_d0 (farVec (V (Proc.devRef .tc main_arg1)))) (joinV concatenates_S1600000_S100000_S1700000_d0 bcast_S_S100000 (V (Proc.devRef .tc main_arg2)))) (zerosOf ⟨1, ![100000]⟩ bcast_S_S100000) := by
  refine (StageA2.positive (T1 V)).trans ?_
  rw [t1_v6, t1_v8]
theorem t2_v14 : T2 V (Proc.devRef .tc main_v14) = Host.rsqrt (F := Ideal) (φ := .f32) (inDegree scatter_S100000_S1700000x1_S1700000_n_0_0_1_wf bcast_S_S100000 bcast_S1700000_S1700000x1_0 (joinW concatenates_S1600000_S100000_S1700000_d0 (farVec (V (Proc.devRef .tc main_arg1)))) (joinV concatenates_S1600000_S100000_S1700000_d0 bcast_S_S100000 (V (Proc.devRef .tc main_arg2)))) := by
  refine (StageA2.inverse_root (T1 V)).trans ?_
  rw [t1_v6, t1_v8]
theorem t2_cst_2 : T2 V (Proc.devRef .tc main_cst_2) = constant (F := Ideal) ⟨0, ![]⟩ .f32 0x00000000#32 :=
  StageA2.zero_scalar (T1 V)
theorem t2_arg0 : T2 V (Proc.devRef .tc main_arg0) = V (Proc.devRef .tc main_arg0) :=
  (StageA2.keeps_arg0 (T1 V)).trans (t1_arg0 V)
theorem t2_arg3 : T2 V (Proc.devRef .tc main_arg3) = V (Proc.devRef .tc main_arg3) :=
  (StageA2.keeps_arg3 (T1 V)).trans (t1_arg3 V)
theorem t2_arg4 : T2 V (Proc.devRef .tc main_arg4) = V (Proc.devRef .tc main_arg4) :=
  (StageA2.keeps_arg4 (T1 V)).trans (t1_arg4 V)
theorem t2_arg2 : T2 V (Proc.devRef .tc main_arg2) = V (Proc.devRef .tc main_arg2) :=
  (StageA2.keeps_arg2 (T1 V)).trans (t1_arg2 V)
theorem t2_arg5 : T2 V (Proc.devRef .tc main_arg5) = V (Proc.devRef .tc main_arg5) :=
  (StageA2.keeps_arg5 (T1 V)).trans (t1_arg5 V)
theorem t2_arg6 : T2 V (Proc.devRef .tc main_arg6) = V (Proc.devRef .tc main_arg6) :=
  (StageA2.keeps_arg6 (T1 V)).trans (t1_arg6 V)
theorem t2_v1 : T2 V (Proc.devRef .tc main_v1) = nearVec (V (Proc.devRef .tc main_arg1)) :=
  (StageA2.keeps_v1 (T1 V)).trans (t1_v1 V)
theorem t2_v3 : T2 V (Proc.devRef .tc main_v3) = farVec (V (Proc.devRef .tc main_arg1)) :=
  (StageA2.keeps_v3 (T1 V)).trans (t1_v3 V)
theorem t2_v5 : T2 V (Proc.devRef .tc main_v5) = joinW concatenates_S1600000_S100000_S1700000_d0 (nearVec (V (Proc.devRef .tc main_arg1))) :=
  (StageA2.keeps_v5 (T1 V)).trans (t1_v5 V)
theorem t2_v6 : T2 V (Proc.devRef .tc main_v6) = joinW concatenates_S1600000_S100000_S1700000_d0 (farVec (V (Proc.devRef .tc main_arg1))) :=
  (StageA2.keeps_v6 (T1 V)).trans (t1_v6 V)
theorem t2_v8 : T2 V (Proc.devRef .tc main_v8) = joinV concatenates_S1600000_S100000_S1700000_d0 bcast_S_S100000 (V (Proc.devRef .tc main_arg2)) :=
  (StageA2.keeps_v8 (T1 V)).trans (t1_v8 V)

/-! ## Their inverse roots -/

theorem t3_v15 : T3 V (Proc.devRef .tc main_v15) = dv V := by
  refine (StageA3.chosen (T2 V)).trans ?_
  rw [t2_v13, t2_v14, t2_cst_2]
  refine (StageA2.chosen_eq bcast_S_S100000 _).trans ?_
  rw [StageA2.inDegree_joined, StageA.farVec_eq]
  rfl
theorem t3_arg0 : T3 V (Proc.devRef .tc main_arg0) = V (Proc.devRef .tc main_arg0) :=
  (StageA3.keeps_arg0 (T2 V)).trans (t2_arg0 V)
theorem t3_arg3 : T3 V (Proc.devRef .tc main_arg3) = V (Proc.devRef .tc main_arg3) :=
  (StageA3.keeps_arg3 (T2 V)).trans (t2_arg3 V)
theorem t3_arg4 : T3 V (Proc.devRef .tc main_arg4) = V (Proc.devRef .tc main_arg4) :=
  (StageA3.keeps_arg4 (T2 V)).trans (t2_arg4 V)
theorem t3_arg2 : T3 V (Proc.devRef .tc main_arg2) = V (Proc.devRef .tc main_arg2) :=
  (StageA3.keeps_arg2 (T2 V)).trans (t2_arg2 V)
theorem t3_arg5 : T3 V (Proc.devRef .tc main_arg5) = V (Proc.devRef .tc main_arg5) :=
  (StageA3.keeps_arg5 (T2 V)).trans (t2_arg5 V)
theorem t3_arg6 : T3 V (Proc.devRef .tc main_arg6) = V (Proc.devRef .tc main_arg6) :=
  (StageA3.keeps_arg6 (T2 V)).trans (t2_arg6 V)
theorem t3_v1 : T3 V (Proc.devRef .tc main_v1) = nearVec (V (Proc.devRef .tc main_arg1)) :=
  (StageA3.keeps_v1 (T2 V)).trans (t2_v1 V)
theorem t3_v3 : T3 V (Proc.devRef .tc main_v3) = farVec (V (Proc.devRef .tc main_arg1)) :=
  (StageA3.keeps_v3 (T2 V)).trans (t2_v3 V)
theorem t3_v5 : T3 V (Proc.devRef .tc main_v5) = joinW concatenates_S1600000_S100000_S1700000_d0 (nearVec (V (Proc.devRef .tc main_arg1))) :=
  (StageA3.keeps_v5 (T2 V)).trans (t2_v5 V)
theorem t3_v6 : T3 V (Proc.devRef .tc main_v6) = joinW concatenates_S1600000_S100000_S1700000_d0 (farVec (V (Proc.devRef .tc main_arg1))) :=
  (StageA3.keeps_v6 (T2 V)).trans (t2_v6 V)
theorem t3_v8 : T3 V (Proc.devRef .tc main_v8) = joinV concatenates_S1600000_S100000_S1700000_d0 bcast_S_S100000 (V (Proc.devRef .tc main_arg2)) :=
  (StageA3.keeps_v8 (T2 V)).trans (t2_v8 V)

/-! ## The norms -/

theorem t4_v31 : T4 V (Proc.devRef .tc main_v31) = normVec gather_S100000_S1700000x1_S1700000_n_0_n_n_0_1_1_wf bcast_S_S1700000 bcast_S1700000_S1700000x1_0 (dv V) (joinW concatenates_S1600000_S100000_S1700000_d0 (nearVec (V (Proc.devRef .tc main_arg1)))) (joinW concatenates_S1600000_S100000_S1700000_d0 (farVec (V (Proc.devRef .tc main_arg1)))) (joinV concatenates_S1600000_S100000_S1700000_d0 bcast_S_S100000 (V (Proc.devRef .tc main_arg2))) := by
  refine (StageB.norms (T3 V)).trans ?_
  rw [t3_v15, t3_v5, t3_v6, t3_v8]
theorem t4_arg0 : T4 V (Proc.devRef .tc main_arg0) = V (Proc.devRef .tc main_arg0) :=
  (StageB.keeps_arg0 (T3 V)).trans (t3_arg0 V)
theorem t4_arg3 : T4 V (Proc.devRef .tc main_arg3) = V (Proc.devRef .tc main_arg3) :=
  (StageB.keeps_arg3 (T3 V)).trans (t3_arg3 V)
theorem t4_arg4 : T4 V (Proc.devRef .tc main_arg4) = V (Proc.devRef .tc main_arg4) :=
  (StageB.keeps_arg4 (T3 V)).trans (t3_arg4 V)
theorem t4_arg2 : T4 V (Proc.devRef .tc main_arg2) = V (Proc.devRef .tc main_arg2) :=
  (StageB.keeps_arg2 (T3 V)).trans (t3_arg2 V)
theorem t4_arg5 : T4 V (Proc.devRef .tc main_arg5) = V (Proc.devRef .tc main_arg5) :=
  (StageB.keeps_arg5 (T3 V)).trans (t3_arg5 V)
theorem t4_arg6 : T4 V (Proc.devRef .tc main_arg6) = V (Proc.devRef .tc main_arg6) :=
  (StageB.keeps_arg6 (T3 V)).trans (t3_arg6 V)
theorem t4_v1 : T4 V (Proc.devRef .tc main_v1) = nearVec (V (Proc.devRef .tc main_arg1)) :=
  (StageB.keeps_v1 (T3 V)).trans (t3_v1 V)
theorem t4_v3 : T4 V (Proc.devRef .tc main_v3) = farVec (V (Proc.devRef .tc main_arg1)) :=
  (StageB.keeps_v3 (T3 V)).trans (t3_v3 V)
theorem t4_v5 : T4 V (Proc.devRef .tc main_v5) = joinW concatenates_S1600000_S100000_S1700000_d0 (nearVec (V (Proc.devRef .tc main_arg1))) :=
  (StageB.keeps_v5 (T3 V)).trans (t3_v5 V)
theorem t4_v6 : T4 V (Proc.devRef .tc main_v6) = joinW concatenates_S1600000_S100000_S1700000_d0 (farVec (V (Proc.devRef .tc main_arg1))) :=
  (StageB.keeps_v6 (T3 V)).trans (t3_v6 V)

/-! ## The first layer -/

theorem t5_v48 (p : Fin 100000) (k : Fin 128) : T5 V (Proc.devRef .tc main_v48) (ix2 p k)
    = conv (dv V) (nearWords (V (Proc.devRef .tc main_arg1))) (farWords (V (Proc.devRef .tc main_arg1))) (V (Proc.devRef .tc main_arg2)) (hidden (V (Proc.devRef .tc main_arg0)) (V (Proc.devRef .tc main_arg3))) (fun k => (V (Proc.devRef .tc main_arg4)) (ix1 k)) p k := by
  refine (congrFun (StageC.layer1_host (T4 V)) (ix2 p k)).trans ?_
  rw [t4_arg0, t4_arg3, t4_arg4, t4_v5, t4_v6, t4_v31, StageA.nearVec_eq, StageA.farVec_eq]
  exact StageC.layer1Host_joined concatenates_S1600000_S100000_S1700000_d0 (dv V) (nearWords (V (Proc.devRef .tc main_arg1))) (farWords (V (Proc.devRef .tc main_arg1))) (V (Proc.devRef .tc main_arg2)) (V (Proc.devRef .tc main_arg0)) (V (Proc.devRef .tc main_arg3)) (V (Proc.devRef .tc main_arg4)) _
    (fun e => joined_norm_edge (dv V) (nearWords (V (Proc.devRef .tc main_arg1))) (farWords (V (Proc.devRef .tc main_arg1))) (V (Proc.devRef .tc main_arg2)) e)
    (fun k => joined_norm_node (dv V) (nearWords (V (Proc.devRef .tc main_arg1))) (farWords (V (Proc.devRef .tc main_arg1))) (V (Proc.devRef .tc main_arg2)) k) p k
theorem t5_arg2 : T5 V (Proc.devRef .tc main_arg2) = V (Proc.devRef .tc main_arg2) :=
  (StageC.keeps_arg2 (T4 V)).trans (t4_arg2 V)
theorem t5_arg5 : T5 V (Proc.devRef .tc main_arg5) = V (Proc.devRef .tc main_arg5) :=
  (StageC.keeps_arg5 (T4 V)).trans (t4_arg5 V)
theorem t5_arg6 : T5 V (Proc.devRef .tc main_arg6) = V (Proc.devRef .tc main_arg6) :=
  (StageC.keeps_arg6 (T4 V)).trans (t4_arg6 V)
theorem t5_v1 : T5 V (Proc.devRef .tc main_v1) = nearVec (V (Proc.devRef .tc main_arg1)) :=
  (StageC.keeps_v1 (T4 V)).trans (t4_v1 V)
theorem t5_v3 : T5 V (Proc.devRef .tc main_v3) = farVec (V (Proc.devRef .tc main_arg1)) :=
  (StageC.keeps_v3 (T4 V)).trans (t4_v3 V)

theorem t6_v49 : T6 V (Proc.devRef .tc main_v49) = layer1 (dv V) (nearWords (V (Proc.devRef .tc main_arg1))) (farWords (V (Proc.devRef .tc main_arg1))) (V (Proc.devRef .tc main_arg2)) (V (Proc.devRef .tc main_arg0)) (V (Proc.devRef .tc main_arg3)) (V (Proc.devRef .tc main_arg4)) := by
  refine (StageC2.positive_part (T5 V)).trans ?_
  funext i
  obtain ⟨p, k, rfl⟩ : ∃ (p : Fin 100000) (k : Fin 128), i = ix2 p k := ⟨i 0, i 1, eq_ix2 i⟩
  rw [maximumf_apply, t5_v48]
  rfl
theorem t6_arg2 : T6 V (Proc.devRef .tc main_arg2) = V (Proc.devRef .tc main_arg2) :=
  (StageC2.keeps_arg2 (T5 V)).trans (t5_arg2 V)
theorem t6_arg5 : T6 V (Proc.devRef .tc main_arg5) = V (Proc.devRef .tc main_arg5) :=
  (StageC2.keeps_arg5 (T5 V)).trans (t5_arg5 V)
theorem t6_arg6 : T6 V (Proc.devRef .tc main_arg6) = V (Proc.devRef .tc main_arg6) :=
  (StageC2.keeps_arg6 (T5 V)).trans (t5_arg6 V)
theorem t6_v1 : T6 V (Proc.devRef .tc main_v1) = nearVec (V (Proc.devRef .tc main_arg1)) :=
  (StageC2.keeps_v1 (T5 V)).trans (t5_v1 V)
theorem t6_v3 : T6 V (Proc.devRef .tc main_v3) = farVec (V (Proc.devRef .tc main_arg1)) :=
  (StageC2.keeps_v3 (T5 V)).trans (t5_v3 V)

/-! ## The joined vectors, the degrees, their inverse roots and the norms, again -/

theorem t7_v51 : T7 V (Proc.devRef .tc main_v51) = joinW concatenates_S1600000_S100000_S1700000_d0 (nearVec (V (Proc.devRef .tc main_arg1))) := by
  refine (StageD.joined_near (T6 V)).trans ?_
  rw [t6_v1]
theorem t7_v52 : T7 V (Proc.devRef .tc main_v52) = joinW concatenates_S1600000_S100000_S1700000_d0 (farVec (V (Proc.devRef .tc main_arg1))) := by
  refine (StageD.joined_far (T6 V)).trans ?_
  rw [t6_v3]
theorem t7_v54 : T7 V (Proc.devRef .tc main_v54) = joinV concatenates_S1600000_S100000_S1700000_d0 bcast_S_S100000 (V (Proc.devRef .tc main_arg2)) := by
  refine (StageD.joined_weights (T6 V)).trans ?_
  rw [t6_arg2]
theorem t7_arg5 : T7 V (Proc.devRef .tc main_arg5) = V (Proc.devRef .tc main_arg5) :=
  (StageD.keeps_arg5 (T6 V)).trans (t6_arg5 V)
theorem t7_arg6 : T7 V (Proc.devRef .tc main_arg6) = V (Proc.devRef .tc main_arg6) :=
  (StageD.keeps_arg6 (T6 V)).trans (t6_arg6 V)
theorem t7_v49 : T7 V (Proc.devRef .tc main_v49) = layer1 (dv V) (nearWords (V (Proc.devRef .tc main_arg1))) (farWords (V (Proc.devRef .tc main_arg1))) (V (Proc.devRef .tc main_arg2)) (V (Proc.devRef .tc main_arg0)) (V (Proc.devRef .tc main_arg3)) (V (Proc.devRef .tc main_arg4)) :=
  (StageD.keeps_v49 (T6 V)).trans (t6_v49 V)

theorem t8_v59 : T8 V (Proc.devRef .tc main_v59)
    = cmpf (F := Ideal) (φ := .f32) .ogt (inDegree scatter_S100000_S1700000x1_S1700000_n_0_0_1_wf bcast_S_S100000 bcast_S1700000_S1700000x1_0 (joinW concatenates_S1600000_S100000_S1700000_d0 (farVec (V (Proc.devRef .tc main_arg1)))) (joinV concatenates_S1600000_S100000_S1700000_d0 bcast_S_S100000 (V (Proc.devRef .tc main_arg2)))) (zerosOf ⟨1, ![100000]⟩ bcast_S_S100000) := by
  refine (StageD2.positive (T7 V)).trans ?_
  rw [t7_v52, t7_v54]
theorem t8_v60 : T8 V (Proc.devRef .tc main_v60) = Host.rsqrt (F := Ideal) (φ := .f32) (inDegree scatter_S100000_S1700000x1_S1700000_n_0_0_1_wf bcast_S_S100000 bcast_S1700000_S1700000x1_0 (joinW concatenates_S1600000_S100000_S1700000_d0 (farVec (V (Proc.devRef .tc main_arg1)))) (joinV concatenates_S1600000_S100000_S1700000_d0 bcast_S_S100000 (V (Proc.devRef .tc main_arg2)))) := by
  refine (StageD2.inverse_root (T7 V)).trans ?_
  rw [t7_v52, t7_v54]
theorem t8_cst_12 : T8 V (Proc.devRef .tc main_cst_12) = constant (F := Ideal) ⟨0, ![]⟩ .f32 0x00000000#32 :=
  StageD2.zero_scalar (T7 V)
theorem t8_arg5 : T8 V (Proc.devRef .tc main_arg5) = V (Proc.devRef .tc main_arg5) :=
  (StageD2.keeps_arg5 (T7 V)).trans (t7_arg5 V)
theorem t8_arg6 : T8 V (Proc.devRef .tc main_arg6) = V (Proc.devRef .tc main_arg6) :=
  (StageD2.keeps_arg6 (T7 V)).trans (t7_arg6 V)
theorem t8_v49 : T8 V (Proc.devRef .tc main_v49) = layer1 (dv V) (nearWords (V (Proc.devRef .tc main_arg1))) (farWords (V (Proc.devRef .tc main_arg1))) (V (Proc.devRef .tc main_arg2)) (V (Proc.devRef .tc main_arg0)) (V (Proc.devRef .tc main_arg3)) (V (Proc.devRef .tc main_arg4)) :=
  (StageD2.keeps_v49 (T7 V)).trans (t7_v49 V)
theorem t8_v51 : T8 V (Proc.devRef .tc main_v51) = joinW concatenates_S1600000_S100000_S1700000_d0 (nearVec (V (Proc.devRef .tc main_arg1))) :=
  (StageD2.keeps_v51 (T7 V)).trans (t7_v51 V)
theorem t8_v52 : T8 V (Proc.devRef .tc main_v52) = joinW concatenates_S1600000_S100000_S1700000_d0 (farVec (V (Proc.devRef .tc main_arg1))) :=
  (StageD2.keeps_v52 (T7 V)).trans (t7_v52 V)
theorem t8_v54 : T8 V (Proc.devRef .tc main_v54) = joinV concatenates_S1600000_S100000_S1700000_d0 bcast_S_S100000 (V (Proc.devRef .tc main_arg2)) :=
  (StageD2.keeps_v54 (T7 V)).trans (t7_v54 V)

theorem t9_v61 : T9 V (Proc.devRef .tc main_v61) = dv V := by
  refine (StageD3.chosen (T8 V)).trans ?_
  rw [t8_v59, t8_v60, t8_cst_12]
  refine (StageA2.chosen_eq bcast_S_S100000 _).trans ?_
  rw [StageA2.inDegree_joined, StageA.farVec_eq]
  rfl
theorem t9_arg5 : T9 V (Proc.devRef .tc main_arg5) = V (Proc.devRef .tc main_arg5) :=
  (StageD3.keeps_arg5 (T8 V)).trans (t8_arg5 V)
theorem t9_arg6 : T9 V (Proc.devRef .tc main_arg6) = V (Proc.devRef .tc main_arg6) :=
  (StageD3.keeps_arg6 (T8 V)).trans (t8_arg6 V)
theorem t9_v49 : T9 V (Proc.devRef .tc main_v49) = layer1 (dv V) (nearWords (V (Proc.devRef .tc main_arg1))) (farWords (V (Proc.devRef .tc main_arg1))) (V (Proc.devRef .tc main_arg2)) (V (Proc.devRef .tc main_arg0)) (V (Proc.devRef .tc main_arg3)) (V (Proc.devRef .tc main_arg4)) :=
  (StageD3.keeps_v49 (T8 V)).trans (t8_v49 V)
theorem t9_v51 : T9 V (Proc.devRef .tc main_v51) = joinW concatenates_S1600000_S100000_S1700000_d0 (nearVec (V (Proc.devRef .tc main_arg1))) :=
  (StageD3.keeps_v51 (T8 V)).trans (t8_v51 V)
theorem t9_v52 : T9 V (Proc.devRef .tc main_v52) = joinW concatenates_S1600000_S100000_S1700000_d0 (farVec (V (Proc.devRef .tc main_arg1))) :=
  (StageD3.keeps_v52 (T8 V)).trans (t8_v52 V)
theorem t9_v54 : T9 V (Proc.devRef .tc main_v54) = joinV concatenates_S1600000_S100000_S1700000_d0 bcast_S_S100000 (V (Proc.devRef .tc main_arg2)) :=
  (StageD3.keeps_v54 (T8 V)).trans (t8_v54 V)

theorem t10_v77 : T10 V (Proc.devRef .tc main_v77) = normVec gather_S100000_S1700000x1_S1700000_n_0_n_n_0_1_1_wf bcast_S_S1700000 bcast_S1700000_S1700000x1_0 (dv V) (joinW concatenates_S1600000_S100000_S1700000_d0 (nearVec (V (Proc.devRef .tc main_arg1)))) (joinW concatenates_S1600000_S100000_S1700000_d0 (farVec (V (Proc.devRef .tc main_arg1)))) (joinV concatenates_S1600000_S100000_S1700000_d0 bcast_S_S100000 (V (Proc.devRef .tc main_arg2))) := by
  refine (StageE.norms (T9 V)).trans ?_
  rw [t9_v61, t9_v51, t9_v52, t9_v54]
theorem t10_arg5 : T10 V (Proc.devRef .tc main_arg5) = V (Proc.devRef .tc main_arg5) :=
  (StageE.keeps_arg5 (T9 V)).trans (t9_arg5 V)
theorem t10_arg6 : T10 V (Proc.devRef .tc main_arg6) = V (Proc.devRef .tc main_arg6) :=
  (StageE.keeps_arg6 (T9 V)).trans (t9_arg6 V)
theorem t10_v49 : T10 V (Proc.devRef .tc main_v49) = layer1 (dv V) (nearWords (V (Proc.devRef .tc main_arg1))) (farWords (V (Proc.devRef .tc main_arg1))) (V (Proc.devRef .tc main_arg2)) (V (Proc.devRef .tc main_arg0)) (V (Proc.devRef .tc main_arg3)) (V (Proc.devRef .tc main_arg4)) :=
  (StageE.keeps_v49 (T9 V)).trans (t9_v49 V)
theorem t10_v51 : T10 V (Proc.devRef .tc main_v51) = joinW concatenates_S1600000_S100000_S1700000_d0 (nearVec (V (Proc.devRef .tc main_arg1))) :=
  (StageE.keeps_v51 (T9 V)).trans (t9_v51 V)
theorem t10_v52 : T10 V (Proc.devRef .tc main_v52) = joinW concatenates_S1600000_S100000_S1700000_d0 (farVec (V (Proc.devRef .tc main_arg1))) :=
  (StageE.keeps_v52 (T9 V)).trans (t9_v52 V)

/-! ## The second convolution -/

theorem t11_v94 (p : Fin 100000) (k : Fin 16) : T11 V (Proc.devRef .tc main_v94) (ix2 p k)
    = conv (dv V) (nearWords (V (Proc.devRef .tc main_arg1))) (farWords (V (Proc.devRef .tc main_arg1))) (V (Proc.devRef .tc main_arg2)) (projected (layer1 (dv V) (nearWords (V (Proc.devRef .tc main_arg1))) (farWords (V (Proc.devRef .tc main_arg1))) (V (Proc.devRef .tc main_arg2)) (V (Proc.devRef .tc main_arg0)) (V (Proc.devRef .tc main_arg3)) (V (Proc.devRef .tc main_arg4))) (V (Proc.devRef .tc main_arg5))) (fun k => (V (Proc.devRef .tc main_arg6)) (ix1 k)) p k := by
  refine (congrFun (StageF.logits_host (T10 V)) (ix2 p k)).trans ?_
  rw [t10_v49, t10_arg5, t10_arg6, t10_v51, t10_v52, t10_v77, StageA.nearVec_eq, StageA.farVec_eq]
  exact StageF.logitsHost_joined concatenates_S1600000_S100000_S1700000_d0 (dv V) (nearWords (V (Proc.devRef .tc main_arg1))) (farWords (V (Proc.devRef .tc main_arg1))) (V (Proc.devRef .tc main_arg2)) _ (V (Proc.devRef .tc main_arg5)) (V (Proc.devRef .tc main_arg6)) _
    (fun e => joined_norm_edge (dv V) (nearWords (V (Proc.devRef .tc main_arg1))) (farWords (V (Proc.devRef .tc main_arg1))) (V (Proc.devRef .tc main_arg2)) e)
    (fun k => joined_norm_node (dv V) (nearWords (V (Proc.devRef .tc main_arg1))) (farWords (V (Proc.devRef .tc main_arg1))) (V (Proc.devRef .tc main_arg2)) k) p k

/-! ## The result -/

theorem result : T12 V (Proc.devRef .tc main_v95)
    = output (dv V) (nearWords (V (Proc.devRef .tc main_arg1))) (farWords (V (Proc.devRef .tc main_arg1))) (V (Proc.devRef .tc main_arg2)) (V (Proc.devRef .tc main_arg0)) (V (Proc.devRef .tc main_arg3)) (V (Proc.devRef .tc main_arg4)) (V (Proc.devRef .tc main_arg5)) (V (Proc.devRef .tc main_arg6)) := by
  refine (StageG.log_softmax_rows (T11 V)).trans ?_
  funext i
  obtain ⟨p, q, rfl⟩ : ∃ (p : Fin 100000) (q : Fin 16), i = ix2 p q := ⟨i 0, i 1, eq_ix2 i⟩
  show Cert.RowLogSoftmax.rowLogSoftmax (fun k : Fin 16 => T11 V (Proc.devRef .tc main_v94) (ix2 p k)) q = _
  rw [funext fun k => t11_v94 V p k]
  rfl

end Cert.ReferenceIdeal.Result

end
-- ==== Proof.lean ====
/-
  A two-layer graph convolution with a row-wise log-softmax: the tiled kernel against its plain reference.

  Both programs compute, for 100000 nodes and 1600000 weighted edges: the degrees (the weights scattered onto the edges'
  far ends, plus one for the self loop), their inverse square roots where positive, the symmetric norm of every edge,
  and twice a convolution — a matrix product, the product's rows gathered along the edges, scaled by the norms and
  scatter-added onto the far ends, the node's own row weighted by the squared inverse root degree, the bias — followed
  by the positive part the first time and by a row-wise log-softmax the second.  The kernel does the matrix products,
  the self-loop term, the bias, the positive part and the log-softmax in four tiled regions and leaves the gathers and
  scatter-adds to the host; the reference appends the nodes themselves to the edge lists and lets one scatter-add
  over the joined rows produce the self-loop term.  Over the extended reals the two are one function of the
  arguments: a sum over the joined rows is the sum over the edges plus the one appended row that lands on the node,
  and the rest is commutativity and associativity of the sum and the product and `x · 1 = x`.  No finiteness of the
  inputs is used.
  The word-level kernel and its idealization are the same text (the idealization rewrote nothing), so `preserves`
  has nothing to state; the three frames are the generated frames of the two kernel programs and the reference's
  run with its result dropped.
-/
import proofs.«177980_j66692252172820_2_alg».proof.Defs
import proofs.«177980_j66692252172820_2_alg».proof.Proof.Gen.Kernel
import proofs.«177980_j66692252172820_2_alg».proof.Proof.Gen.Kernel.Frame
import proofs.«177980_j66692252172820_2_alg».proof.Proof.Gen.KernelIdeal
import proofs.«177980_j66692252172820_2_alg».proof.Proof.Gen.KernelIdeal.Frame
import proofs.«177980_j66692252172820_2_alg».proof.Proof.Gen.ReferenceIdeal
import proofs.«177980_j66692252172820_2_alg».proof.Proof.Gen.Pre_finite_inputs
import proofs.«177980_j66692252172820_2_alg».proof.Proof.KernelRun
import proofs.«177980_j66692252172820_2_alg».proof.Proof.KernelResult
import proofs.«177980_j66692252172820_2_alg».proof.Proof.RefResult
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the arguments both programs end with the specification's output of those arguments
    in their result buffers. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v62),
    Cert.KernelIdeal.ValueRun.run (F := Ideal) m ρ, ?_⟩
  refine (θ_run Cert.ReferenceIdeal.defs _ _).mono (fun _ h c => ⟨(h c).1.trans ?_, (h c).2⟩)
    (Cert.ReferenceIdeal.HandRun.run (F := Ideal) m' ρ')
  have e0 : launchContents m' c (Proc.devRef .tc Cert.ReferenceIdeal.main_arg0) = (m ((c.tc : Thread Cert.KernelIdeal.nD Cert.KernelIdeal.τ).loc Cert.KernelIdeal.main_arg0)) := (hagree c).1
  have e1 : launchContents m' c (Proc.devRef .tc Cert.ReferenceIdeal.main_arg1) = (m ((c.tc : Thread Cert.KernelIdeal.nD Cert.KernelIdeal.τ).loc Cert.KernelIdeal.main_arg1)) := (hagree c).2.1
  have e2 : launchContents m' c (Proc.devRef .tc Cert.ReferenceIdeal.main_arg2) = (m ((c.tc : Thread Cert.KernelIdeal.nD Cert.KernelIdeal.τ).loc Cert.KernelIdeal.main_arg2)) := (hagree c).2.2.1
  have e3 : launchContents m' c (Proc.devRef .tc Cert.ReferenceIdeal.main_arg3) = (m ((c.tc : Thread Cert.KernelIdeal.nD Cert.KernelIdeal.τ).loc Cert.KernelIdeal.main_arg3)) := (hagree c).2.2.2.1
  have e4 : launchContents m' c (Proc.devRef .tc Cert.ReferenceIdeal.main_arg4) = (m ((c.tc : Thread Cert.KernelIdeal.nD Cert.KernelIdeal.τ).loc Cert.KernelIdeal.main_arg4)) := (hagree c).2.2.2.2.1
  have e5 : launchContents m' c (Proc.devRef .tc Cert.ReferenceIdeal.main_arg5) = (m ((c.tc : Thread Cert.KernelIdeal.nD Cert.KernelIdeal.τ).loc Cert.KernelIdeal.main_arg5)) := (hagree c).2.2.2.2.2.1
  have e6 : launchContents m' c (Proc.devRef .tc Cert.ReferenceIdeal.main_arg6) = (m ((c.tc : Thread Cert.KernelIdeal.nD Cert.KernelIdeal.τ).loc Cert.KernelIdeal.main_arg6)) := (hagree c).2.2.2.2.2.2
  rw [Cert.ReferenceIdeal.Result.U12_eq]
  refine (Cert.ReferenceIdeal.Result.result (launchContents m' c)).trans ?_
  unfold Cert.ReferenceIdeal.Result.dv
  rw [e0, e1, e2, e3, e4, e5, e6]
  exact (Cert.KernelIdeal.Result.kernel_result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
